-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S4x1x2048x2048 : Shape := ⟨4, ![4, 1, 2048, 2048]⟩
abbrev S128x1024 : Shape := ⟨2, ![128, 1024]⟩
abbrev S1024x128 : Shape := ⟨2, ![1024, 128]⟩
abbrev S128 : Shape := ⟨1, ![128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S1024x128 .f32) (main_arg6 : FVec F S128 .f32) (main_arg7 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x128 .f32 := Host.absf main_arg5
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x2048x128 .f32) (main_arg1 : IVec S4x1x2048x2048 32) (main_arg2 : FVec F S128x1024 .f32) (main_arg3 : FVec F S128x1024 .f32) (main_arg4 : FVec F S128x1024 .f32) (main_arg5 : FVec F S1024x128 .f32) (main_arg6 : FVec F S128 .f32) (main_arg7 : FVec F S128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x1024 .f32 := Host.absf main_arg3
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg4
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg5 main_arg6 main_arg7 main_v13 main_v16
-- ==== Kernel.lean ====
abbrev S4x2048x128 : Shape := ⟨3, ![4, 2048, 128]⟩
abbrev S4x1x2048x2048 : Shape := ⟨4, ![4, 1, 2048, 2048]⟩
abbrev S128x1024 : Shape := ⟨2, ![128, 1024]⟩
abbrev S1024x128 : Shape := ⟨2, ![1024, 128]⟩
abbrev S128 : Shape := ⟨1, ![128]⟩
abbrev S128x3072 : Shape := ⟨2, ![128, 3072]⟩
abbrev S4x2048x3072 : Shape := ⟨3, ![4, 2048, 3072]⟩
abbrev S1x512x128 : Shape := ⟨3, ![1, 512, 128]⟩
abbrev S1x512x3072 : Shape := ⟨3, ![1, 512, 3072]⟩
abbrev S512x128 : Shape := ⟨2, ![512, 128]⟩
abbrev S512x3072 : Shape := ⟨2, ![512, 3072]⟩
abbrev S4x8x2048x2048 : Shape := ⟨4, ![4, 8, 2048, 2048]⟩
abbrev S1x2048x1024 : Shape := ⟨3, ![1, 2048, 1024]⟩
abbrev S1x1x512x2048 : Shape := ⟨4, ![1, 1, 512, 2048]⟩
abbrev S512x1024 : Shape := ⟨2, ![512, 1024]⟩
abbrev S1x2048x128 : Shape := ⟨3, ![1, 2048, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1x128 : Shape := ⟨2, ![1, 128]⟩

abbrev nBuf : Space → Nat
  | .hbm => 14
  | .vmem => 23
  | .smem => 0
  | _ => 0

abbrev bufTy : (tb : Table) → Fin (tcTables nBuf tb) → BufTy
  | .hbm, ⟨0, _⟩ => ⟨S4x2048x128, .f32⟩
  | .hbm, ⟨1, _⟩ => ⟨S4x1x2048x2048, .i32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x128, .f32⟩
  | .hbm, ⟨6, _⟩ => ⟨S128, .f32⟩
  | .hbm, ⟨7, _⟩ => ⟨S128, .f32⟩
  | .hbm, ⟨8, _⟩ => ⟨S128x3072, .f32⟩
  | .hbm, ⟨9, _⟩ => ⟨S128x3072, .bf16⟩
  | .hbm, ⟨10, _⟩ => ⟨S1024x128, .bf16⟩
  | .hbm, ⟨11, _⟩ => ⟨S4x2048x3072, .bf16⟩
  | .hbm, ⟨12, _⟩ => ⟨S4x2048x128, .f32⟩
  | .hbm, ⟨13, _⟩ => ⟨S4x8x2048x2048, .f32⟩
  | .local _ .vmem, ⟨0, _⟩ => ⟨S1x512x128, .f32⟩
  | .local _ .vmem, ⟨1, _⟩ => ⟨S1x512x128, .f32⟩
  | .local _ .vmem, ⟨2, _⟩ => ⟨S128x3072, .bf16⟩
  | .local _ .vmem, ⟨3, _⟩ => ⟨S1x512x3072, .bf16⟩
  | .local _ .vmem, ⟨4, _⟩ => ⟨S1x512x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x1x512x2048, .i32⟩
  | .local _ .vmem, ⟨12, _⟩ => ⟨S1x1x512x2048, .i32⟩
  | .local _ .vmem, ⟨13, _⟩ => ⟨S1x512x128, .f32⟩
  | .local _ .vmem, ⟨14, _⟩ => ⟨S1x512x128, .f32⟩
  | .local _ .vmem, ⟨15, _⟩ => ⟨S1024x128, .bf16⟩
  | .local _ .vmem, ⟨16, _⟩ => ⟨S128, .f32⟩
  | .local _ .vmem, ⟨17, _⟩ => ⟨S128, .f32⟩
  | .local _ .vmem, ⟨18, _⟩ => ⟨S1x512x128, .f32⟩
  | .local _ .vmem, ⟨19, _⟩ => ⟨S1x512x128, .f32⟩
  | .local _ .vmem, ⟨20, _⟩ => ⟨S1x1x512x2048, .f32⟩
  | .local _ .vmem, ⟨21, _⟩ => ⟨S1x1x512x2048, .f32⟩
  | .local _ .vmem, ⟨22, _⟩ => ⟨S512x1024, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 8], ![false, false, false]⟩

def k1_mult1 (i : grid1.Coords) : BitVec 32 :=
  let arg2 : BitVec 32 := BitVec.ofNat 32 (i 2).val
  let c128_i32 : BitVec 32 := 128#32
  let v0 : BitVec 32 := Scalar.muli arg2 c128_i32
  v0
def k1_off1 (i : grid1.Coords) : Fin 3 → Nat :=
  let c0_2 : Index := 0#32
  let c0_3 : Index := 0#32
  let arg2 : BitVec 32 := BitVec.ofNat 32 (i 2).val
  let c128_i32 : BitVec 32 := 128#32
  let v0 : BitVec 32 := Scalar.muli arg2 c128_i32
  let v1 : BitVec 32 := v0
  let v4 : Index := Scalar.indexCast v1
  ![0, 0, v4.toNat]
def k1_off2 (i : grid1.Coords) : Fin 2 → Nat :=
  let c0_19 : Index := 0#32
  let arg2 : BitVec 32 := BitVec.ofNat 32 (i 2).val
  let c128_i32 : BitVec 32 := 128#32
  let v0 : BitVec 32 := Scalar.muli arg2 c128_i32
  let v1 : BitVec 32 := v0
  let v33 : Index := Scalar.indexCast v1
  ![0, v33.toNat]
def k1_cond1 (i : grid1.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_20 : BitVec 32 := 0#32
  let v39 : BitVec 1 := Scalar.cmpi .ne v38 c0_i32_20
  v39

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x512x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S1x1x512x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

class Facts₀ : Prop where
  concatenates_S128x1024_S128x1024_S128x1024_S128x3072_d1 : Shape.Concatenates [S128x1024, S128x1024, S128x1024] S128x3072 1
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  h_S1x2048x128 : 0 < S1x2048x128.numel
  shapeCasts_S1x2048x128_S2048x128 : S1x2048x128.ShapeCasts S2048x128
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  h_S512x128 : 0 < S512x128.numel
  shapeCasts_S512x128_S512x128 : S512x128.ShapeCasts S512x128
  inb_S512x1024_S512x1024_0_0 : ∀ a, (![0, 0] : Fin 2 → Nat) a + S512x1024.size a ≤ S512x1024.size a
  h_S512x1024 : 0 < S512x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S512x128_S512 : S512x128.Reduces [1] S512
  broadcasts_S512x1_S512x128 : S512x1.Broadcasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  shapeCasts_S512x128_S1x512x128 : S512x128.ShapeCasts S1x512x128
  dot_S512x128_S128x3072_S512x3072_1_0_0_1_n_n_wf : DotDims.WF S512x128 S128x3072 S512x3072 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x128.size a
  hwx0_0 : ∀ i : grid0.Coords, EltTy.bits .f32 = 32 ∨ (Rect.block (s := S4x2048x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3072.size a ≤ S128x3072.size a
  hwx0_1 : ∀ i : grid0.Coords, EltTy.bits .bf16 = 32 ∨ (Rect.block (s := S128x3072) S128x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3072.size a ≤ S4x2048x3072.size a
  hwx0_2 : ∀ i : grid0.Coords, EltTy.bits .bf16 = 32 ∨ (Rect.block (s := S4x2048x3072) S1x512x3072.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1x2048x128.size a ≤ S1x2048x1024.size a
  k1_off2_inb : ∀ i : grid1.Coords, ∀ a, (k1_off2 i) a + S512x128.size a ≤ S512x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x2048.size a ≤ S4x1x2048x2048.size a
  hwx1_3 : ∀ i : grid1.Coords, EltTy.bits .i32 = 32 ∨ (Rect.block (s := S4x1x2048x2048) S1x1x512x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S4x2048x128.size a
  hwx1_4 : ∀ i : grid1.Coords, EltTy.bits .f32 = 32 ∨ (Rect.block (s := S4x2048x128) S1x512x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .bf16 = 32 ∨ (Rect.block (s := S1024x128) S1024x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x128.size a ≤ S4x2048x128.size a
  hwx1_8 : ∀ i : grid1.Coords, EltTy.bits .f32 = 32 ∨ (Rect.block (s := S4x2048x128) S1x512x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x512x2048.size a ≤ S4x8x2048x2048.size a
  hwx1_9 : ∀ i : grid1.Coords, EltTy.bits .f32 = 32 ∨ (Rect.block (s := S4x8x2048x2048) S1x1x512x2048.size (cc1_transform_9 i) (hinb1_9 i)).WholeWords (EltTy.packing .f32)

variable [Facts₀]

def dot_S512x128_S128x3072_S512x3072_1_0_0_1_n_n : DotDims S512x128 S128x3072 S512x3072 where
  lhsContracting := [1]
  rhsContracting := [0]
  lhsNonContracting := [0]
  rhsNonContracting := [1]
  lhsBatch := []
  rhsBatch := []
  wf := dot_S512x128_S128x3072_S512x3072_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4_0) S1x512x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v4_1) S1x1x512x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond1 i == 1#1) | 9 => fun _ => false | ⟨_ + 10, h⟩ => absurd h (Nat.not_lt.2 (Nat.le_add_left _ _))

class Facts : Prop extends Facts₀ where

variable [Facts]
-- ==== ReferenceIdeal.lean ====
abbrev S4x2048x128 : Shape := ⟨3, ![4, 2048, 128]⟩
abbrev S4x1x2048x2048 : Shape := ⟨4, ![4, 1, 2048, 2048]⟩
abbrev S128x1024 : Shape := ⟨2, ![128, 1024]⟩
abbrev S1024x128 : Shape := ⟨2, ![1024, 128]⟩
abbrev S128 : Shape := ⟨1, ![128]⟩
abbrev S4x2048x1024 : Shape := ⟨3, ![4, 2048, 1024]⟩
abbrev S4x2048x8x128 : Shape := ⟨4, ![4, 2048, 8, 128]⟩
abbrev S4x8x2048x128 : Shape := ⟨4, ![4, 8, 2048, 128]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x2048 : Shape := ⟨2, ![4, 2048]⟩
abbrev S4x2048x1 : Shape := ⟨3, ![4, 2048, 1]⟩
abbrev S1x1x128 : Shape := ⟨3, ![1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x1x2048x2048, .i32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x128, .f32⟩
  | .hbm, ⟨6, _⟩ => ⟨S128, .f32⟩
  | .hbm, ⟨7, _⟩ => ⟨S128, .f32⟩
  | .hbm, ⟨8, _⟩ => ⟨S4x2048x1024, .f32⟩
  | .hbm, ⟨9, _⟩ => ⟨S4x2048x8x128, .f32⟩
  | .hbm, ⟨10, _⟩ => ⟨S4x8x2048x128, .f32⟩
  | .hbm, ⟨11, _⟩ => ⟨S4x2048x1024, .f32⟩
  | .hbm, ⟨12, _⟩ => ⟨S4x2048x8x128, .f32⟩
  | .hbm, ⟨13, _⟩ => ⟨S4x8x2048x128, .f32⟩
  | .hbm, ⟨14, _⟩ => ⟨S4x2048x1024, .f32⟩
  | .hbm, ⟨15, _⟩ => ⟨S4x2048x8x128, .f32⟩
  | .hbm, ⟨16, _⟩ => ⟨S4x8x2048x128, .f32⟩
  | .hbm, ⟨17, _⟩ => ⟨S4x8x2048x2048, .f32⟩
  | .hbm, ⟨18, _⟩ => ⟨S_, .f32⟩
  | .hbm, ⟨19, _⟩ => ⟨S4x8x2048x2048, .f32⟩
  | .hbm, ⟨20, _⟩ => ⟨S4x8x2048x2048, .f32⟩
  | .hbm, ⟨21, _⟩ => ⟨S_, .i32⟩
  | .hbm, ⟨22, _⟩ => ⟨S4x1x2048x2048, .i32⟩
  | .hbm, ⟨23, _⟩ => ⟨S4x1x2048x2048, .i1⟩
  | .hbm, ⟨24, _⟩ => ⟨S_, .f32⟩
  | .hbm, ⟨25, _⟩ => ⟨S4x8x2048x2048, .i1⟩
  | .hbm, ⟨26, _⟩ => ⟨S4x8x2048x2048, .f32⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S_, .f32⟩
  | .hbm, ⟨31, _⟩ => ⟨S4x8x2048, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S4x8x2048x1, .f32⟩
  | .hbm, ⟨40, _⟩ => ⟨S4x8x2048x2048, .f32⟩
  | .hbm, ⟨41, _⟩ => ⟨S4x8x2048x2048, .f32⟩
  | .hbm, ⟨42, _⟩ => ⟨S4x8x2048x128, .f32⟩
  | .hbm, ⟨43, _⟩ => ⟨S4x2048x8x128, .f32⟩
  | .hbm, ⟨44, _⟩ => ⟨S4x2048x1024, .f32⟩
  | .hbm, ⟨45, _⟩ => ⟨S4x2048x128, .f32⟩
  | .hbm, ⟨46, _⟩ => ⟨S4x2048x128, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x128, .f32⟩
  | .hbm, ⟨54, _⟩ => ⟨S4x2048x128, .f32⟩
  | .hbm, ⟨55, _⟩ => ⟨S4x2048x128, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x128, .f32⟩
  | .hbm, ⟨63, _⟩ => ⟨S4x2048x128, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S4x2048x1, .f32⟩
  | .hbm, ⟨68, _⟩ => ⟨S4x2048x128, .f32⟩
  | .hbm, ⟨69, _⟩ => ⟨S4x2048x128, .f32⟩
  | .hbm, ⟨70, _⟩ => ⟨S1x1x128, .f32⟩
  | .hbm, ⟨71, _⟩ => ⟨S4x2048x128, .f32⟩
  | .hbm, ⟨72, _⟩ => ⟨S4x2048x128, .f32⟩
  | .hbm, ⟨73, _⟩ => ⟨S1x1x128, .f32⟩
  | .hbm, ⟨74, _⟩ => ⟨S4x2048x128, .f32⟩
  | .hbm, ⟨75, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  shapeCasts_S4x2048x1024_S4x2048x8x128 : S4x2048x1024.ShapeCasts S4x2048x8x128
  transposes_S4x2048x8x128_S4x8x2048x128_0_2_1_3 : S4x2048x8x128.Transposes [0, 2, 1, 3] S4x8x2048x128
  bcast_S_S4x8x2048x2048 : S_.BroadcastsInDim S4x8x2048x2048 (![] : Fin 0 → Fin S4x8x2048x2048.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x128_S4x2048x8x128_0_2_1_3 : S4x8x2048x128.Transposes [0, 2, 1, 3] S4x2048x8x128
  shapeCasts_S4x2048x8x128_S4x2048x1024 : S4x2048x8x128.ShapeCasts S4x2048x1024
  reducesTo_S4x2048x128_S4x2048_d2 : S4x2048x128.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x128_0_1_2 : S4x2048x1.BroadcastsInDim S4x2048x128 (![0, 1, 2] : Fin 3 → Fin S4x2048x128.rank)
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  dot_S4x2048x128_S128x1024_S4x2048x1024_2_0_01_1_n_n_wf : DotDims.WF S4x2048x128 S128x1024 S4x2048x1024 [2] [0] [0, 1] [1] [] []
  dot_S4x8x2048x128_S4x8x2048x128_S4x8x2048x2048_3_3_2_2_01_01_wf : DotDims.WF S4x8x2048x128 S4x8x2048x128 S4x8x2048x2048 [3] [3] [2] [2] [0, 1] [0, 1]
  dot_S4x8x2048x2048_S4x8x2048x128_S4x8x2048x128_3_2_2_3_01_01_wf : DotDims.WF S4x8x2048x2048 S4x8x2048x128 S4x8x2048x128 [3] [2] [2] [3] [0, 1] [0, 1]
  dot_S4x2048x1024_S1024x128_S4x2048x128_2_0_01_1_n_n_wf : DotDims.WF S4x2048x1024 S1024x128 S4x2048x128 [2] [0] [0, 1] [1] [] []

variable [Facts₀]

def dot_S4x2048x128_S128x1024_S4x2048x1024_2_0_01_1_n_n : DotDims S4x2048x128 S128x1024 S4x2048x1024 where
  lhsContracting := [2]
  rhsContracting := [0]
  lhsNonContracting := [0, 1]
  rhsNonContracting := [1]
  lhsBatch := []
  rhsBatch := []
  wf := dot_S4x2048x128_S128x1024_S4x2048x1024_2_0_01_1_n_n_wf
def dot_S4x8x2048x128_S4x8x2048x128_S4x8x2048x2048_3_3_2_2_01_01 : DotDims S4x8x2048x128 S4x8x2048x128 S4x8x2048x2048 where
  lhsContracting := [3]
  rhsContracting := [3]
  lhsNonContracting := [2]
  rhsNonContracting := [2]
  lhsBatch := [0, 1]
  rhsBatch := [0, 1]
  wf := dot_S4x8x2048x128_S4x8x2048x128_S4x8x2048x2048_3_3_2_2_01_01_wf
def dot_S4x8x2048x2048_S4x8x2048x128_S4x8x2048x128_3_2_2_3_01_01 : DotDims S4x8x2048x2048 S4x8x2048x128 S4x8x2048x128 where
  lhsContracting := [3]
  rhsContracting := [2]
  lhsNonContracting := [2]
  rhsNonContracting := [3]
  lhsBatch := [0, 1]
  rhsBatch := [0, 1]
  wf := dot_S4x8x2048x2048_S4x8x2048x128_S4x8x2048x128_3_2_2_3_01_01_wf
def dot_S4x2048x1024_S1024x128_S4x2048x128_2_0_01_1_n_n : DotDims S4x2048x1024 S1024x128 S4x2048x128 where
  lhsContracting := [2]
  rhsContracting := [0]
  lhsNonContracting := [0, 1]
  rhsNonContracting := [1]
  lhsBatch := []
  rhsBatch := []
  wf := dot_S4x2048x1024_S1024x128_S4x2048x128_2_0_01_1_n_n_wf

class Facts : Prop extends Facts₀ where

variable [Facts]
-- ==== Proof.R0.lean ====
import proofs.«134556_j2671469658755_2_alg».proof.Proof.Gen.KernelIdeal.Launch
import proofs.«134556_j2671469658755_2_alg».proof.Proof.Gen.KernelIdeal.Points
import proofs.«134556_j2671469658755_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The projection kernel: one row tile of `enc` times the whole weight matrix

At grid point `t = (b, st)` the body reads the tile `enc[b, 512·st … , :]` and the whole `[128, 3072]`
weight matrix and stores their product, so each input buffer is left as found and the output buffer holds the
product of the two input blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1x512x128 := Rect.unit (s := S1x512x128) ![0, 0, 0] S1x512x128.size inb_S1x512x128_S1x512x128_0_0_0
abbrev r0_w : Rect S128x3072 := Rect.unit (s := S128x3072) ![0, 0] S128x3072.size inb_S128x3072_S128x3072_0_0
abbrev r0_o : Rect S1x512x3072 := Rect.unit (s := S1x512x3072) ![0, 0, 0] S1x512x3072.size inb_S1x512x3072_S1x512x3072_0_0_0

/-- The output buffer after the body: its one whole-block store of the product of the two loaded blocks. -/
def out0_2 (x0 : Vec F S1x512x128 .f32) (x1 : Vec F S128x3072 .bf16) : Vec F S1x512x3072 .bf16 :=
  View.canon [⟨r0_o, k0_pay1 (View.ld x0 r0_a) (View.ld x1 r0_w)⟩]

theorem cover0_2 (p0 : Vec F S1x512x3072 .bf16) (y : S1x512x3072.Idx) :
    ∃ pc ∈ ([⟨r0_o, p0⟩] : List (View.Piece (Elt F) S1x512x3072 .bf16)), y ∈ pc.1.set :=
  View.cover_of_tiled [⟨r0_o, p0⟩] S1x512x3072.size (by rfl) y

set_option maxHeartbeats 1000000 in
theorem sound_kernel0 (c : Dev nD) (E : Set ℕ) (i : grid0.Coords) (arg2 : Memref sig .tc .vmem S1x512x128 .f32) (harg2 : arg2.IsWhole)
    (arg3 : Memref sig .tc .vmem S128x3072 .bf16) (harg3 : arg3.IsWhole) (arg4 : Memref sig .tc .vmem S1x512x3072 .bf16) (harg4 : arg4.IsWhole)
    (x0 : Vec F S1x512x128 .f32) (x1 : Vec F S128x3072 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__qkv_proj_kernel i arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection region on core `c`: the arrays as the region finds them; after the body each
    input buffer at its block and the output buffer at the product of the two input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Data.lean ====
import proofs.«134556_j2671469658755_2_alg».proof.Proof.Gen.KernelIdeal.Launch
import proofs.«134556_j2671469658755_2_alg».proof.Proof.Gen.KernelIdeal.Points
import proofs.«134556_j2671469658755_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel: data of the region

At grid point `t = (b, qt, h)` the body reads the query tile of head `h`, the key and value column blocks of
head `h` out of the batch's whole key / value blocks, and the mask tile; it stores the softmax probabilities
into the probabilities' block, and the head's context tile into column block `h` of a scratch that lives
across the eight points of the group `(b, qt)`. At the last head it reads the whole scratch back, multiplies by
the output weights, adds the residual tile and normalises each row, into the output's block. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles -/

abbrev rq : Rect S1x512x128 := Rect.unit (s := S1x512x128) ![0, 0, 0] S1x512x128.size inb_S1x512x128_S1x512x128_0_0_0
/-- Head `h`'s column block of a whole key / value block. -/
abbrev rkv (i : grid1.Coords) : Rect S1x2048x1024 := Rect.unit (s := S1x2048x1024) (k1_off1 i) S1x2048x128.size (k1_off1_inb i)
abbrev rmk : Rect S1x1x512x2048 := Rect.unit (s := S1x1x512x2048) ![0, 0, 0, 0] S1x1x512x2048.size inb_S1x1x512x2048_S1x1x512x2048_0_0_0_0
/-- Head `h`'s column block of the scratch. -/
abbrev rsc (i : grid1.Coords) : Rect S512x1024 := Rect.unit (s := S512x1024) (k1_off2 i) S512x128.size (k1_off2_inb i)
abbrev rsw : Rect S512x1024 := Rect.unit (s := S512x1024) ![0, 0] S512x1024.size inb_S512x1024_S512x1024_0_0
abbrev rwo : Rect S1024x128 := Rect.unit (s := S1024x128) ![0, 0] S1024x128.size inb_S1024x128_S1024x128_0_0
abbrev rv : Rect S128 := Rect.unit (s := S128) ![0] S128.size inb_S128_S128_0

/-! ## What the body computes at a point, from the blocks it reads -/

/-- The probabilities' block: the softmax of the masked, scaled scores of the query tile against head `h`'s keys. -/
def attnBlk (i : grid1.Coords) (x0 : Vec F S1x512x128 .bf16) (x1 : Vec F S1x2048x1024 .bf16) (x3 : Vec F S1x1x512x2048 .i32) :
    Vec F S1x1x512x2048 .f32 :=
  View.canon [⟨rmk, k1_pay4 (View.ld x0 rq) (View.ld x1 (rkv i)) (View.ld x3 rmk)⟩]

/-- The head's context tile: the probabilities times head `h`'s values. -/
def ctxBlk (i : grid1.Coords) (x0 : Vec F S1x512x128 .bf16) (x1 x2 : Vec F S1x2048x1024 .bf16) (x3 : Vec F S1x1x512x2048 .i32) :
    Vec F S512x128 .f32 :=
  k1_pay1 (k1_pay5 (View.ld x0 rq) (View.ld x1 (rkv i)) (View.ld x2 (rkv i)) (View.ld x3 rmk))

/-- The output's block, from the whole scratch `s`: the projection of the eight heads' context tiles, plus the
    residual tile, each row normalised, scaled and shifted. -/
def outBlk (s : Vec F S512x1024 .f32) (x5 : Vec F S1024x128 .bf16) (x4 : Vec F S1x512x128 .f32) (x6 x7 : Vec F S128 .f32) :
    Vec F S1x512x128 .f32 :=
  View.canon [⟨rq, k1_pay2 (View.ld s rsw) (View.ld x5 rwo) (View.ld x4 rq) (View.ld x6 rv) (View.ld x7 rv)⟩]

/-! ## The scratch across a group of eight points -/

/-- The context tile point `t` stores, from its blocks. -/
def ctxAt (c : Dev nD) (t : Fin cfg1.N) : Vec F S512x128 .f32 :=
  ctxBlk (grid1.coords t) (iblk1 V c 0 t) (iblk1 V c 1 t) (iblk1 V c 2 t) (iblk1 V c 3 t)

/-- Point number `h` of the group of eight points that `t` belongs to. -/
def grpPt (t : Fin cfg1.N) (h : Fin 8) : Fin cfg1.N :=
  ⟨t.val - t.val % 8 + h.val, by have := t.isLt; have hN : cfg1.N = 128 := N_1; have := h.isLt; omega⟩

/-- Column block `h` of the scratch, at a literal offset. -/
abbrev rsK (h : Fin 8) : Rect S512x1024 :=
  Rect.unit (s := S512x1024) ![0, 128 * h.val] S512x128.size (by
    intro a; have := h.isLt
    match a with
    | ⟨0, _⟩ => show 0 + 512 ≤ 512; omega
    | ⟨1, _⟩ => show 128 * h.val + 128 ≤ 1024; omega)

/-- The scratch once all eight heads of `t`'s group have stored: column block `h` holds head `h`'s context tile. -/
def scrFull (c : Dev nD) (t : Fin cfg1.N) : Vec F S512x1024 .f32 :=
  View.canon [⟨rsK 7, ctxAt V c (grpPt t 7)⟩, ⟨rsK 6, ctxAt V c (grpPt t 6)⟩, ⟨rsK 5, ctxAt V c (grpPt t 5)⟩,
    ⟨rsK 4, ctxAt V c (grpPt t 4)⟩, ⟨rsK 3, ctxAt V c (grpPt t 3)⟩, ⟨rsK 2, ctxAt V c (grpPt t 2)⟩,
    ⟨rsK 1, ctxAt V c (grpPt t 1)⟩, ⟨rsK 0, ctxAt V c (grpPt t 0)⟩]

/-- What the scratch is known to hold before point `n`: the column blocks the earlier points of `n`'s group stored. -/
def ScrInv (c : Dev nD) (n : ℕ) (g : Vec F S512x1024 .f32) : Prop :=
  ∀ t' : Fin cfg1.N, t'.val < n → t'.val / 8 = n / 8 → View.ld g (rsc (grid1.coords t')) = ctxAt V c t'

/-- The scratch as a memref. -/
abbrev scrM : Memref sig .tc .vmem S512x1024 .f32 := Memref.whole cc1_scratch0

/-- The region's invariant less the scratch: the other scoped buffers that are no staging buffer of this region,
    each at some contents, and the generator register. -/
def restΦ1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ ∃ r, prngReg c r)

/-- The region's invariant before point `n`: the rest, and the scratch at contents that hold the column blocks the
    earlier points of `n`'s group stored. -/
def Φ1 (c : Dev nD) (n : Fin (cfg1.N + 1)) : sProp 𝕄 :=
  iprop(restΦ1 (F := F) c ∗ ∃ g : Vec F S512x1024 .f32, owns (c : Thread nD τ) scrM fullShare g ∗ ⌜ScrInv V c n.val g⌝)

/-- The proof data of the attention region on core `c`. The three windows on the projected array share it in
    thirds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outBlk (scrFull V c t) (iblk1 V c 5 t) (iblk1 V c 4 t) (iblk1 V c 6 t) (iblk1 V c 7 t)
    | ⟨9, _⟩ => attnBlk (grid1.coords t) (iblk1 V c 0 t) (iblk1 V c 1 t) (iblk1 V c 3 t)
  Φ n := Φ1 V c n
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = outBlk (scrFull V c t) (iblk1 V c 5 t) (iblk1 V c 4 t) (iblk1 V c 6 t) (iblk1 V c 7 t) := by dsimp only [dat1]
theorem after1_9 (c : Dev nD) (t : Fin cfg1.N) : (dat1 V c).after 9 t
    = attnBlk (grid1.coords t) (iblk1 V c 0 t) (iblk1 V c 1 t) (iblk1 V c 3 t) := by dsimp only [dat1]
theorem Φ_eq1 (c : Dev nD) (n : Fin (cfg1.N + 1)) : (dat1 V c).Φ n = Φ1 V c n := by dsimp only [dat1]

end Cert.KernelIdeal.Hand

end
-- ==== Proof.R1Scratch.lean ====
import proofs.«134556_j2671469658755_2_alg».proof.Proof.Gen.KernelIdeal.Launch
import proofs.«134556_j2671469658755_2_alg».proof.Proof.Gen.KernelIdeal.Points
import proofs.«134556_j2671469658755_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions
import proofs.«134556_j2671469658755_2_alg».proof.Proof.R1Data
import Idealize.ShloMosaic.Lib.WritesUnit
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The scratch across a group of eight points: what is known of its contents -/

variable (V : (c : Dev nD) → (b : Ref sig .tc) → Buf (Elt F) ((c : Thread nD τ).loc b))

/-- The head coordinate of a point is its number modulo eight. -/
theorem coords2 : ∀ t : Fin cfg1.N, ((grid1.coords t) 2).val = t.val % 8 :=
  (by decide +kernel : ∀ t : Fin grid1.N, ((grid1.coords t) 2).val = t.val % 8)

/-- The last-head condition holds at the points that are 7 modulo eight. -/
theorem hcond1 : ∀ t : Fin cfg1.N, k1_cond1 (grid1.coords t) = 1#1 ↔ t.val % 8 = 7 :=
  (by decide +kernel : ∀ t : Fin grid1.N, k1_cond1 (grid1.coords t) = 1#1 ↔ t.val % 8 = 7)

theorem mul128 : ∀ k : Fin 8, (Scalar.indexCast (Scalar.muli (BitVec.ofNat 32 k.val) 128#32)).toNat = 128 * k.val := by decide

/-- The scratch column offset of head `h` is `128·h`. -/
theorem off2_eq (i : grid1.Coords) : k1_off2 i = ![0, 128 * (i 2).val] := by
  have h8 : (i 2).val < 8 := (i 2).isLt
  have := mul128 ⟨(i 2).val, h8⟩
  unfold k1_off2
  funext a
  match a with
  | ⟨0, _⟩ => rfl
  | ⟨1, _⟩ => exact this

theorem unit_congr {S : Shape} {off off' size : Fin S.rank → ℕ} (h : off = off') (inb : ∀ a, off a + size a ≤ S.size a)
    (inb' : ∀ a, off' a + size a ≤ S.size a) : Rect.unit (s := S) off size inb = Rect.unit (s := S) off' size inb' := by
  subst h; rfl

/-- A point's scratch rectangle is the literal column block of its head. -/
theorem rsc_eq_rsK (t' : Fin cfg1.N) (h : Fin 8) (hh : t'.val % 8 = h.val) : rsc (grid1.coords t') = rsK h := by
  refine unit_congr ?_ _ _
  rw [off2_eq, coords2, hh]

/-- Membership in a point's scratch rectangle, by the column. -/
theorem mem_rsc (i : grid1.Coords) (y : S512x1024.Idx) :
    y ∈ (rsc i).set ↔ 128 * (i 2).val ≤ (y 1).val ∧ (y 1).val < 128 * (i 2).val + 128 := by
  rw [Rect.mem_set_unit, off2_eq]
  constructor
  · intro h; have := h 1; exact this
  · intro h a
    match a with
    | ⟨0, _⟩ =>
      have h0 : (y 0).val < 512 := (y 0).isLt
      exact ⟨Nat.zero_le _, (by show (y 0).val < 0 + 512; omega)⟩
    | ⟨1, _⟩ => exact h

/-- The column of an element of a point's scratch rectangle. -/
theorem rsc_emb_col (i : grid1.Coords) (x : (rsc i).shape.Idx) : (((rsc i).emb x) 1).val = 128 * (i 2).val + (x 1).val := by
  rw [Rect.emb_apply]
  show k1_off2 i 1 + 1 * (x 1).val = _
  rw [off2_eq]; show 128 * (i 2).val + 1 * (x 1).val = _; omega

/-- After point `t` stores its context tile, the scratch holds the tiles of every point of `t`'s group up to `t`. -/
theorem known_after (c : Dev nD) (t : Fin cfg1.N) (g g' : Vec F S512x1024 .f32) (hinv : ScrInv V c t.val g)
    (h1 : View.ld g' (rsc (grid1.coords t)) = ctxAt V c t) (h2 : ∀ y, y ∉ (rsc (grid1.coords t)).set → g' y = g y)
    (t' : Fin cfg1.N) (hle : t'.val ≤ t.val) (hgrp : t'.val / 8 = t.val / 8) :
    View.ld g' (rsc (grid1.coords t')) = ctxAt V c t' := by
  by_cases heq : t' = t
  · subst heq; exact h1
  · have hlt : t'.val < t.val := lt_of_le_of_ne hle (fun h => heq (Fin.ext h))
    rw [← hinv t' hlt hgrp]
    funext x
    show g' ((rsc (grid1.coords t')).emb x) = g ((rsc (grid1.coords t')).emb x)
    refine h2 _ ?_
    rw [mem_rsc, rsc_emb_col, coords2, coords2]
    have := (x 1).isLt
    have hx : (x 1).val < 128 := this
    omega

/-- So the invariant is re-established for the next point. -/
theorem scrInv_step (c : Dev nD) (t : Fin cfg1.N) (g g' : Vec F S512x1024 .f32) (hinv : ScrInv V c t.val g)
    (h1 : View.ld g' (rsc (grid1.coords t)) = ctxAt V c t) (h2 : ∀ y, y ∉ (rsc (grid1.coords t)).set → g' y = g y) :
    ScrInv V c (t.val + 1) g' := by
  intro t' hlt hgrp
  exact known_after V c t g g' hinv h1 h2 t' (by omega) (by omega)

/-- The eight literal column blocks tile the scratch. -/
theorem cover_scr (p7 p6 p5 p4 p3 p2 p1 p0 : Vec F S512x128 .f32) (y : S512x1024.Idx) :
    ∃ pc ∈ ([⟨rsK 7, p7⟩, ⟨rsK 6, p6⟩, ⟨rsK 5, p5⟩, ⟨rsK 4, p4⟩, ⟨rsK 3, p3⟩, ⟨rsK 2, p2⟩, ⟨rsK 1, p1⟩, ⟨rsK 0, p0⟩] :
      List (View.Piece (Elt F) S512x1024 .f32)), y ∈ pc.1.set :=
  View.cover_of_tiled (s := S512x1024) ([⟨rsK 7, p7⟩, ⟨rsK 6, p6⟩, ⟨rsK 5, p5⟩, ⟨rsK 4, p4⟩, ⟨rsK 3, p3⟩, ⟨rsK 2, p2⟩, ⟨rsK 1, p1⟩, ⟨rsK 0, p0⟩] :
      List (View.Piece (Elt F) S512x1024 .f32)) ![512, 128] (by rfl) y

/-- At the last head the scratch is the full scratch of the group, whatever it held before the group began. -/
theorem scr_full (c : Dev nD) (t : Fin cfg1.N) (h7 : t.val % 8 = 7) (g g' : Vec F S512x1024 .f32) (hinv : ScrInv V c t.val g)
    (h1 : View.ld g' (rsc (grid1.coords t)) = ctxAt V c t) (h2 : ∀ y, y ∉ (rsc (grid1.coords t)).set → g' y = g y) :
    g' = scrFull V c t := by
  have hk : ∀ h : Fin 8, ∀ x, ctxAt V c (grpPt t h) x = g' ((rsK h).emb x) := by
    intro h x
    have hv : (grpPt t h).val = t.val - t.val % 8 + h.val := rfl
    have := h.isLt
    have e := known_after V c t g g' hinv h1 h2 (grpPt t h) (by rw [hv]; omega) (by rw [hv]; omega)
    have hmod : (grpPt t h).val % 8 = h.val := by rw [hv]; omega
    have hemb : (rsc (grid1.coords (grpPt t h))).emb x = (rsK h).emb x := by
      funext a; apply Fin.ext
      rw [Rect.emb_apply, Rect.emb_apply]
      show k1_off2 (grid1.coords (grpPt t h)) a + 1 * (x a).val = (![0, 128 * h.val] : Fin 2 → ℕ) a + 1 * (x a).val
      rw [off2_eq, coords2, hmod]
    rw [← hemb]
    exact (congrFun e x).symm
  funext y
  symm
  unfold scrFull
  refine View.canon_apply_of_pieces g' _ ?_ y (cover_scr _ _ _ _ _ _ _ _ y)
  intro p hp x
  simp only [List.mem_cons, List.not_mem_nil, _root_.or_false] at hp
  rcases hp with rfl | rfl | rfl | rfl | rfl | rfl | rfl | rfl
  all_goals exact hk _ x

end Cert.KernelIdeal.Hand

end
-- ==== Proof.R1Body.lean ====
import proofs.«134556_j2671469658755_2_alg».proof.Proof.Gen.KernelIdeal.Launch
import proofs.«134556_j2671469658755_2_alg».proof.Proof.Gen.KernelIdeal.Points
import proofs.«134556_j2671469658755_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions
import proofs.«134556_j2671469658755_2_alg».proof.Proof.R1Scratch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body on any staging memrefs, in its two control cases -/

/-- Off its rectangle, one write leaves what was there. -/
theorem read_write_one_of_not_mem {κ : Kind} {sp : Space} {s : Shape} {e : EltTy} (v : View sig κ sp s e) (f : v.ty.Contents (Elt F))
    (r : Rect s) (w : r.shape.Idx → Elt F e) (y : s.Idx) (hy : y ∉ r.set) :
    v.read (Elt F) (v.writes (Elt F) f [⟨r, w⟩]) y = v.read (Elt F) f y := by
  have hy' : y ∉ Finset.univ.map r.emb := by rwa [Rect.map_emb_univ]
  rw [View.writes_cons, View.read_slice_write_of_not_mem r _ _ _ hy']
  rfl

theorem cover_attn (p0 : Vec F S1x1x512x2048 .f32) (y : S1x1x512x2048.Idx) :
    ∃ pc ∈ ([⟨rmk, p0⟩] : List (View.Piece (Elt F) S1x1x512x2048 .f32)), y ∈ pc.1.set :=
  View.cover_of_tiled [⟨rmk, p0⟩] S1x1x512x2048.size (by rfl) y

theorem cover_out (p0 : Vec F S1x512x128 .f32) (y : S1x512x128.Idx) :
    ∃ pc ∈ ([⟨rq, p0⟩] : List (View.Piece (Elt F) S1x512x128 .f32)), y ∈ pc.1.set :=
  View.cover_of_tiled [⟨rq, p0⟩] S1x512x128.size (by rfl) y

set_option maxHeartbeats 2000000 in
/-- A head other than the last: the probabilities' block is stored, the head's context tile goes into its column block
    of the scratch, the output's buffer is not touched. -/
theorem sound_kernel1_B (c : Dev nD) (E : Set ℕ) (i : grid1.Coords) (arg3 : Memref sig .tc .vmem S1x512x128 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1x512x2048 .i32) (harg6 : arg6.IsWhole) (arg7 : Memref sig .tc .vmem S1x512x128 .f32) (harg7 : arg7.IsWhole) (arg8 : Memref sig .tc .vmem S1024x128 .bf16) (harg8 : arg8.IsWhole) (arg9 : Memref sig .tc .vmem S128 .f32) (harg9 : arg9.IsWhole) (arg10 : Memref sig .tc .vmem S128 .f32) (harg10 : arg10.IsWhole) (arg11 : Memref sig .tc .vmem S1x512x128 .f32) (harg11 : arg11.IsWhole) (arg12 : Memref sig .tc .vmem S1x1x512x2048 .f32) (harg12 : arg12.IsWhole) (arg13 : Memref sig .tc .vmem S512x1024 .f32) (harg13 : arg13.IsWhole)
    (hc : ¬ k1_cond1 i = 1#1)
    (x0 : Vec F S1x512x128 .bf16) (x1 x2 : Vec F S1x2048x1024 .bf16) (x3 : Vec F S1x1x512x2048 .i32) (x4 : Vec F S1x512x128 .f32)
    (x5 : Vec F S1024x128 .bf16) (x6 x7 : Vec F S128 .f32) (xs : Vec F S512x1024 .f32) (d8 : Vec F S1x512x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ owns (c : Thread nD τ) arg11 fullShare d8 ∗ (∃ d, owns (c : Thread nD τ) arg12 fullShare d)
        ∗ owns (c : Thread nD τ) arg13 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
            ∗ owns (c : Thread nD τ) arg11 fullShare d8 ∗ owns (c : Thread nD τ) arg12 fullShare (attnBlk i x0 x1 x3)
            ∗ (∃ g' : Vec F S512x1024 .f32, owns (c : Thread nD τ) arg13 fullShare g'
                ∗ ⌜View.ld g' (rsc i) = ctxBlk i x0 x1 x2 x3 ∧ ∀ y, y ∉ (rsc i).set → g' y = xs y⌝)) -∗ K ⟨⟩))
      ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12 arg13 harg13) K := by
  simp only [cc1__fused_kernel_eq_skeleton]; unfold cc1__fused_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  subst hf0; subst hf1; subst hf2; subst hf3; subst hf4; subst hf5; subst hf6; subst hf7; subst hfs; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_attn _)
  iexists _
  isplitl [HS]
  · iexists _; isplitr
    swap; · iexact HS
    ipureintro; rfl
  ipureintro
  refine ⟨?_, fun y hy => read_write_one_of_not_mem _ _ _ _ y hy⟩
  funext x
  sl_unfold_run_names
  exact View.read_writes_cons_emb _ _ _ _ _ x

set_option maxHeartbeats 2000000 in
/-- The last head: as before, and then the whole scratch is read back and the output's block stored. -/
theorem sound_kernel1_A (c : Dev nD) (E : Set ℕ) (i : grid1.Coords) (arg3 : Memref sig .tc .vmem S1x512x128 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1x512x2048 .i32) (harg6 : arg6.IsWhole) (arg7 : Memref sig .tc .vmem S1x512x128 .f32) (harg7 : arg7.IsWhole) (arg8 : Memref sig .tc .vmem S1024x128 .bf16) (harg8 : arg8.IsWhole) (arg9 : Memref sig .tc .vmem S128 .f32) (harg9 : arg9.IsWhole) (arg10 : Memref sig .tc .vmem S128 .f32) (harg10 : arg10.IsWhole) (arg11 : Memref sig .tc .vmem S1x512x128 .f32) (harg11 : arg11.IsWhole) (arg12 : Memref sig .tc .vmem S1x1x512x2048 .f32) (harg12 : arg12.IsWhole) (arg13 : Memref sig .tc .vmem S512x1024 .f32) (harg13 : arg13.IsWhole)
    (hc : k1_cond1 i = 1#1)
    (x0 : Vec F S1x512x128 .bf16) (x1 x2 : Vec F S1x2048x1024 .bf16) (x3 : Vec F S1x1x512x2048 .i32) (x4 : Vec F S1x512x128 .f32)
    (x5 : Vec F S1024x128 .bf16) (x6 x7 : Vec F S128 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ (∃ d, owns (c : Thread nD τ) arg11 fullShare d) ∗ (∃ d, owns (c : Thread nD τ) arg12 fullShare d)
        ∗ owns (c : Thread nD τ) arg13 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
            ∗ owns (c : Thread nD τ) arg12 fullShare (attnBlk i x0 x1 x3)
            ∗ (∃ g' : Vec F S512x1024 .f32, owns (c : Thread nD τ) arg13 fullShare g'
                ∗ ⌜View.ld g' (rsc i) = ctxBlk i x0 x1 x2 x3 ∧ ∀ y, y ∉ (rsc i).set → g' y = xs y⌝
                ∗ owns (c : Thread nD τ) arg11 fullShare (outBlk g' x5 x4 x6 x7))) -∗ K ⟨⟩))
      ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12 arg13 harg13) K := by
  simp only [cc1__fused_kernel_eq_skeleton]; unfold cc1__fused_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0; subst hf1; subst hf2; subst hf3; subst hf4; subst hf5; subst hf6; subst hf7; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists _; isplitr
    swap; · iexact H9
    ipureintro
    exact View.read_writes_eq_canon _ _ _ (cover_attn _)
  iexists _
  isplitl [HS]
  · iexists _; isplitr
    swap; · iexact HS
    ipureintro; rfl
  isplitr
  · ipureintro
    refine ⟨?_, fun y hy => ?_⟩
    · funext x
      sl_unfold_run_names
      exact View.read_writes_cons_emb _ _ _ _ _ x
    · sl_unfold_run_names
      exact read_write_one_of_not_mem _ _ _ _ y hy
  iexists _; isplitr
  swap; · iexact H8
  ipureintro
  sl_unfold_run_names
  exact View.read_writes_eq_canon _ _ _ (cover_out _)

end Cert.KernelIdeal.Hand

end
-- ==== Proof.R1Obl.lean ====
import proofs.«134556_j2671469658755_2_alg».proof.Proof.Gen.KernelIdeal.Launch
import proofs.«134556_j2671469658755_2_alg».proof.Proof.Gen.KernelIdeal.Points
import proofs.«134556_j2671469658755_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions
import proofs.«134556_j2671469658755_2_alg».proof.Proof.R1Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention region's body obligation -/

variable (V : (c : Dev nD) → (b : Ref sig .tc) → Buf (Elt F) ((c : Thread nD τ).loc b))

/-! An input window's current buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ (match cfg1.idle 8 (cfg1.grid.coords t) with
      | true => match (cfg1.win 8).flush t with
        | false => iprop(∃ d, owns (c : Thread nD τ) (st1_8 t) fullShare ((dat1 V c).before 8 t d))
        | true => owns (c : Thread nD τ) (st1_8 t) fullShare ((dat1 V c).after 8 t)
      | false => owns (c : Thread nD τ) (st1_8 t) fullShare ((dat1 V c).after 8 t))
    ∗ owns (c : Thread nD τ) (st1_9 t) fullShare ((dat1 V c).after 9 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    Φ_eq1, Φ_eq1, after1_0, after1_1, after1_2, after1_3, after1_4, after1_5, after1_6, after1_7, after1_9]
  unfold Φ1
  by_cases h7 : t.val % 8 = 7
  · have hcond : k1_cond1 (grid1.coords t) = 1#1 := (hcond1 t).mpr h7
    have hid : idle1 8 (grid1.coords t) = false := by
      show (!(k1_cond1 (grid1.coords t) == 1#1)) = false
      rw [hcond]; rfl
    rw [hid]
    dsimp only
    rw [after1_8]
    iintro ⟨⟨HR, ⟨%g, HS, %hinv⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_A c Set.univ (grid1.coords t) _ _ _ _ _ _ _ _ _ _ _ _ _ _ _ _ _ _ _ _ _ _ hcond
      (iblk1 V c 0 t) (iblk1 V c 1 t) (iblk1 V c 2 t) (iblk1 V c 3 t) (iblk1 V c 4 t) (iblk1 V c 5 t) (iblk1 V c 6 t) (iblk1 V c 7 t) g _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H9, ⟨%g', HS, %hg, H8⟩⟩
    have hfull : g' = scrFull V c t := scr_full V c t h7 g g' hinv hg.1 hg.2
    subst hfull
    isplitl [HR HS]
    · isplitl [HR]; · iexact HR
      iexists _; isplitl [HS]; · iexact HS
      ipureintro
      exact scrInv_step V c t g _ hinv hg.1 hg.2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hcond : ¬ k1_cond1 (grid1.coords t) = 1#1 := fun h => h7 ((hcond1 t).mp h)
    have hid : idle1 8 (grid1.coords t) = true := by
      show (!(k1_cond1 (grid1.coords t) == 1#1)) = true
      rcases BitVec.eq_zero_or_eq_one (k1_cond1 (grid1.coords t)) with h | h
      · rw [h]; rfl
      · exact absurd h hcond
    have hfl : (cfg1.win 8).flush t = false := Bool.eq_false_iff.mpr fun h => h7 ((flush1_8 t).mp h)
    rw [hid, hfl]
    dsimp only
    iintro ⟨⟨HR, ⟨%g, HS, %hinv⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_B c Set.univ (grid1.coords t) _ _ _ _ _ _ _ _ _ _ _ _ _ _ _ _ _ _ _ _ _ _ hcond
      (iblk1 V c 0 t) (iblk1 V c 1 t) (iblk1 V c 2 t) (iblk1 V c 3 t) (iblk1 V c 4 t) (iblk1 V c 5 t) (iblk1 V c 6 t) (iblk1 V c 7 t) g
      ((dat1 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, ⟨%g', HS, %hg⟩⟩
    isplitl [HR HS]
    · isplitl [HR]; · iexact HR
      iexists _; isplitl [HS]; · iexact HS
      ipureintro
      exact scrInv_step V c t g g' hinv hg.1 hg.2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexact H9

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.SegsShare.lean ====
import proofs.«134556_j2671469658755_2_alg».proof.Proof.R1Data
import Idealize.ShloMosaic.Lib.Pipeline.Frame
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention region's arrays, enumerated

Ten windows stand on eight distinct buffers: the first three all on the projected array. -/

variable (V : (c : Dev nD) → (b : Ref sig .tc) → Buf (Elt F) ((c : Thread nD τ).loc b))

/-- The eight distinct buffers behind the ten windows' arrays, one by one. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v3) ↦{fullShare} Vc main_v3)
        ∗ (((c : Thread nD τ).loc main_arg1) ↦{fullShare} Vc main_arg1)
        ∗ (((c : Thread nD τ).loc main_arg0) ↦{fullShare} Vc main_arg0)
        ∗ (((c : Thread nD τ).loc main_v2) ↦{fullShare} Vc main_v2)
        ∗ (((c : Thread nD τ).loc main_arg6) ↦{fullShare} Vc main_arg6)
        ∗ (((c : Thread nD τ).loc main_arg7) ↦{fullShare} Vc main_arg7)
        ∗ (((c : Thread nD τ).loc main_v4_0) ↦{fullShare} Vc main_v4_0)
        ∗ (((c : Thread nD τ).loc main_v4_1) ↦{fullShare} Vc main_v4_1)) := by
  unfold Pipeline.arrBufs
  exact bigSep_eq_bigSepL_of_eq [main_v3, main_arg1, main_arg0, main_v2, main_arg6, main_arg7, main_v4_0, main_v4_1]
    (by decide) (by decide) _

/-- An input window's array is held at the share the proof data names. -/
theorem share1_in (c : Dev nD) (w : Fin cfg1.W) (hin : (cfg1.win w).isOut = false) :
    (dat1 V c).share w = (dat1 V c).q w := by
  unfold Dat.share; rw [hin]; rfl

/-- An output window's array is held at the full share. -/
theorem share1_out (c : Dev nD) (w : Fin cfg1.W) (hout : (cfg1.win w).isOut = true) :
    (dat1 V c).share w = fullShare := by
  unfold Dat.share; rw [hout]; rfl

theorem share1_0 (c : Dev nD) : (dat1 V c).share 0 = fullShare.left := (share1_in V c 0 rfl).trans rfl
theorem share1_1 (c : Dev nD) : (dat1 V c).share 1 = fullShare.right.left := (share1_in V c 1 rfl).trans rfl
theorem share1_2 (c : Dev nD) : (dat1 V c).share 2 = fullShare.right.right := (share1_in V c 2 rfl).trans rfl
theorem share1_3 (c : Dev nD) : (dat1 V c).share 3 = fullShare := (share1_in V c 3 rfl).trans rfl
theorem share1_4 (c : Dev nD) : (dat1 V c).share 4 = fullShare := (share1_in V c 4 rfl).trans rfl
theorem share1_5 (c : Dev nD) : (dat1 V c).share 5 = fullShare := (share1_in V c 5 rfl).trans rfl
theorem share1_6 (c : Dev nD) : (dat1 V c).share 6 = fullShare := (share1_in V c 6 rfl).trans rfl
theorem share1_7 (c : Dev nD) : (dat1 V c).share 7 = fullShare := (share1_in V c 7 rfl).trans rfl
theorem share1_8 (c : Dev nD) : (dat1 V c).share 8 = fullShare := share1_out V c 8 rfl
theorem share1_9 (c : Dev nD) : (dat1 V c).share 9 = fullShare := share1_out V c 9 rfl

/-- One window's array in the region's holdings: a whole buffer, so every element of it, at the window's share. -/
theorem arr1_pt (c : Dev nD) (w : Fin cfg1.W) (q : PosShare TreeShare) (hq : (dat1 V c).share w = q)
    (G : Buf (Elt F) ((cfg1.win w).arr.view.loc (c : Thread nD τ))) :
    ((cfg1.win w).arr.view.loc (c : Thread nD τ) ↦[(cfg1.win w).arr.view.set]{(dat1 V c).share w} G : sProp 𝕄)
      = (((c : Thread nD τ).loc (Pipeline.arrRef spec1 w)) ↦{q} G) := by
  rw [(arr_whole1 w).set_eq_univ, hq]

/-- Equal conjuncts make equal conjunctions. -/
theorem sep_eq {M : Type} [URA M] {P P' Q Q' : sProp M} (h₁ : P = P') (h₂ : Q = Q') : iprop(P ∗ Q) = iprop(P' ∗ Q') := by
  rw [h₁, h₂]

/-- The ten windows' arrays one by one: the projected array in thirds, every other at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0)
        ∗ (((c : Thread nD τ).loc main_v3) ↦{fullShare.right.left} G 1)
        ∗ (((c : Thread nD τ).loc main_v3) ↦{fullShare.right.right} G 2)
        ∗ (((c : Thread nD τ).loc main_arg1) ↦{fullShare} G 3)
        ∗ (((c : Thread nD τ).loc main_arg0) ↦{fullShare} G 4)
        ∗ (((c : Thread nD τ).loc main_v2) ↦{fullShare} G 5)
        ∗ (((c : Thread nD τ).loc main_arg6) ↦{fullShare} G 6)
        ∗ (((c : Thread nD τ).loc main_arg7) ↦{fullShare} G 7)
        ∗ (((c : Thread nD τ).loc main_v4_0) ↦{fullShare} G 8)
        ∗ (((c : Thread nD τ).loc main_v4_1) ↦{fullShare} G 9)) := by
  unfold Dat.arrays
  refine (bigSep_W1 _).trans ?_
  exact sep_eq (arr1_pt V c 0 _ (share1_0 V c) (G 0)) <| sep_eq (arr1_pt V c 1 _ (share1_1 V c) (G 1)) <|
    sep_eq (arr1_pt V c 2 _ (share1_2 V c) (G 2)) <| sep_eq (arr1_pt V c 3 _ (share1_3 V c) (G 3)) <|
    sep_eq (arr1_pt V c 4 _ (share1_4 V c) (G 4)) <| sep_eq (arr1_pt V c 5 _ (share1_5 V c) (G 5)) <|
    sep_eq (arr1_pt V c 6 _ (share1_6 V c) (G 6)) <| sep_eq (arr1_pt V c 7 _ (share1_7 V c) (G 7)) <|
    sep_eq (arr1_pt V c 8 _ (share1_8 V c) (G 8)) (arr1_pt V c 9 _ (share1_9 V c) (G 9))

/-! # Cutting the projected array in thirds, and joining the thirds -/

/-- ENTRY. The eight buffers whole at contents `Vc` are the ten windows' arrays at any contents that read `Vc` at
    each window's array: the projected array's full share is cut into its left half and the two halves of its right
    half, one per window standing on it. -/
theorem arrays1_split (c : Dev nD) (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    (Pipeline.arrBufs spec1 c Vc : sProp 𝕄) ⊢ (dat1 V c).arrays G := by
  rw [arrBufs1_eq, arrays1_eq, hG 0, hG 1, hG 2, hG 3, hG 4, hG 5, hG 6, hG 7, hG 8, hG 9]
  iintro ⟨H3, Ha1, Ha0, Hv2, Ha6, Ha7, Ho0, Ho1⟩
  ihave H3' := (pointsTo_share (PosShare.mem_left_op_right fullShare)).1 $$ H3
  icases H3' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [Ha1]; · iexact Ha1
  isplitl [Ha0]; · iexact Ha0
  isplitl [Hv2]; · iexact Hv2
  isplitl [Ha6]; · iexact Ha6
  isplitl [Ha7]; · iexact Ha7
  isplitl [Ho0]; · iexact Ho0
  iexact Ho1

/-- EXIT. The ten windows' arrays at contents that read `Vc'` at each window's array are the eight buffers whole at
    `Vc'`: the three thirds of the projected array, all at one contents, join to its full share. -/
theorem arrays1_join (c : Dev nD) (Vc' : (b : Ref sig .tc) → Buf (Elt F) ((c : Thread nD τ).loc b))
    (G : (w : Fin cfg1.W) → Buf (Elt F) ((cfg1.win w).arr.view.loc (c : Thread nD τ)))
    (hG : ∀ w, G w = Vc' (Pipeline.arrRef spec1 w)) :
    ((dat1 V c).arrays G : sProp 𝕄) ⊢ Pipeline.arrBufs spec1 c Vc' := by
  rw [arrBufs1_eq, arrays1_eq, hG 0, hG 1, hG 2, hG 3, hG 4, hG 5, hG 6, hG 7, hG 8, hG 9]
  iintro ⟨Hl, Hrl, Hrr, Ha1, Ha0, Hv2, Ha6, Ha7, Ho0, Ho1⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [Ha1]; · iexact Ha1
  isplitl [Ha0]; · iexact Ha0
  isplitl [Hv2]; · iexact Hv2
  isplitl [Ha6]; · iexact Ha6
  isplitl [Ha7]; · iexact Ha7
  isplitl [Ho0]; · iexact Ho0
  iexact Ho1

/-- No window's array is a scoped buffer. -/
theorem unscopedBufs1_eq (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ (Ix := Unit) (Name := ℕ) (U := UR sig nD τ) (Lvl := ℕ) cfgs 1 winFacts₀1.arr_unscoped c Vc

/-- ENTRY, the arrays' part: the core's unscoped buffers at the region's entry contents are the region's arrays at
    the proof data's entry contents and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [unscopedBufs1_eq]
  exact sep_mono (arrays1_split V c (V c) _ fun _ => rfl) .rfl

/-- EXIT, the arrays' part: the region's arrays at their final contents and the unscoped rest at the entry contents
    are the core's unscoped buffers at any contents `Vc'` that have the arrays at their final contents and agree with
    the entry contents off them. -/
theorem unscopedBufs_of_arrays1 (c : Dev nD) (Vc' : (b : Ref sig .tc) → Buf (Elt F) ((c : Thread nD τ).loc b))
    (hG : ∀ w, (dat1 V c).arrAt w cfg1.N = Vc' (Pipeline.arrRef spec1 w))
    (hrest : ∀ b, b ∉ Finset.univ.image (Pipeline.arrRef spec1) → Vc' b = V c b) :
    iprop((dat1 V c).arrays ((dat1 V c).arrAt · cfg1.N) ∗ Pipeline.unscopedRest spec1 c (V c))
      ⊢ (unscopedBufs c Vc' : sProp 𝕄) := by
  rw [unscopedBufs1_eq]
  refine sep_mono (arrays1_join V c Vc' _ hG) (Entails.of_eq ?_)
  unfold Pipeline.unscopedRest
  exact bigSep_congr fun b hb => by rw [hrest b (Finset.mem_sdiff.mp hb).2]

end Cert.KernelIdeal.Hand

end
-- ==== Proof.SegsVals.lean ====
import proofs.«134556_j2671469658755_2_alg».proof.Proof.R0
import proofs.«134556_j2671469658755_2_alg».proof.Proof.R1Data
import proofs.«134556_j2671469658755_2_alg».proof.Proof.Gen.KernelIdeal.Regions
import Idealize.ShloMosaic.Lib.Pipeline.Frame
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The buffers' contents between the items of @main

Three host operations, then the projection region, then the attention region. A host stretch leaves what
`StableHlo.after` says; a region leaves each output array at what its write-backs fold to and every other buffer as
it found it. -/

variable (m : (ℓ : Loc nD τ sig) → Buf (Elt F) ℓ)

/-- Core `c`'s buffers at launch. -/
abbrev W0 (c : Dev nD) : Valuation τ sig (Elt F) := fun b => m (c, b)
/-- After the three host operations: the projection region's entry. -/
abbrev W1 (c : Dev nD) : Valuation τ sig (Elt F) := StableHlo.after hostOps0 (W0 m c)
/-- The same read at the TensorCore's references (what the projection region's proof data take). -/
abbrev V1 : (c : Dev nD) → (b : Ref sig .tc) → Buf (Elt F) ((c : Thread nD τ).loc b) := fun c b => W1 m c b
/-- After the projection region, which writes the projected array only: the attention region's entry. -/
def W2 (c : Dev nD) : Valuation τ sig (Elt F) :=
  Function.update (W1 m c) main_v3 ((dat0 (V1 m) c).arrAt 2 cfg0.N)
/-- The same read at the TensorCore's references (what the attention region's proof data take). -/
abbrev V2 : (c : Dev nD) → (b : Ref sig .tc) → Buf (Elt F) ((c : Thread nD τ).loc b) := fun c b => W2 m c b
/-- After the attention region, which writes its two results only: what the launch reads at the end. -/
def W3 (c : Dev nD) : Valuation τ sig (Elt F) :=
  Function.update (Function.update (W2 m c) main_v4_0 ((dat1 (V2 m) c).arrAt 8 cfg1.N)) main_v4_1 ((dat1 (V2 m) c).arrAt 9 cfg1.N)
/-- The same read at the TensorCore's references. -/
abbrev V3 : (c : Dev nD) → (b : Ref sig .tc) → Buf (Elt F) ((c : Thread nD τ).loc b) := fun c b => W3 m c b

/-! ## What each item leaves unchanged, and what it writes -/

theorem V1_of (c : Dev nD) (r : Ref sig .tc) (h : r ∉ hostOps0_W) : V1 m c r = m ((c : Thread nD τ).loc r) :=
  StableHlo.after_of_writes_sub hostOps0 _ hostOps0_writes h

theorem V2_main_v3 (c : Dev nD) : V2 m c main_v3 = (dat0 (V1 m) c).arrAt 2 cfg0.N := by
  show W2 m c _ = _
  unfold W2; exact Function.update_self ..

theorem V2_of_ne (c : Dev nD) (b : Ref sig .tc) (h : b ≠ main_v3) : V2 m c b = V1 m c b := by
  show W2 m c _ = W1 m c _
  unfold W2; exact Function.update_of_ne (StableHlo.devRef_ne_of_ne h) ..

theorem V3_main_v4_1 (c : Dev nD) : V3 m c main_v4_1 = (dat1 (V2 m) c).arrAt 9 cfg1.N := by
  show W3 m c _ = _
  unfold W3; exact Function.update_self ..

theorem V3_main_v4_0 (c : Dev nD) : V3 m c main_v4_0 = (dat1 (V2 m) c).arrAt 8 cfg1.N := by
  show W3 m c _ = _
  unfold W3
  rw [Function.update_of_ne (StableHlo.devRef_ne_of_ne (by decide : main_v4_0 ≠ main_v4_1))]
  exact Function.update_self ..

theorem V3_of_ne (c : Dev nD) (b : Ref sig .tc) (h0 : b ≠ main_v4_0) (h1 : b ≠ main_v4_1) : V3 m c b = V2 m c b := by
  show W3 m c _ = W2 m c _
  unfold W3
  rw [Function.update_of_ne (StableHlo.devRef_ne_of_ne h1), Function.update_of_ne (StableHlo.devRef_ne_of_ne h0)]

/-! ## No item writes an argument -/

theorem V3_main_arg0 (c : Dev nD) : V3 m c main_arg0 = m ((c : Thread nD τ).loc main_arg0) :=
  (V3_of_ne m c main_arg0 (by decide) (by decide)).trans <| (V2_of_ne m c main_arg0 (by decide)).trans <| V1_of m c main_arg0 (by decide)
theorem V3_main_arg1 (c : Dev nD) : V3 m c main_arg1 = m ((c : Thread nD τ).loc main_arg1) :=
  (V3_of_ne m c main_arg1 (by decide) (by decide)).trans <| (V2_of_ne m c main_arg1 (by decide)).trans <| V1_of m c main_arg1 (by decide)
theorem V3_main_arg2 (c : Dev nD) : V3 m c main_arg2 = m ((c : Thread nD τ).loc main_arg2) :=
  (V3_of_ne m c main_arg2 (by decide) (by decide)).trans <| (V2_of_ne m c main_arg2 (by decide)).trans <| V1_of m c main_arg2 (by decide)
theorem V3_main_arg3 (c : Dev nD) : V3 m c main_arg3 = m ((c : Thread nD τ).loc main_arg3) :=
  (V3_of_ne m c main_arg3 (by decide) (by decide)).trans <| (V2_of_ne m c main_arg3 (by decide)).trans <| V1_of m c main_arg3 (by decide)
theorem V3_main_arg4 (c : Dev nD) : V3 m c main_arg4 = m ((c : Thread nD τ).loc main_arg4) :=
  (V3_of_ne m c main_arg4 (by decide) (by decide)).trans <| (V2_of_ne m c main_arg4 (by decide)).trans <| V1_of m c main_arg4 (by decide)
theorem V3_main_arg5 (c : Dev nD) : V3 m c main_arg5 = m ((c : Thread nD τ).loc main_arg5) :=
  (V3_of_ne m c main_arg5 (by decide) (by decide)).trans <| (V2_of_ne m c main_arg5 (by decide)).trans <| V1_of m c main_arg5 (by decide)
theorem V3_main_arg6 (c : Dev nD) : V3 m c main_arg6 = m ((c : Thread nD τ).loc main_arg6) :=
  (V3_of_ne m c main_arg6 (by decide) (by decide)).trans <| (V2_of_ne m c main_arg6 (by decide)).trans <| V1_of m c main_arg6 (by decide)
theorem V3_main_arg7 (c : Dev nD) : V3 m c main_arg7 = m ((c : Thread nD τ).loc main_arg7) :=
  (V3_of_ne m c main_arg7 (by decide) (by decide)).trans <| (V2_of_ne m c main_arg7 (by decide)).trans <| V1_of m c main_arg7 (by decide)

/-! ## The two hypotheses of each region's exit: its arrays at what the pipeline leaves, every other buffer as entered -/

/-- The projection region's arrays at its exit: the two inputs as entered, the projected array at its write-backs'
    fold. -/
theorem hF0 (c : Dev nD) : ∀ w : Fin cfg0.W, (dat0 (V1 m) c).arrAt w cfg0.N = V2 m c (Pipeline.arrRef spec0 w) := fun
  | 0 => ((dat0 (V1 m) c).arrAt_in 0 rfl _).trans ((A_eq0 (V1 m) c 0).trans (V2_of_ne m c _ (by decide)).symm)
  | 1 => ((dat0 (V1 m) c).arrAt_in 1 rfl _).trans ((A_eq0 (V1 m) c 1).trans (V2_of_ne m c _ (by decide)).symm)
  | 2 => (V2_main_v3 m c).symm
  | ⟨_ + 3, h⟩ => absurd h (Nat.not_lt.2 (Nat.le_add_left _ _))

theorem hrest0 (c : Dev nD) : ∀ b, b ∉ Finset.univ.image (Pipeline.arrRef spec0) → V2 m c b = V1 m c b :=
  fun b hb => V2_of_ne m c b fun e => hb (Finset.mem_image.mpr ⟨2, Finset.mem_univ _, e.symm⟩)

/-- The attention region's arrays at its exit: the eight inputs as entered, the two results at their write-backs'
    folds. -/
theorem hF1 (c : Dev nD) : ∀ w : Fin cfg1.W, (dat1 (V2 m) c).arrAt w cfg1.N = V3 m c (Pipeline.arrRef spec1 w) := fun
  | 0 => ((dat1 (V2 m) c).arrAt_in 0 rfl _).trans ((A_eq1 (V2 m) c 0).trans (V3_of_ne m c _ (by decide) (by decide)).symm)
  | 1 => ((dat1 (V2 m) c).arrAt_in 1 rfl _).trans ((A_eq1 (V2 m) c 1).trans (V3_of_ne m c _ (by decide) (by decide)).symm)
  | 2 => ((dat1 (V2 m) c).arrAt_in 2 rfl _).trans ((A_eq1 (V2 m) c 2).trans (V3_of_ne m c _ (by decide) (by decide)).symm)
  | 3 => ((dat1 (V2 m) c).arrAt_in 3 rfl _).trans ((A_eq1 (V2 m) c 3).trans (V3_of_ne m c _ (by decide) (by decide)).symm)
  | 4 => ((dat1 (V2 m) c).arrAt_in 4 rfl _).trans ((A_eq1 (V2 m) c 4).trans (V3_of_ne m c _ (by decide) (by decide)).symm)
  | 5 => ((dat1 (V2 m) c).arrAt_in 5 rfl _).trans ((A_eq1 (V2 m) c 5).trans (V3_of_ne m c _ (by decide) (by decide)).symm)
  | 6 => ((dat1 (V2 m) c).arrAt_in 6 rfl _).trans ((A_eq1 (V2 m) c 6).trans (V3_of_ne m c _ (by decide) (by decide)).symm)
  | 7 => ((dat1 (V2 m) c).arrAt_in 7 rfl _).trans ((A_eq1 (V2 m) c 7).trans (V3_of_ne m c _ (by decide) (by decide)).symm)
  | 8 => (V3_main_v4_0 m c).symm
  | 9 => (V3_main_v4_1 m c).symm
  | ⟨_ + 10, h⟩ => absurd h (Nat.not_lt.2 (Nat.le_add_left _ _))

theorem hrest1 (c : Dev nD) : ∀ b, b ∉ Finset.univ.image (Pipeline.arrRef spec1) → V3 m c b = V2 m c b :=
  fun b hb => V3_of_ne m c b (fun e => hb (Finset.mem_image.mpr ⟨8, Finset.mem_univ _, e.symm⟩))
    (fun e => hb (Finset.mem_image.mpr ⟨9, Finset.mem_univ _, e.symm⟩))

end Cert.KernelIdeal.Hand

end
-- ==== Proof.Segs.lean ====
import proofs.«134556_j2671469658755_2_alg».proof.Proof.R0
import proofs.«134556_j2671469658755_2_alg».proof.Proof.R1Obl
import proofs.«134556_j2671469658755_2_alg».proof.Proof.SegsShare
import proofs.«134556_j2671469658755_2_alg».proof.Proof.SegsVals
import proofs.«134556_j2671469658755_2_alg».proof.Proof.Gen.KernelIdeal.Regions
import Idealize.ShloMosaic.Lib.Pipeline.Frame
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Inv

/-! # The attention region's invariant at its two ends -/

variable (V : (c : Dev nD) → (b : Ref sig .tc) → Buf (Elt F) ((c : Thread nD τ).loc b))

/-- The scratch, a whole buffer: owning it through its memref is its points-to. -/
theorem owns_scr (c : Dev nD) (q : PosShare TreeShare) (g : Vec F S512x1024 .f32) :
    (owns (c : Thread nD τ) scrM q g : sProp 𝕄) = (((c : Thread nD τ).loc cc1_scratch0) ↦{q} g) :=
  owns_whole _ _ _ _

/-- FIRST POINT. The generator register and the scoped buffers that are no staging buffer of the region make the
    invariant before point 0: the scratch is owned at whatever it holds, of which nothing is claimed yet (no point
    precedes the first). -/
theorem Φ1_first (c : Dev nD) (P : sProp 𝕄) :
    iprop((∃ r, prngReg c r) ∗ P ∗ Pipeline.scopedRest spec1 c) ⊢ (Φ1 V c 0 : sProp 𝕄) := by
  unfold Φ1 restΦ1
  rw [scopedRest1_eq]
  iintro ⟨Hp, -, H00, H01, H10, H20, H21, ⟨%f, Hs⟩⟩
  isplitl [Hp H00 H01 H10 H20 H21]
  · isplitl [H00]; · iexact H00
    isplitl [H01]; · iexact H01
    isplitl [H10]; · iexact H10
    isplitl [H20]; · iexact H20
    isplitl [H21]; · iexact H21
    iexact Hp
  iexists f
  isplitl [Hs]
  · rw [owns_scr]; iexact Hs
  ipureintro
  intro t' ht'
  exact absurd ht' (Nat.not_lt_zero _)

/-- LAST POINT. The invariant after the last point gives back the generator register and those scoped buffers: what
    is known of the scratch's contents is forgotten. -/
theorem Φ1_last (c : Dev nD) :
    (Φ1 V c (Fin.last cfg1.N) : sProp 𝕄) ⊢ iprop((∃ r, prngReg c r) ∗ Pipeline.scopedRest spec1 c) := by
  unfold Φ1 restΦ1
  rw [scopedRest1_eq]
  iintro ⟨⟨H00, H01, H10, H20, H21, Hp⟩, ⟨%g, Hs, -⟩⟩
  isplitl [Hp]; · iexact Hp
  isplitl [H00]; · iexact H00
  isplitl [H01]; · iexact H01
  isplitl [H10]; · iexact H10
  isplitl [H20]; · iexact H20
  isplitl [H21]; · iexact H21
  iexists g
  iapply (Entails.of_eq (owns_scr c fullShare g))
  iexact Hs

end Inv

/-! # The run of @main: two regions after a host stretch

The thread state between items: every unscoped buffer of the core whole at the boundary's contents, the generator
register at some state, nothing owed. -/

variable (m : (ℓ : Loc nD τ sig) → Buf (Elt F) ℓ)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and that it owes
    nothing. -/
abbrev R (c : Dev nD) : sProp 𝕄 := iprop((∃ r, prngReg c r) ∗ ∃ W, owes (c : Thread nD τ) (0 : CellTallies nD τ sig Unit) W)

/-- The host stretch as a segment, over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owing: every unscoped buffer at the last contents, the generator register. -/
abbrev Tₙ (c : Dev nD) : sProp 𝕄 := iprop(StableHlo.held (c : Thread nD τ) (Pipeline.ucRefs τ sig) (W3 m c) ∗ ∃ r, prngReg c r)

set_option backward.isDefEq.respectTransparency.types false in
/-- The projection region over the thread state: entered from every unscoped buffer at `W1`, left at `W2`. Its three
    arrays are distinct buffers held whole; the generator register passes through the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. Three of
    its windows stand on the projected array, which they hold in thirds; its invariant carries the scratch. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Φ1_first (V2 m) c _
  hout c := by
    rw [Pipeline.ownSems0_none]
    refine (Φ1_last (V2 m) c).trans ?_
    iintro ⟨Hr, Hp⟩
    isplitl [Hr]; · iexact Hr
    isplitr; · iempintro
    iexact Hp
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (unscopedBufs c (V3 m c) : sProp 𝕄) := unscopedBufs_of_arrays1 (V2 m) c (V3 m c) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg0 m), .region (reg0 m), .region (reg1 m) ]

/-- @main is the run of the segments. -/
theorem main_run (c : Dev nD) : main (F := F) c = Pipeline.Seg.run (segs m) :=
  main_segs adm (pdats m) () 𝒱₀ L lv (hseg0 m) (reg0 m) (reg1 m) rfl c

set_option backward.isDefEq.respectTransparency.types false in
/-- THE RUN. From any memory with zero counters, every weakly fair execution of @main on the TensorCores terminates,
    and every final memory holds, on every core, the two results at what the attention region's write-backs fold to
    (from the contents the projection region left) and every argument as launched. -/
theorem run_outs (ρ : Dev nD → PrngReg) :
    θ_run defs (onTc (τ := τ) (main (F := F))) ⟨m, fun _ => 0, ρ⟩ (fun r => ∀ c : Dev nD,
        r.2.mem ((c.tc : Thread nD τ).loc main_v4_0) = (dat1 (V2 m) c).arrAt 8 cfg1.N
      ∧ r.2.mem ((c.tc : Thread nD τ).loc main_v4_1) = (dat1 (V2 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v4_0 (by decide))).trans (V3_main_v4_0 m c),
       (h c _ (mem_uc main_v4_1 (by decide))).trans (V3_main_v4_1 m c),
       (h c _ (mem_uc main_arg0 (by decide))).trans (V3_main_arg0 m c),
       (h c _ (mem_uc main_arg1 (by decide))).trans (V3_main_arg1 m c),
       (h c _ (mem_uc main_arg2 (by decide))).trans (V3_main_arg2 m c),
       (h c _ (mem_uc main_arg3 (by decide))).trans (V3_main_arg3 m c),
       (h c _ (mem_uc main_arg4 (by decide))).trans (V3_main_arg4 m c),
       (h c _ (mem_uc main_arg5 (by decide))).trans (V3_main_arg5 m c),
       (h c _ (mem_uc main_arg6 (by decide))).trans (V3_main_arg6 m c),
       (h c _ (mem_uc main_arg7 (by decide))).trans (V3_main_arg7 m c)⟩)

end Cert.KernelIdeal.Hand

end
-- ==== Proof.K.R0.lean ====
import proofs.«134556_j2671469658755_2_alg».proof.Proof.Gen.Kernel.Launch
import proofs.«134556_j2671469658755_2_alg».proof.Proof.Gen.Kernel.Points
import proofs.«134556_j2671469658755_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel: one row tile of `enc` times the whole weight matrix

At grid point `t = (b, st)` the body reads the tile `enc[b, 512·st … , :]` and the whole `[128, 3072]`
weight matrix and stores their product, so each input buffer is left as found and the output buffer holds the
product of the two input blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1x512x128 := Rect.unit (s := S1x512x128) ![0, 0, 0] S1x512x128.size inb_S1x512x128_S1x512x128_0_0_0
abbrev r0_w : Rect S128x3072 := Rect.unit (s := S128x3072) ![0, 0] S128x3072.size inb_S128x3072_S128x3072_0_0
abbrev r0_o : Rect S1x512x3072 := Rect.unit (s := S1x512x3072) ![0, 0, 0] S1x512x3072.size inb_S1x512x3072_S1x512x3072_0_0_0

/-- The output buffer after the body: its one whole-block store of the product of the two loaded blocks. -/
def out0_2 (x0 : Vec F S1x512x128 .f32) (x1 : Vec F S128x3072 .bf16) : Vec F S1x512x3072 .bf16 :=
  View.canon [⟨r0_o, k0_pay1 (View.ld x0 r0_a) (View.ld x1 r0_w)⟩]

theorem cover0_2 (p0 : Vec F S1x512x3072 .bf16) (y : S1x512x3072.Idx) :
    ∃ pc ∈ ([⟨r0_o, p0⟩] : List (View.Piece (Elt F) S1x512x3072 .bf16)), y ∈ pc.1.set :=
  View.cover_of_tiled [⟨r0_o, p0⟩] S1x512x3072.size (by rfl) y

set_option maxHeartbeats 1000000 in
theorem sound_kernel0 (c : Dev nD) (E : Set ℕ) (i : grid0.Coords) (arg2 : Memref sig .tc .vmem S1x512x128 .f32) (harg2 : arg2.IsWhole)
    (arg3 : Memref sig .tc .vmem S128x3072 .bf16) (harg3 : arg3.IsWhole) (arg4 : Memref sig .tc .vmem S1x512x3072 .bf16) (harg4 : arg4.IsWhole)
    (x0 : Vec F S1x512x128 .f32) (x1 : Vec F S128x3072 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__qkv_proj_kernel i arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection region on core `c`: the arrays as the region finds them; after the body each
    input buffer at its block and the output buffer at the product of the two input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Data.lean ====
import proofs.«134556_j2671469658755_2_alg».proof.Proof.Gen.Kernel.Launch
import proofs.«134556_j2671469658755_2_alg».proof.Proof.Gen.Kernel.Points
import proofs.«134556_j2671469658755_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention kernel: data of the region

At grid point `t = (b, qt, h)` the body reads the query tile of head `h`, the key and value column blocks of
head `h` out of the batch's whole key / value blocks, and the mask tile; it stores the softmax probabilities
into the probabilities' block, and the head's context tile into column block `h` of a scratch that lives
across the eight points of the group `(b, qt)`. At the last head it reads the whole scratch back, multiplies by
the output weights, adds the residual tile and normalises each row, into the output's block. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles -/

abbrev rq : Rect S1x512x128 := Rect.unit (s := S1x512x128) ![0, 0, 0] S1x512x128.size inb_S1x512x128_S1x512x128_0_0_0
/-- Head `h`'s column block of a whole key / value block. -/
abbrev rkv (i : grid1.Coords) : Rect S1x2048x1024 := Rect.unit (s := S1x2048x1024) (k1_off1 i) S1x2048x128.size (k1_off1_inb i)
abbrev rmk : Rect S1x1x512x2048 := Rect.unit (s := S1x1x512x2048) ![0, 0, 0, 0] S1x1x512x2048.size inb_S1x1x512x2048_S1x1x512x2048_0_0_0_0
/-- Head `h`'s column block of the scratch. -/
abbrev rsc (i : grid1.Coords) : Rect S512x1024 := Rect.unit (s := S512x1024) (k1_off2 i) S512x128.size (k1_off2_inb i)
abbrev rsw : Rect S512x1024 := Rect.unit (s := S512x1024) ![0, 0] S512x1024.size inb_S512x1024_S512x1024_0_0
abbrev rwo : Rect S1024x128 := Rect.unit (s := S1024x128) ![0, 0] S1024x128.size inb_S1024x128_S1024x128_0_0
abbrev rv : Rect S128 := Rect.unit (s := S128) ![0] S128.size inb_S128_S128_0

/-! ## What the body computes at a point, from the blocks it reads -/

/-- The probabilities' block: the softmax of the masked, scaled scores of the query tile against head `h`'s keys. -/
def attnBlk (i : grid1.Coords) (x0 : Vec F S1x512x128 .bf16) (x1 : Vec F S1x2048x1024 .bf16) (x3 : Vec F S1x1x512x2048 .i32) :
    Vec F S1x1x512x2048 .f32 :=
  View.canon [⟨rmk, k1_pay4 (View.ld x0 rq) (View.ld x1 (rkv i)) (View.ld x3 rmk)⟩]

/-- The head's context tile: the probabilities times head `h`'s values. -/
def ctxBlk (i : grid1.Coords) (x0 : Vec F S1x512x128 .bf16) (x1 x2 : Vec F S1x2048x1024 .bf16) (x3 : Vec F S1x1x512x2048 .i32) :
    Vec F S512x128 .f32 :=
  k1_pay1 (k1_pay5 (View.ld x0 rq) (View.ld x1 (rkv i)) (View.ld x2 (rkv i)) (View.ld x3 rmk))

/-- The output's block, from the whole scratch `s`: the projection of the eight heads' context tiles, plus the
    residual tile, each row normalised, scaled and shifted. -/
def outBlk (s : Vec F S512x1024 .f32) (x5 : Vec F S1024x128 .bf16) (x4 : Vec F S1x512x128 .f32) (x6 x7 : Vec F S128 .f32) :
    Vec F S1x512x128 .f32 :=
  View.canon [⟨rq, k1_pay2 (View.ld s rsw) (View.ld x5 rwo) (View.ld x4 rq) (View.ld x6 rv) (View.ld x7 rv)⟩]

/-! ## The scratch across a group of eight points -/

/-- The context tile point `t` stores, from its blocks. -/
def ctxAt (c : Dev nD) (t : Fin cfg1.N) : Vec F S512x128 .f32 :=
  ctxBlk (grid1.coords t) (iblk1 V c 0 t) (iblk1 V c 1 t) (iblk1 V c 2 t) (iblk1 V c 3 t)

/-- Point number `h` of the group of eight points that `t` belongs to. -/
def grpPt (t : Fin cfg1.N) (h : Fin 8) : Fin cfg1.N :=
  ⟨t.val - t.val % 8 + h.val, by have := t.isLt; have hN : cfg1.N = 128 := N_1; have := h.isLt; omega⟩

/-- Column block `h` of the scratch, at a literal offset. -/
abbrev rsK (h : Fin 8) : Rect S512x1024 :=
  Rect.unit (s := S512x1024) ![0, 128 * h.val] S512x128.size (by
    intro a; have := h.isLt
    match a with
    | ⟨0, _⟩ => show 0 + 512 ≤ 512; omega
    | ⟨1, _⟩ => show 128 * h.val + 128 ≤ 1024; omega)

/-- The scratch once all eight heads of `t`'s group have stored: column block `h` holds head `h`'s context tile. -/
def scrFull (c : Dev nD) (t : Fin cfg1.N) : Vec F S512x1024 .f32 :=
  View.canon [⟨rsK 7, ctxAt V c (grpPt t 7)⟩, ⟨rsK 6, ctxAt V c (grpPt t 6)⟩, ⟨rsK 5, ctxAt V c (grpPt t 5)⟩,
    ⟨rsK 4, ctxAt V c (grpPt t 4)⟩, ⟨rsK 3, ctxAt V c (grpPt t 3)⟩, ⟨rsK 2, ctxAt V c (grpPt t 2)⟩,
    ⟨rsK 1, ctxAt V c (grpPt t 1)⟩, ⟨rsK 0, ctxAt V c (grpPt t 0)⟩]

/-- What the scratch is known to hold before point `n`: the column blocks the earlier points of `n`'s group stored. -/
def ScrInv (c : Dev nD) (n : ℕ) (g : Vec F S512x1024 .f32) : Prop :=
  ∀ t' : Fin cfg1.N, t'.val < n → t'.val / 8 = n / 8 → View.ld g (rsc (grid1.coords t')) = ctxAt V c t'

/-- The scratch as a memref. -/
abbrev scrM : Memref sig .tc .vmem S512x1024 .f32 := Memref.whole cc1_scratch0

/-- The region's invariant less the scratch: the other scoped buffers that are no staging buffer of this region,
    each at some contents, and the generator register. -/
def restΦ1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ ∃ r, prngReg c r)

/-- The region's invariant before point `n`: the rest, and the scratch at contents that hold the column blocks the
    earlier points of `n`'s group stored. -/
def Φ1 (c : Dev nD) (n : Fin (cfg1.N + 1)) : sProp 𝕄 :=
  iprop(restΦ1 (F := F) c ∗ ∃ g : Vec F S512x1024 .f32, owns (c : Thread nD τ) scrM fullShare g ∗ ⌜ScrInv V c n.val g⌝)

/-- The proof data of the attention region on core `c`. The three windows on the projected array share it in
    thirds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outBlk (scrFull V c t) (iblk1 V c 5 t) (iblk1 V c 4 t) (iblk1 V c 6 t) (iblk1 V c 7 t)
    | ⟨9, _⟩ => attnBlk (grid1.coords t) (iblk1 V c 0 t) (iblk1 V c 1 t) (iblk1 V c 3 t)
  Φ n := Φ1 V c n
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = outBlk (scrFull V c t) (iblk1 V c 5 t) (iblk1 V c 4 t) (iblk1 V c 6 t) (iblk1 V c 7 t) := by dsimp only [dat1]
theorem after1_9 (c : Dev nD) (t : Fin cfg1.N) : (dat1 V c).after 9 t
    = attnBlk (grid1.coords t) (iblk1 V c 0 t) (iblk1 V c 1 t) (iblk1 V c 3 t) := by dsimp only [dat1]
theorem Φ_eq1 (c : Dev nD) (n : Fin (cfg1.N + 1)) : (dat1 V c).Φ n = Φ1 V c n := by dsimp only [dat1]

end Cert.Kernel.Hand

end
-- ==== Proof.K.R1Scratch.lean ====
import proofs.«134556_j2671469658755_2_alg».proof.Proof.Gen.Kernel.Launch
import proofs.«134556_j2671469658755_2_alg».proof.Proof.Gen.Kernel.Points
import proofs.«134556_j2671469658755_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions
import proofs.«134556_j2671469658755_2_alg».proof.Proof.K.R1Data
import Idealize.ShloMosaic.Lib.WritesUnit
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scratch across a group of eight points: what is known of its contents -/

variable (V : (c : Dev nD) → (b : Ref sig .tc) → Buf (Elt F) ((c : Thread nD τ).loc b))

/-- The head coordinate of a point is its number modulo eight. -/
theorem coords2 : ∀ t : Fin cfg1.N, ((grid1.coords t) 2).val = t.val % 8 :=
  (by decide +kernel : ∀ t : Fin grid1.N, ((grid1.coords t) 2).val = t.val % 8)

/-- The last-head condition holds at the points that are 7 modulo eight. -/
theorem hcond1 : ∀ t : Fin cfg1.N, k1_cond1 (grid1.coords t) = 1#1 ↔ t.val % 8 = 7 :=
  (by decide +kernel : ∀ t : Fin grid1.N, k1_cond1 (grid1.coords t) = 1#1 ↔ t.val % 8 = 7)

theorem mul128 : ∀ k : Fin 8, (Scalar.indexCast (Scalar.muli (BitVec.ofNat 32 k.val) 128#32)).toNat = 128 * k.val := by decide

/-- The scratch column offset of head `h` is `128·h`. -/
theorem off2_eq (i : grid1.Coords) : k1_off2 i = ![0, 128 * (i 2).val] := by
  have h8 : (i 2).val < 8 := (i 2).isLt
  have := mul128 ⟨(i 2).val, h8⟩
  unfold k1_off2
  funext a
  match a with
  | ⟨0, _⟩ => rfl
  | ⟨1, _⟩ => exact this

theorem unit_congr {S : Shape} {off off' size : Fin S.rank → ℕ} (h : off = off') (inb : ∀ a, off a + size a ≤ S.size a)
    (inb' : ∀ a, off' a + size a ≤ S.size a) : Rect.unit (s := S) off size inb = Rect.unit (s := S) off' size inb' := by
  subst h; rfl

/-- A point's scratch rectangle is the literal column block of its head. -/
theorem rsc_eq_rsK (t' : Fin cfg1.N) (h : Fin 8) (hh : t'.val % 8 = h.val) : rsc (grid1.coords t') = rsK h := by
  refine unit_congr ?_ _ _
  rw [off2_eq, coords2, hh]

/-- Membership in a point's scratch rectangle, by the column. -/
theorem mem_rsc (i : grid1.Coords) (y : S512x1024.Idx) :
    y ∈ (rsc i).set ↔ 128 * (i 2).val ≤ (y 1).val ∧ (y 1).val < 128 * (i 2).val + 128 := by
  rw [Rect.mem_set_unit, off2_eq]
  constructor
  · intro h; have := h 1; exact this
  · intro h a
    match a with
    | ⟨0, _⟩ =>
      have h0 : (y 0).val < 512 := (y 0).isLt
      exact ⟨Nat.zero_le _, (by show (y 0).val < 0 + 512; omega)⟩
    | ⟨1, _⟩ => exact h

/-- The column of an element of a point's scratch rectangle. -/
theorem rsc_emb_col (i : grid1.Coords) (x : (rsc i).shape.Idx) : (((rsc i).emb x) 1).val = 128 * (i 2).val + (x 1).val := by
  rw [Rect.emb_apply]
  show k1_off2 i 1 + 1 * (x 1).val = _
  rw [off2_eq]; show 128 * (i 2).val + 1 * (x 1).val = _; omega

/-- After point `t` stores its context tile, the scratch holds the tiles of every point of `t`'s group up to `t`. -/
theorem known_after (c : Dev nD) (t : Fin cfg1.N) (g g' : Vec F S512x1024 .f32) (hinv : ScrInv V c t.val g)
    (h1 : View.ld g' (rsc (grid1.coords t)) = ctxAt V c t) (h2 : ∀ y, y ∉ (rsc (grid1.coords t)).set → g' y = g y)
    (t' : Fin cfg1.N) (hle : t'.val ≤ t.val) (hgrp : t'.val / 8 = t.val / 8) :
    View.ld g' (rsc (grid1.coords t')) = ctxAt V c t' := by
  by_cases heq : t' = t
  · subst heq; exact h1
  · have hlt : t'.val < t.val := lt_of_le_of_ne hle (fun h => heq (Fin.ext h))
    rw [← hinv t' hlt hgrp]
    funext x
    show g' ((rsc (grid1.coords t')).emb x) = g ((rsc (grid1.coords t')).emb x)
    refine h2 _ ?_
    rw [mem_rsc, rsc_emb_col, coords2, coords2]
    have := (x 1).isLt
    have hx : (x 1).val < 128 := this
    omega

/-- So the invariant is re-established for the next point. -/
theorem scrInv_step (c : Dev nD) (t : Fin cfg1.N) (g g' : Vec F S512x1024 .f32) (hinv : ScrInv V c t.val g)
    (h1 : View.ld g' (rsc (grid1.coords t)) = ctxAt V c t) (h2 : ∀ y, y ∉ (rsc (grid1.coords t)).set → g' y = g y) :
    ScrInv V c (t.val + 1) g' := by
  intro t' hlt hgrp
  exact known_after V c t g g' hinv h1 h2 t' (by omega) (by omega)

/-- The eight literal column blocks tile the scratch. -/
theorem cover_scr (p7 p6 p5 p4 p3 p2 p1 p0 : Vec F S512x128 .f32) (y : S512x1024.Idx) :
    ∃ pc ∈ ([⟨rsK 7, p7⟩, ⟨rsK 6, p6⟩, ⟨rsK 5, p5⟩, ⟨rsK 4, p4⟩, ⟨rsK 3, p3⟩, ⟨rsK 2, p2⟩, ⟨rsK 1, p1⟩, ⟨rsK 0, p0⟩] :
      List (View.Piece (Elt F) S512x1024 .f32)), y ∈ pc.1.set :=
  View.cover_of_tiled (s := S512x1024) ([⟨rsK 7, p7⟩, ⟨rsK 6, p6⟩, ⟨rsK 5, p5⟩, ⟨rsK 4, p4⟩, ⟨rsK 3, p3⟩, ⟨rsK 2, p2⟩, ⟨rsK 1, p1⟩, ⟨rsK 0, p0⟩] :
      List (View.Piece (Elt F) S512x1024 .f32)) ![512, 128] (by rfl) y

/-- At the last head the scratch is the full scratch of the group, whatever it held before the group began. -/
theorem scr_full (c : Dev nD) (t : Fin cfg1.N) (h7 : t.val % 8 = 7) (g g' : Vec F S512x1024 .f32) (hinv : ScrInv V c t.val g)
    (h1 : View.ld g' (rsc (grid1.coords t)) = ctxAt V c t) (h2 : ∀ y, y ∉ (rsc (grid1.coords t)).set → g' y = g y) :
    g' = scrFull V c t := by
  have hk : ∀ h : Fin 8, ∀ x, ctxAt V c (grpPt t h) x = g' ((rsK h).emb x) := by
    intro h x
    have hv : (grpPt t h).val = t.val - t.val % 8 + h.val := rfl
    have := h.isLt
    have e := known_after V c t g g' hinv h1 h2 (grpPt t h) (by rw [hv]; omega) (by rw [hv]; omega)
    have hmod : (grpPt t h).val % 8 = h.val := by rw [hv]; omega
    have hemb : (rsc (grid1.coords (grpPt t h))).emb x = (rsK h).emb x := by
      funext a; apply Fin.ext
      rw [Rect.emb_apply, Rect.emb_apply]
      show k1_off2 (grid1.coords (grpPt t h)) a + 1 * (x a).val = (![0, 128 * h.val] : Fin 2 → ℕ) a + 1 * (x a).val
      rw [off2_eq, coords2, hmod]
    rw [← hemb]
    exact (congrFun e x).symm
  funext y
  symm
  unfold scrFull
  refine View.canon_apply_of_pieces g' _ ?_ y (cover_scr _ _ _ _ _ _ _ _ y)
  intro p hp x
  simp only [List.mem_cons, List.not_mem_nil, _root_.or_false] at hp
  rcases hp with rfl | rfl | rfl | rfl | rfl | rfl | rfl | rfl
  all_goals exact hk _ x

end Cert.Kernel.Hand

end
-- ==== Proof.K.R1Body.lean ====
import proofs.«134556_j2671469658755_2_alg».proof.Proof.Gen.Kernel.Launch
import proofs.«134556_j2671469658755_2_alg».proof.Proof.Gen.Kernel.Points
import proofs.«134556_j2671469658755_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions
import proofs.«134556_j2671469658755_2_alg».proof.Proof.K.R1Scratch
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention kernel's body on any staging memrefs, in its two control cases -/

/-- Off its rectangle, one write leaves what was there. -/
theorem read_write_one_of_not_mem {κ : Kind} {sp : Space} {s : Shape} {e : EltTy} (v : View sig κ sp s e) (f : v.ty.Contents (Elt F))
    (r : Rect s) (w : r.shape.Idx → Elt F e) (y : s.Idx) (hy : y ∉ r.set) :
    v.read (Elt F) (v.writes (Elt F) f [⟨r, w⟩]) y = v.read (Elt F) f y := by
  have hy' : y ∉ Finset.univ.map r.emb := by rwa [Rect.map_emb_univ]
  rw [View.writes_cons, View.read_slice_write_of_not_mem r _ _ _ hy']
  rfl

theorem cover_attn (p0 : Vec F S1x1x512x2048 .f32) (y : S1x1x512x2048.Idx) :
    ∃ pc ∈ ([⟨rmk, p0⟩] : List (View.Piece (Elt F) S1x1x512x2048 .f32)), y ∈ pc.1.set :=
  View.cover_of_tiled [⟨rmk, p0⟩] S1x1x512x2048.size (by rfl) y

theorem cover_out (p0 : Vec F S1x512x128 .f32) (y : S1x512x128.Idx) :
    ∃ pc ∈ ([⟨rq, p0⟩] : List (View.Piece (Elt F) S1x512x128 .f32)), y ∈ pc.1.set :=
  View.cover_of_tiled [⟨rq, p0⟩] S1x512x128.size (by rfl) y

set_option maxHeartbeats 2000000 in
/-- A head other than the last: the probabilities' block is stored, the head's context tile goes into its column block
    of the scratch, the output's buffer is not touched. -/
theorem sound_kernel1_B (c : Dev nD) (E : Set ℕ) (i : grid1.Coords) (arg3 : Memref sig .tc .vmem S1x512x128 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1x512x2048 .i32) (harg6 : arg6.IsWhole) (arg7 : Memref sig .tc .vmem S1x512x128 .f32) (harg7 : arg7.IsWhole) (arg8 : Memref sig .tc .vmem S1024x128 .bf16) (harg8 : arg8.IsWhole) (arg9 : Memref sig .tc .vmem S128 .f32) (harg9 : arg9.IsWhole) (arg10 : Memref sig .tc .vmem S128 .f32) (harg10 : arg10.IsWhole) (arg11 : Memref sig .tc .vmem S1x512x128 .f32) (harg11 : arg11.IsWhole) (arg12 : Memref sig .tc .vmem S1x1x512x2048 .f32) (harg12 : arg12.IsWhole) (arg13 : Memref sig .tc .vmem S512x1024 .f32) (harg13 : arg13.IsWhole)
    (hc : ¬ k1_cond1 i = 1#1)
    (x0 : Vec F S1x512x128 .bf16) (x1 x2 : Vec F S1x2048x1024 .bf16) (x3 : Vec F S1x1x512x2048 .i32) (x4 : Vec F S1x512x128 .f32)
    (x5 : Vec F S1024x128 .bf16) (x6 x7 : Vec F S128 .f32) (xs : Vec F S512x1024 .f32) (d8 : Vec F S1x512x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ owns (c : Thread nD τ) arg11 fullShare d8 ∗ (∃ d, owns (c : Thread nD τ) arg12 fullShare d)
        ∗ owns (c : Thread nD τ) arg13 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
            ∗ owns (c : Thread nD τ) arg11 fullShare d8 ∗ owns (c : Thread nD τ) arg12 fullShare (attnBlk i x0 x1 x3)
            ∗ (∃ g' : Vec F S512x1024 .f32, owns (c : Thread nD τ) arg13 fullShare g'
                ∗ ⌜View.ld g' (rsc i) = ctxBlk i x0 x1 x2 x3 ∧ ∀ y, y ∉ (rsc i).set → g' y = xs y⌝)) -∗ K ⟨⟩))
      ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12 arg13 harg13) K := by
  simp only [cc1__fused_kernel_eq_skeleton]; unfold cc1__fused_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  subst hf0; subst hf1; subst hf2; subst hf3; subst hf4; subst hf5; subst hf6; subst hf7; subst hfs; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_attn _)
  iexists _
  isplitl [HS]
  · iexists _; isplitr
    swap; · iexact HS
    ipureintro; rfl
  ipureintro
  refine ⟨?_, fun y hy => read_write_one_of_not_mem _ _ _ _ y hy⟩
  funext x
  sl_unfold_run_names
  exact View.read_writes_cons_emb _ _ _ _ _ x

set_option maxHeartbeats 2000000 in
/-- The last head: as before, and then the whole scratch is read back and the output's block stored. -/
theorem sound_kernel1_A (c : Dev nD) (E : Set ℕ) (i : grid1.Coords) (arg3 : Memref sig .tc .vmem S1x512x128 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1x512x2048 .i32) (harg6 : arg6.IsWhole) (arg7 : Memref sig .tc .vmem S1x512x128 .f32) (harg7 : arg7.IsWhole) (arg8 : Memref sig .tc .vmem S1024x128 .bf16) (harg8 : arg8.IsWhole) (arg9 : Memref sig .tc .vmem S128 .f32) (harg9 : arg9.IsWhole) (arg10 : Memref sig .tc .vmem S128 .f32) (harg10 : arg10.IsWhole) (arg11 : Memref sig .tc .vmem S1x512x128 .f32) (harg11 : arg11.IsWhole) (arg12 : Memref sig .tc .vmem S1x1x512x2048 .f32) (harg12 : arg12.IsWhole) (arg13 : Memref sig .tc .vmem S512x1024 .f32) (harg13 : arg13.IsWhole)
    (hc : k1_cond1 i = 1#1)
    (x0 : Vec F S1x512x128 .bf16) (x1 x2 : Vec F S1x2048x1024 .bf16) (x3 : Vec F S1x1x512x2048 .i32) (x4 : Vec F S1x512x128 .f32)
    (x5 : Vec F S1024x128 .bf16) (x6 x7 : Vec F S128 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ (∃ d, owns (c : Thread nD τ) arg11 fullShare d) ∗ (∃ d, owns (c : Thread nD τ) arg12 fullShare d)
        ∗ owns (c : Thread nD τ) arg13 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
            ∗ owns (c : Thread nD τ) arg12 fullShare (attnBlk i x0 x1 x3)
            ∗ (∃ g' : Vec F S512x1024 .f32, owns (c : Thread nD τ) arg13 fullShare g'
                ∗ ⌜View.ld g' (rsc i) = ctxBlk i x0 x1 x2 x3 ∧ ∀ y, y ∉ (rsc i).set → g' y = xs y⌝
                ∗ owns (c : Thread nD τ) arg11 fullShare (outBlk g' x5 x4 x6 x7))) -∗ K ⟨⟩))
      ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12 arg13 harg13) K := by
  simp only [cc1__fused_kernel_eq_skeleton]; unfold cc1__fused_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0; subst hf1; subst hf2; subst hf3; subst hf4; subst hf5; subst hf6; subst hf7; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists _; isplitr
    swap; · iexact H9
    ipureintro
    exact View.read_writes_eq_canon _ _ _ (cover_attn _)
  iexists _
  isplitl [HS]
  · iexists _; isplitr
    swap; · iexact HS
    ipureintro; rfl
  isplitr
  · ipureintro
    refine ⟨?_, fun y hy => ?_⟩
    · funext x
      sl_unfold_run_names
      exact View.read_writes_cons_emb _ _ _ _ _ x
    · sl_unfold_run_names
      exact read_write_one_of_not_mem _ _ _ _ y hy
  iexists _; isplitr
  swap; · iexact H8
  ipureintro
  sl_unfold_run_names
  exact View.read_writes_eq_canon _ _ _ (cover_out _)

end Cert.Kernel.Hand

end
-- ==== Proof.K.R1Obl.lean ====
import proofs.«134556_j2671469658755_2_alg».proof.Proof.Gen.Kernel.Launch
import proofs.«134556_j2671469658755_2_alg».proof.Proof.Gen.Kernel.Points
import proofs.«134556_j2671469658755_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Regions
import proofs.«134556_j2671469658755_2_alg».proof.Proof.K.R1Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's body obligation -/

variable (V : (c : Dev nD) → (b : Ref sig .tc) → Buf (Elt F) ((c : Thread nD τ).loc b))

/-! An input window's current buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ (match cfg1.idle 8 (cfg1.grid.coords t) with
      | true => match (cfg1.win 8).flush t with
        | false => iprop(∃ d, owns (c : Thread nD τ) (st1_8 t) fullShare ((dat1 V c).before 8 t d))
        | true => owns (c : Thread nD τ) (st1_8 t) fullShare ((dat1 V c).after 8 t)
      | false => owns (c : Thread nD τ) (st1_8 t) fullShare ((dat1 V c).after 8 t))
    ∗ owns (c : Thread nD τ) (st1_9 t) fullShare ((dat1 V c).after 9 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    Φ_eq1, Φ_eq1, after1_0, after1_1, after1_2, after1_3, after1_4, after1_5, after1_6, after1_7, after1_9]
  unfold Φ1
  by_cases h7 : t.val % 8 = 7
  · have hcond : k1_cond1 (grid1.coords t) = 1#1 := (hcond1 t).mpr h7
    have hid : idle1 8 (grid1.coords t) = false := by
      show (!(k1_cond1 (grid1.coords t) == 1#1)) = false
      rw [hcond]; rfl
    rw [hid]
    dsimp only
    rw [after1_8]
    iintro ⟨⟨HR, ⟨%g, HS, %hinv⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_A c Set.univ (grid1.coords t) _ _ _ _ _ _ _ _ _ _ _ _ _ _ _ _ _ _ _ _ _ _ hcond
      (iblk1 V c 0 t) (iblk1 V c 1 t) (iblk1 V c 2 t) (iblk1 V c 3 t) (iblk1 V c 4 t) (iblk1 V c 5 t) (iblk1 V c 6 t) (iblk1 V c 7 t) g _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H9, ⟨%g', HS, %hg, H8⟩⟩
    have hfull : g' = scrFull V c t := scr_full V c t h7 g g' hinv hg.1 hg.2
    subst hfull
    isplitl [HR HS]
    · isplitl [HR]; · iexact HR
      iexists _; isplitl [HS]; · iexact HS
      ipureintro
      exact scrInv_step V c t g _ hinv hg.1 hg.2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hcond : ¬ k1_cond1 (grid1.coords t) = 1#1 := fun h => h7 ((hcond1 t).mp h)
    have hid : idle1 8 (grid1.coords t) = true := by
      show (!(k1_cond1 (grid1.coords t) == 1#1)) = true
      rcases BitVec.eq_zero_or_eq_one (k1_cond1 (grid1.coords t)) with h | h
      · rw [h]; rfl
      · exact absurd h hcond
    have hfl : (cfg1.win 8).flush t = false := Bool.eq_false_iff.mpr fun h => h7 ((flush1_8 t).mp h)
    rw [hid, hfl]
    dsimp only
    iintro ⟨⟨HR, ⟨%g, HS, %hinv⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_B c Set.univ (grid1.coords t) _ _ _ _ _ _ _ _ _ _ _ _ _ _ _ _ _ _ _ _ _ _ hcond
      (iblk1 V c 0 t) (iblk1 V c 1 t) (iblk1 V c 2 t) (iblk1 V c 3 t) (iblk1 V c 4 t) (iblk1 V c 5 t) (iblk1 V c 6 t) (iblk1 V c 7 t) g
      ((dat1 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, ⟨%g', HS, %hg⟩⟩
    isplitl [HR HS]
    · isplitl [HR]; · iexact HR
      iexists _; isplitl [HS]; · iexact HS
      ipureintro
      exact scrInv_step V c t g g' hinv hg.1 hg.2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexact H9

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.SegsShare.lean ====
import proofs.«134556_j2671469658755_2_alg».proof.Proof.K.R1Data
import Idealize.ShloMosaic.Lib.Pipeline.Frame
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's arrays, enumerated

Ten windows stand on eight distinct buffers: the first three all on the projected array. -/

variable (V : (c : Dev nD) → (b : Ref sig .tc) → Buf (Elt F) ((c : Thread nD τ).loc b))

/-- The eight distinct buffers behind the ten windows' arrays, one by one. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v3) ↦{fullShare} Vc main_v3)
        ∗ (((c : Thread nD τ).loc main_arg1) ↦{fullShare} Vc main_arg1)
        ∗ (((c : Thread nD τ).loc main_arg0) ↦{fullShare} Vc main_arg0)
        ∗ (((c : Thread nD τ).loc main_v2) ↦{fullShare} Vc main_v2)
        ∗ (((c : Thread nD τ).loc main_arg6) ↦{fullShare} Vc main_arg6)
        ∗ (((c : Thread nD τ).loc main_arg7) ↦{fullShare} Vc main_arg7)
        ∗ (((c : Thread nD τ).loc main_v4_0) ↦{fullShare} Vc main_v4_0)
        ∗ (((c : Thread nD τ).loc main_v4_1) ↦{fullShare} Vc main_v4_1)) := by
  unfold Pipeline.arrBufs
  exact bigSep_eq_bigSepL_of_eq [main_v3, main_arg1, main_arg0, main_v2, main_arg6, main_arg7, main_v4_0, main_v4_1]
    (by decide) (by decide) _

/-- An input window's array is held at the share the proof data names. -/
theorem share1_in (c : Dev nD) (w : Fin cfg1.W) (hin : (cfg1.win w).isOut = false) :
    (dat1 V c).share w = (dat1 V c).q w := by
  unfold Dat.share; rw [hin]; rfl

/-- An output window's array is held at the full share. -/
theorem share1_out (c : Dev nD) (w : Fin cfg1.W) (hout : (cfg1.win w).isOut = true) :
    (dat1 V c).share w = fullShare := by
  unfold Dat.share; rw [hout]; rfl

theorem share1_0 (c : Dev nD) : (dat1 V c).share 0 = fullShare.left := (share1_in V c 0 rfl).trans rfl
theorem share1_1 (c : Dev nD) : (dat1 V c).share 1 = fullShare.right.left := (share1_in V c 1 rfl).trans rfl
theorem share1_2 (c : Dev nD) : (dat1 V c).share 2 = fullShare.right.right := (share1_in V c 2 rfl).trans rfl
theorem share1_3 (c : Dev nD) : (dat1 V c).share 3 = fullShare := (share1_in V c 3 rfl).trans rfl
theorem share1_4 (c : Dev nD) : (dat1 V c).share 4 = fullShare := (share1_in V c 4 rfl).trans rfl
theorem share1_5 (c : Dev nD) : (dat1 V c).share 5 = fullShare := (share1_in V c 5 rfl).trans rfl
theorem share1_6 (c : Dev nD) : (dat1 V c).share 6 = fullShare := (share1_in V c 6 rfl).trans rfl
theorem share1_7 (c : Dev nD) : (dat1 V c).share 7 = fullShare := (share1_in V c 7 rfl).trans rfl
theorem share1_8 (c : Dev nD) : (dat1 V c).share 8 = fullShare := share1_out V c 8 rfl
theorem share1_9 (c : Dev nD) : (dat1 V c).share 9 = fullShare := share1_out V c 9 rfl

/-- One window's array in the region's holdings: a whole buffer, so every element of it, at the window's share. -/
theorem arr1_pt (c : Dev nD) (w : Fin cfg1.W) (q : PosShare TreeShare) (hq : (dat1 V c).share w = q)
    (G : Buf (Elt F) ((cfg1.win w).arr.view.loc (c : Thread nD τ))) :
    ((cfg1.win w).arr.view.loc (c : Thread nD τ) ↦[(cfg1.win w).arr.view.set]{(dat1 V c).share w} G : sProp 𝕄)
      = (((c : Thread nD τ).loc (Pipeline.arrRef spec1 w)) ↦{q} G) := by
  rw [(arr_whole1 w).set_eq_univ, hq]

/-- Equal conjuncts make equal conjunctions. -/
theorem sep_eq {M : Type} [URA M] {P P' Q Q' : sProp M} (h₁ : P = P') (h₂ : Q = Q') : iprop(P ∗ Q) = iprop(P' ∗ Q') := by
  rw [h₁, h₂]

/-- The ten windows' arrays one by one: the projected array in thirds, every other at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0)
        ∗ (((c : Thread nD τ).loc main_v3) ↦{fullShare.right.left} G 1)
        ∗ (((c : Thread nD τ).loc main_v3) ↦{fullShare.right.right} G 2)
        ∗ (((c : Thread nD τ).loc main_arg1) ↦{fullShare} G 3)
        ∗ (((c : Thread nD τ).loc main_arg0) ↦{fullShare} G 4)
        ∗ (((c : Thread nD τ).loc main_v2) ↦{fullShare} G 5)
        ∗ (((c : Thread nD τ).loc main_arg6) ↦{fullShare} G 6)
        ∗ (((c : Thread nD τ).loc main_arg7) ↦{fullShare} G 7)
        ∗ (((c : Thread nD τ).loc main_v4_0) ↦{fullShare} G 8)
        ∗ (((c : Thread nD τ).loc main_v4_1) ↦{fullShare} G 9)) := by
  unfold Dat.arrays
  refine (bigSep_W1 _).trans ?_
  exact sep_eq (arr1_pt V c 0 _ (share1_0 V c) (G 0)) <| sep_eq (arr1_pt V c 1 _ (share1_1 V c) (G 1)) <|
    sep_eq (arr1_pt V c 2 _ (share1_2 V c) (G 2)) <| sep_eq (arr1_pt V c 3 _ (share1_3 V c) (G 3)) <|
    sep_eq (arr1_pt V c 4 _ (share1_4 V c) (G 4)) <| sep_eq (arr1_pt V c 5 _ (share1_5 V c) (G 5)) <|
    sep_eq (arr1_pt V c 6 _ (share1_6 V c) (G 6)) <| sep_eq (arr1_pt V c 7 _ (share1_7 V c) (G 7)) <|
    sep_eq (arr1_pt V c 8 _ (share1_8 V c) (G 8)) (arr1_pt V c 9 _ (share1_9 V c) (G 9))

/-! # Cutting the projected array in thirds, and joining the thirds -/

/-- ENTRY. The eight buffers whole at contents `Vc` are the ten windows' arrays at any contents that read `Vc` at
    each window's array: the projected array's full share is cut into its left half and the two halves of its right
    half, one per window standing on it. -/
theorem arrays1_split (c : Dev nD) (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    (Pipeline.arrBufs spec1 c Vc : sProp 𝕄) ⊢ (dat1 V c).arrays G := by
  rw [arrBufs1_eq, arrays1_eq, hG 0, hG 1, hG 2, hG 3, hG 4, hG 5, hG 6, hG 7, hG 8, hG 9]
  iintro ⟨H3, Ha1, Ha0, Hv2, Ha6, Ha7, Ho0, Ho1⟩
  ihave H3' := (pointsTo_share (PosShare.mem_left_op_right fullShare)).1 $$ H3
  icases H3' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [Ha1]; · iexact Ha1
  isplitl [Ha0]; · iexact Ha0
  isplitl [Hv2]; · iexact Hv2
  isplitl [Ha6]; · iexact Ha6
  isplitl [Ha7]; · iexact Ha7
  isplitl [Ho0]; · iexact Ho0
  iexact Ho1

/-- EXIT. The ten windows' arrays at contents that read `Vc'` at each window's array are the eight buffers whole at
    `Vc'`: the three thirds of the projected array, all at one contents, join to its full share. -/
theorem arrays1_join (c : Dev nD) (Vc' : (b : Ref sig .tc) → Buf (Elt F) ((c : Thread nD τ).loc b))
    (G : (w : Fin cfg1.W) → Buf (Elt F) ((cfg1.win w).arr.view.loc (c : Thread nD τ)))
    (hG : ∀ w, G w = Vc' (Pipeline.arrRef spec1 w)) :
    ((dat1 V c).arrays G : sProp 𝕄) ⊢ Pipeline.arrBufs spec1 c Vc' := by
  rw [arrBufs1_eq, arrays1_eq, hG 0, hG 1, hG 2, hG 3, hG 4, hG 5, hG 6, hG 7, hG 8, hG 9]
  iintro ⟨Hl, Hrl, Hrr, Ha1, Ha0, Hv2, Ha6, Ha7, Ho0, Ho1⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [Ha1]; · iexact Ha1
  isplitl [Ha0]; · iexact Ha0
  isplitl [Hv2]; · iexact Hv2
  isplitl [Ha6]; · iexact Ha6
  isplitl [Ha7]; · iexact Ha7
  isplitl [Ho0]; · iexact Ho0
  iexact Ho1

/-- No window's array is a scoped buffer. -/
theorem unscopedBufs1_eq (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ (Ix := Unit) (Name := ℕ) (U := UR sig nD τ) (Lvl := ℕ) cfgs 1 winFacts₀1.arr_unscoped c Vc

/-- ENTRY, the arrays' part: the core's unscoped buffers at the region's entry contents are the region's arrays at
    the proof data's entry contents and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [unscopedBufs1_eq]
  exact sep_mono (arrays1_split V c (V c) _ fun _ => rfl) .rfl

/-- EXIT, the arrays' part: the region's arrays at their final contents and the unscoped rest at the entry contents
    are the core's unscoped buffers at any contents `Vc'` that have the arrays at their final contents and agree with
    the entry contents off them. -/
theorem unscopedBufs_of_arrays1 (c : Dev nD) (Vc' : (b : Ref sig .tc) → Buf (Elt F) ((c : Thread nD τ).loc b))
    (hG : ∀ w, (dat1 V c).arrAt w cfg1.N = Vc' (Pipeline.arrRef spec1 w))
    (hrest : ∀ b, b ∉ Finset.univ.image (Pipeline.arrRef spec1) → Vc' b = V c b) :
    iprop((dat1 V c).arrays ((dat1 V c).arrAt · cfg1.N) ∗ Pipeline.unscopedRest spec1 c (V c))
      ⊢ (unscopedBufs c Vc' : sProp 𝕄) := by
  rw [unscopedBufs1_eq]
  refine sep_mono (arrays1_join V c Vc' _ hG) (Entails.of_eq ?_)
  unfold Pipeline.unscopedRest
  exact bigSep_congr fun b hb => by rw [hrest b (Finset.mem_sdiff.mp hb).2]

end Cert.Kernel.Hand

end
-- ==== Proof.K.SegsVals.lean ====
import proofs.«134556_j2671469658755_2_alg».proof.Proof.K.R0
import proofs.«134556_j2671469658755_2_alg».proof.Proof.K.R1Data
import proofs.«134556_j2671469658755_2_alg».proof.Proof.Gen.Kernel.Regions
import Idealize.ShloMosaic.Lib.Pipeline.Frame
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between the items of @main

Three host operations, then the projection region, then the attention region. A host stretch leaves what
`StableHlo.after` says; a region leaves each output array at what its write-backs fold to and every other buffer as
it found it. -/

variable (m : (ℓ : Loc nD τ sig) → Buf (Elt F) ℓ)

/-- Core `c`'s buffers at launch. -/
abbrev W0 (c : Dev nD) : Valuation τ sig (Elt F) := fun b => m (c, b)
/-- After the three host operations: the projection region's entry. -/
abbrev W1 (c : Dev nD) : Valuation τ sig (Elt F) := StableHlo.after hostOps0 (W0 m c)
/-- The same read at the TensorCore's references (what the projection region's proof data take). -/
abbrev V1 : (c : Dev nD) → (b : Ref sig .tc) → Buf (Elt F) ((c : Thread nD τ).loc b) := fun c b => W1 m c b
/-- After the projection region, which writes the projected array only: the attention region's entry. -/
def W2 (c : Dev nD) : Valuation τ sig (Elt F) :=
  Function.update (W1 m c) main_v3 ((dat0 (V1 m) c).arrAt 2 cfg0.N)
/-- The same read at the TensorCore's references (what the attention region's proof data take). -/
abbrev V2 : (c : Dev nD) → (b : Ref sig .tc) → Buf (Elt F) ((c : Thread nD τ).loc b) := fun c b => W2 m c b
/-- After the attention region, which writes its two results only: what the launch reads at the end. -/
def W3 (c : Dev nD) : Valuation τ sig (Elt F) :=
  Function.update (Function.update (W2 m c) main_v4_0 ((dat1 (V2 m) c).arrAt 8 cfg1.N)) main_v4_1 ((dat1 (V2 m) c).arrAt 9 cfg1.N)
/-- The same read at the TensorCore's references. -/
abbrev V3 : (c : Dev nD) → (b : Ref sig .tc) → Buf (Elt F) ((c : Thread nD τ).loc b) := fun c b => W3 m c b

/-! ## What each item leaves unchanged, and what it writes -/

theorem V1_of (c : Dev nD) (r : Ref sig .tc) (h : r ∉ hostOps0_W) : V1 m c r = m ((c : Thread nD τ).loc r) :=
  StableHlo.after_of_writes_sub hostOps0 _ hostOps0_writes h

theorem V2_main_v3 (c : Dev nD) : V2 m c main_v3 = (dat0 (V1 m) c).arrAt 2 cfg0.N := by
  show W2 m c _ = _
  unfold W2; exact Function.update_self ..

theorem V2_of_ne (c : Dev nD) (b : Ref sig .tc) (h : b ≠ main_v3) : V2 m c b = V1 m c b := by
  show W2 m c _ = W1 m c _
  unfold W2; exact Function.update_of_ne (StableHlo.devRef_ne_of_ne h) ..

theorem V3_main_v4_1 (c : Dev nD) : V3 m c main_v4_1 = (dat1 (V2 m) c).arrAt 9 cfg1.N := by
  show W3 m c _ = _
  unfold W3; exact Function.update_self ..

theorem V3_main_v4_0 (c : Dev nD) : V3 m c main_v4_0 = (dat1 (V2 m) c).arrAt 8 cfg1.N := by
  show W3 m c _ = _
  unfold W3
  rw [Function.update_of_ne (StableHlo.devRef_ne_of_ne (by decide : main_v4_0 ≠ main_v4_1))]
  exact Function.update_self ..

theorem V3_of_ne (c : Dev nD) (b : Ref sig .tc) (h0 : b ≠ main_v4_0) (h1 : b ≠ main_v4_1) : V3 m c b = V2 m c b := by
  show W3 m c _ = W2 m c _
  unfold W3
  rw [Function.update_of_ne (StableHlo.devRef_ne_of_ne h1), Function.update_of_ne (StableHlo.devRef_ne_of_ne h0)]

/-! ## No item writes an argument -/

theorem V3_main_arg0 (c : Dev nD) : V3 m c main_arg0 = m ((c : Thread nD τ).loc main_arg0) :=
  (V3_of_ne m c main_arg0 (by decide) (by decide)).trans <| (V2_of_ne m c main_arg0 (by decide)).trans <| V1_of m c main_arg0 (by decide)
theorem V3_main_arg1 (c : Dev nD) : V3 m c main_arg1 = m ((c : Thread nD τ).loc main_arg1) :=
  (V3_of_ne m c main_arg1 (by decide) (by decide)).trans <| (V2_of_ne m c main_arg1 (by decide)).trans <| V1_of m c main_arg1 (by decide)
theorem V3_main_arg2 (c : Dev nD) : V3 m c main_arg2 = m ((c : Thread nD τ).loc main_arg2) :=
  (V3_of_ne m c main_arg2 (by decide) (by decide)).trans <| (V2_of_ne m c main_arg2 (by decide)).trans <| V1_of m c main_arg2 (by decide)
theorem V3_main_arg3 (c : Dev nD) : V3 m c main_arg3 = m ((c : Thread nD τ).loc main_arg3) :=
  (V3_of_ne m c main_arg3 (by decide) (by decide)).trans <| (V2_of_ne m c main_arg3 (by decide)).trans <| V1_of m c main_arg3 (by decide)
theorem V3_main_arg4 (c : Dev nD) : V3 m c main_arg4 = m ((c : Thread nD τ).loc main_arg4) :=
  (V3_of_ne m c main_arg4 (by decide) (by decide)).trans <| (V2_of_ne m c main_arg4 (by decide)).trans <| V1_of m c main_arg4 (by decide)
theorem V3_main_arg5 (c : Dev nD) : V3 m c main_arg5 = m ((c : Thread nD τ).loc main_arg5) :=
  (V3_of_ne m c main_arg5 (by decide) (by decide)).trans <| (V2_of_ne m c main_arg5 (by decide)).trans <| V1_of m c main_arg5 (by decide)
theorem V3_main_arg6 (c : Dev nD) : V3 m c main_arg6 = m ((c : Thread nD τ).loc main_arg6) :=
  (V3_of_ne m c main_arg6 (by decide) (by decide)).trans <| (V2_of_ne m c main_arg6 (by decide)).trans <| V1_of m c main_arg6 (by decide)
theorem V3_main_arg7 (c : Dev nD) : V3 m c main_arg7 = m ((c : Thread nD τ).loc main_arg7) :=
  (V3_of_ne m c main_arg7 (by decide) (by decide)).trans <| (V2_of_ne m c main_arg7 (by decide)).trans <| V1_of m c main_arg7 (by decide)

/-! ## The two hypotheses of each region's exit: its arrays at what the pipeline leaves, every other buffer as entered -/

/-- The projection region's arrays at its exit: the two inputs as entered, the projected array at its write-backs'
    fold. -/
theorem hF0 (c : Dev nD) : ∀ w : Fin cfg0.W, (dat0 (V1 m) c).arrAt w cfg0.N = V2 m c (Pipeline.arrRef spec0 w) := fun
  | 0 => ((dat0 (V1 m) c).arrAt_in 0 rfl _).trans ((A_eq0 (V1 m) c 0).trans (V2_of_ne m c _ (by decide)).symm)
  | 1 => ((dat0 (V1 m) c).arrAt_in 1 rfl _).trans ((A_eq0 (V1 m) c 1).trans (V2_of_ne m c _ (by decide)).symm)
  | 2 => (V2_main_v3 m c).symm
  | ⟨_ + 3, h⟩ => absurd h (Nat.not_lt.2 (Nat.le_add_left _ _))

theorem hrest0 (c : Dev nD) : ∀ b, b ∉ Finset.univ.image (Pipeline.arrRef spec0) → V2 m c b = V1 m c b :=
  fun b hb => V2_of_ne m c b fun e => hb (Finset.mem_image.mpr ⟨2, Finset.mem_univ _, e.symm⟩)

/-- The attention region's arrays at its exit: the eight inputs as entered, the two results at their write-backs'
    folds. -/
theorem hF1 (c : Dev nD) : ∀ w : Fin cfg1.W, (dat1 (V2 m) c).arrAt w cfg1.N = V3 m c (Pipeline.arrRef spec1 w) := fun
  | 0 => ((dat1 (V2 m) c).arrAt_in 0 rfl _).trans ((A_eq1 (V2 m) c 0).trans (V3_of_ne m c _ (by decide) (by decide)).symm)
  | 1 => ((dat1 (V2 m) c).arrAt_in 1 rfl _).trans ((A_eq1 (V2 m) c 1).trans (V3_of_ne m c _ (by decide) (by decide)).symm)
  | 2 => ((dat1 (V2 m) c).arrAt_in 2 rfl _).trans ((A_eq1 (V2 m) c 2).trans (V3_of_ne m c _ (by decide) (by decide)).symm)
  | 3 => ((dat1 (V2 m) c).arrAt_in 3 rfl _).trans ((A_eq1 (V2 m) c 3).trans (V3_of_ne m c _ (by decide) (by decide)).symm)
  | 4 => ((dat1 (V2 m) c).arrAt_in 4 rfl _).trans ((A_eq1 (V2 m) c 4).trans (V3_of_ne m c _ (by decide) (by decide)).symm)
  | 5 => ((dat1 (V2 m) c).arrAt_in 5 rfl _).trans ((A_eq1 (V2 m) c 5).trans (V3_of_ne m c _ (by decide) (by decide)).symm)
  | 6 => ((dat1 (V2 m) c).arrAt_in 6 rfl _).trans ((A_eq1 (V2 m) c 6).trans (V3_of_ne m c _ (by decide) (by decide)).symm)
  | 7 => ((dat1 (V2 m) c).arrAt_in 7 rfl _).trans ((A_eq1 (V2 m) c 7).trans (V3_of_ne m c _ (by decide) (by decide)).symm)
  | 8 => (V3_main_v4_0 m c).symm
  | 9 => (V3_main_v4_1 m c).symm
  | ⟨_ + 10, h⟩ => absurd h (Nat.not_lt.2 (Nat.le_add_left _ _))

theorem hrest1 (c : Dev nD) : ∀ b, b ∉ Finset.univ.image (Pipeline.arrRef spec1) → V3 m c b = V2 m c b :=
  fun b hb => V3_of_ne m c b (fun e => hb (Finset.mem_image.mpr ⟨8, Finset.mem_univ _, e.symm⟩))
    (fun e => hb (Finset.mem_image.mpr ⟨9, Finset.mem_univ _, e.symm⟩))

end Cert.Kernel.Hand

end
-- ==== Proof.K.Segs.lean ====
import proofs.«134556_j2671469658755_2_alg».proof.Proof.K.R0
import proofs.«134556_j2671469658755_2_alg».proof.Proof.K.R1Obl
import proofs.«134556_j2671469658755_2_alg».proof.Proof.K.SegsShare
import proofs.«134556_j2671469658755_2_alg».proof.Proof.K.SegsVals
import proofs.«134556_j2671469658755_2_alg».proof.Proof.Gen.Kernel.Regions
import Idealize.ShloMosaic.Lib.Pipeline.Frame
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Inv

/-! # The attention region's invariant at its two ends -/

variable (V : (c : Dev nD) → (b : Ref sig .tc) → Buf (Elt F) ((c : Thread nD τ).loc b))

/-- The scratch, a whole buffer: owning it through its memref is its points-to. -/
theorem owns_scr (c : Dev nD) (q : PosShare TreeShare) (g : Vec F S512x1024 .f32) :
    (owns (c : Thread nD τ) scrM q g : sProp 𝕄) = (((c : Thread nD τ).loc cc1_scratch0) ↦{q} g) :=
  owns_whole _ _ _ _

/-- FIRST POINT. The generator register and the scoped buffers that are no staging buffer of the region make the
    invariant before point 0: the scratch is owned at whatever it holds, of which nothing is claimed yet (no point
    precedes the first). -/
theorem Φ1_first (c : Dev nD) (P : sProp 𝕄) :
    iprop((∃ r, prngReg c r) ∗ P ∗ Pipeline.scopedRest spec1 c) ⊢ (Φ1 V c 0 : sProp 𝕄) := by
  unfold Φ1 restΦ1
  rw [scopedRest1_eq]
  iintro ⟨Hp, -, H00, H01, H10, H20, H21, ⟨%f, Hs⟩⟩
  isplitl [Hp H00 H01 H10 H20 H21]
  · isplitl [H00]; · iexact H00
    isplitl [H01]; · iexact H01
    isplitl [H10]; · iexact H10
    isplitl [H20]; · iexact H20
    isplitl [H21]; · iexact H21
    iexact Hp
  iexists f
  isplitl [Hs]
  · rw [owns_scr]; iexact Hs
  ipureintro
  intro t' ht'
  exact absurd ht' (Nat.not_lt_zero _)

/-- LAST POINT. The invariant after the last point gives back the generator register and those scoped buffers: what
    is known of the scratch's contents is forgotten. -/
theorem Φ1_last (c : Dev nD) :
    (Φ1 V c (Fin.last cfg1.N) : sProp 𝕄) ⊢ iprop((∃ r, prngReg c r) ∗ Pipeline.scopedRest spec1 c) := by
  unfold Φ1 restΦ1
  rw [scopedRest1_eq]
  iintro ⟨⟨H00, H01, H10, H20, H21, Hp⟩, ⟨%g, Hs, -⟩⟩
  isplitl [Hp]; · iexact Hp
  isplitl [H00]; · iexact H00
  isplitl [H01]; · iexact H01
  isplitl [H10]; · iexact H10
  isplitl [H20]; · iexact H20
  isplitl [H21]; · iexact H21
  iexists g
  iapply (Entails.of_eq (owns_scr c fullShare g))
  iexact Hs

end Inv

/-! # The run of @main: two regions after a host stretch

The thread state between items: every unscoped buffer of the core whole at the boundary's contents, the generator
register at some state, nothing owed. -/

variable (m : (ℓ : Loc nD τ sig) → Buf (Elt F) ℓ)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and that it owes
    nothing. -/
abbrev R (c : Dev nD) : sProp 𝕄 := iprop((∃ r, prngReg c r) ∗ ∃ W, owes (c : Thread nD τ) (0 : CellTallies nD τ sig Unit) W)

/-- The host stretch as a segment, over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owing: every unscoped buffer at the last contents, the generator register. -/
abbrev Tₙ (c : Dev nD) : sProp 𝕄 := iprop(StableHlo.held (c : Thread nD τ) (Pipeline.ucRefs τ sig) (W3 m c) ∗ ∃ r, prngReg c r)

set_option backward.isDefEq.respectTransparency.types false in
/-- The projection region over the thread state: entered from every unscoped buffer at `W1`, left at `W2`. Its three
    arrays are distinct buffers held whole; the generator register passes through the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. Three of
    its windows stand on the projected array, which they hold in thirds; its invariant carries the scratch. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Φ1_first (V2 m) c _
  hout c := by
    rw [Pipeline.ownSems0_none]
    refine (Φ1_last (V2 m) c).trans ?_
    iintro ⟨Hr, Hp⟩
    isplitl [Hr]; · iexact Hr
    isplitr; · iempintro
    iexact Hp
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (unscopedBufs c (V3 m c) : sProp 𝕄) := unscopedBufs_of_arrays1 (V2 m) c (V3 m c) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg0 m), .region (reg0 m), .region (reg1 m) ]

/-- @main is the run of the segments. -/
theorem main_run (c : Dev nD) : main (F := F) c = Pipeline.Seg.run (segs m) :=
  main_segs adm (pdats m) () 𝒱₀ L lv (hseg0 m) (reg0 m) (reg1 m) rfl c

set_option backward.isDefEq.respectTransparency.types false in
/-- THE RUN. From any memory with zero counters, every weakly fair execution of @main on the TensorCores terminates,
    and every final memory holds, on every core, the two results at what the attention region's write-backs fold to
    (from the contents the projection region left) and every argument as launched. -/
theorem run_outs (ρ : Dev nD → PrngReg) :
    θ_run defs (onTc (τ := τ) (main (F := F))) ⟨m, fun _ => 0, ρ⟩ (fun r => ∀ c : Dev nD,
        r.2.mem ((c.tc : Thread nD τ).loc main_v4_0) = (dat1 (V2 m) c).arrAt 8 cfg1.N
      ∧ r.2.mem ((c.tc : Thread nD τ).loc main_v4_1) = (dat1 (V2 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v4_0 (by decide))).trans (V3_main_v4_0 m c),
       (h c _ (mem_uc main_v4_1 (by decide))).trans (V3_main_v4_1 m c),
       (h c _ (mem_uc main_arg0 (by decide))).trans (V3_main_arg0 m c),
       (h c _ (mem_uc main_arg1 (by decide))).trans (V3_main_arg1 m c),
       (h c _ (mem_uc main_arg2 (by decide))).trans (V3_main_arg2 m c),
       (h c _ (mem_uc main_arg3 (by decide))).trans (V3_main_arg3 m c),
       (h c _ (mem_uc main_arg4 (by decide))).trans (V3_main_arg4 m c),
       (h c _ (mem_uc main_arg5 (by decide))).trans (V3_main_arg5 m c),
       (h c _ (mem_uc main_arg6 (by decide))).trans (V3_main_arg6 m c),
       (h c _ (mem_uc main_arg7 (by decide))).trans (V3_main_arg7 m c)⟩)

end Cert.Kernel.Hand

end
-- ==== Proof.Wcat.lean ====
import Idealize.ShloMosaic.PureOps.Ideal
import Idealize.ShloMosaic.Lib.ValueIdx
import Idealize.ShloMosaic.Lib.Pipeline.Value

noncomputable section

namespace Cert.KernelIdeal.Val

open Idealize.ShloMosaic Idealize.ShloMosaic.ValueIdx

/-! # Three weight matrices side by side

The fused projection weights: columns `0 … 1023` are the query weights, `1024 … 2047` the key weights,
`2048 … 3071` the value weights. -/

abbrev SW : Shape := ⟨2, ![128, 1024]⟩
abbrev SW3 : Shape := ⟨2, ![128, 3072]⟩

/-- The three matrices side by side, by the column. -/
def wcat {α : Type} (Wq Wk Wv : SW.Idx → α) : SW3.Idx → α := fun j =>
  if h : (j 1).val < 1024 then Wq (ix2 (n0 := 128) (n1 := 1024) ⟨(j 0).val, idx2_lt0 j⟩ ⟨(j 1).val, h⟩)
  else if h2 : (j 1).val < 2048 then Wk (ix2 (n0 := 128) (n1 := 1024) ⟨(j 0).val, idx2_lt0 j⟩ ⟨(j 1).val - 1024, by omega⟩)
  else Wv (ix2 (n0 := 128) (n1 := 1024) ⟨(j 0).val, idx2_lt0 j⟩ ⟨(j 1).val - 2048, by have := idx2_lt1 j; omega⟩)

theorem wcat_q {α : Type} (Wq Wk Wv : SW.Idx → α) (e : Fin 128) (n : Fin 3072) (h : n.val < 1024) :
    wcat Wq Wk Wv (ix2 e n) = Wq (ix2 e ⟨n.val, h⟩) := by
  unfold wcat; rw [dif_pos (show ((ix2 e n : SW3.Idx) 1).val < 1024 from h)]

theorem wcat_k {α : Type} (Wq Wk Wv : SW.Idx → α) (e : Fin 128) (n : Fin 3072) (h1 : 1024 ≤ n.val) (h2 : n.val < 2048) :
    wcat Wq Wk Wv (ix2 e n) = Wk (ix2 e ⟨n.val - 1024, by omega⟩) := by
  unfold wcat
  rw [dif_neg (show ¬ ((ix2 e n : SW3.Idx) 1).val < 1024 from by show ¬ n.val < 1024; omega),
    dif_pos (show ((ix2 e n : SW3.Idx) 1).val < 2048 from h2)]

theorem wcat_v {α : Type} (Wq Wk Wv : SW.Idx → α) (e : Fin 128) (n : Fin 3072) (h2 : 2048 ≤ n.val) :
    wcat Wq Wk Wv (ix2 e n) = Wv (ix2 e ⟨n.val - 2048, by have := n.isLt; omega⟩) := by
  unfold wcat
  rw [dif_neg (show ¬ ((ix2 e n : SW3.Idx) 1).val < 1024 from by show ¬ n.val < 1024; omega),
    dif_neg (show ¬ ((ix2 e n : SW3.Idx) 1).val < 2048 from by show ¬ n.val < 2048; omega)]

/-- The host's concatenation along the columns is the three matrices side by side. -/
theorem concat_eq_wcat {α : Type} (Wq Wk Wv : SW.Idx → α)
    (h : Shape.Concatenates (([⟨SW, Wq⟩, ⟨SW, Wk⟩, ⟨SW, Wv⟩] : List ((s : Shape) × (s.Idx → α))).map (·.1)) SW3 1) :
    concatenate SW3 1 [⟨SW, Wq⟩, ⟨SW, Wk⟩, ⟨SW, Wv⟩] h = wcat Wq Wk Wv := by
  funext j
  unfold wcat
  have h0 := idx2_lt0 j
  have h1 := idx2_lt1 j
  split
  · next hlt =>
    refine concatenate_apply_piece 1 _ h j 0 (by simp) SW Wq rfl rfl 0 rfl _ ?_ ?_
    · intro b hb
      match b with
      | ⟨0, _⟩ => rfl
      | ⟨1, _⟩ => exact absurd rfl hb
    · show 0 + (j 1).val = (j 1).val; omega
  · split
    · next hge hlt =>
      refine concatenate_apply_piece 1 _ h j 1 (by simp) SW Wk rfl rfl 1024 rfl _ ?_ ?_
      · intro b hb
        match b with
        | ⟨0, _⟩ => rfl
        | ⟨1, _⟩ => exact absurd rfl hb
      · show 1024 + ((j 1).val - 1024) = (j 1).val; omega
    · next hge hge2 =>
      refine concatenate_apply_piece 1 _ h j 2 (by simp) SW Wv rfl rfl 2048 rfl _ ?_ ?_
      · intro b hb
        match b with
        | ⟨0, _⟩ => rfl
        | ⟨1, _⟩ => exact absurd rfl hb
      · show 2048 + ((j 1).val - 2048) = (j 1).val; omega

end Cert.KernelIdeal.Val

end
-- ==== Proof.HostVals.lean ====
import proofs.«134556_j2671469658755_2_alg».proof.Proof.Gen.KernelIdeal.Regions
import proofs.«134556_j2671469658755_2_alg».proof.Proof.Wcat
import Idealize.ShloMosaic.Lib.StableHlo.Run
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-! # What the host operations before the first region leave, over the extended reals

The fused projection weights are the three weight matrices side by side (the change of float format is the identity),
the output weights are the argument's, and no argument is touched. -/

variable (m : (ℓ : Loc nD τ sig) → Buf (Elt Ideal) ℓ) (c : Dev nD)

theorem V1_v1 : (Gen.V1 m c main_v1 : S128x3072.Idx → EReal)
    = wcat (m ((c.tc : Thread nD τ).loc main_arg2)) (m ((c.tc : Thread nD τ).loc main_arg3)) (m ((c.tc : Thread nD τ).loc main_arg4)) := by
  have e : (Gen.V1 m c main_v1 : (⟨S128x3072, .bf16⟩ : BufTy).Contents (Elt Ideal))
      = ((truncf (F := Ideal) .bf16 · bitsLt_bf16_f32) : (⟨S128x3072, .f32⟩ : BufTy).Contents (Elt Ideal) → (⟨S128x3072, .bf16⟩ : BufTy).Contents (Elt Ideal))
          (concatenate S128x3072 1 [⟨S128x1024, m ((c.tc : Thread nD τ).loc main_arg2)⟩, ⟨S128x1024, m ((c.tc : Thread nD τ).loc main_arg3)⟩, ⟨S128x1024, m ((c.tc : Thread nD τ).loc main_arg4)⟩] concatenates_S128x1024_S128x1024_S128x1024_S128x3072_d1) := by
    dsimp only [Gen.V1, Gen.V0, Gen.hostOps0]; after_results <;> try rfl
  refine e.trans ?_
  funext j
  exact congrFun (concat_eq_wcat (α := EReal) _ _ _ concatenates_S128x1024_S128x1024_S128x1024_S128x3072_d1) j

theorem V1_v2 : (Gen.V1 m c main_v2 : S1024x128.Idx → EReal) = m ((c.tc : Thread nD τ).loc main_arg5) := by
  have e : (Gen.V1 m c main_v2 : (⟨S1024x128, .bf16⟩ : BufTy).Contents (Elt Ideal))
      = ((truncf (F := Ideal) .bf16 · bitsLt_bf16_f32) : (⟨S1024x128, .f32⟩ : BufTy).Contents (Elt Ideal) → (⟨S1024x128, .bf16⟩ : BufTy).Contents (Elt Ideal))
          (m ((c.tc : Thread nD τ).loc main_arg5)) := by
    dsimp only [Gen.V1, Gen.V0, Gen.hostOps0]; after_results <;> try rfl
  exact e.trans rfl

theorem V1_arg0 : Gen.V1 m c main_arg0 = m ((c.tc : Thread nD τ).loc main_arg0) := (Gen.V1_of m c main_arg0 (by decide)).trans rfl
theorem V1_arg1 : Gen.V1 m c main_arg1 = m ((c.tc : Thread nD τ).loc main_arg1) := (Gen.V1_of m c main_arg1 (by decide)).trans rfl
theorem V1_arg6 : Gen.V1 m c main_arg6 = m ((c.tc : Thread nD τ).loc main_arg6) := (Gen.V1_of m c main_arg6 (by decide)).trans rfl
theorem V1_arg7 : Gen.V1 m c main_arg7 = m ((c.tc : Thread nD τ).loc main_arg7) := (Gen.V1_of m c main_arg7 (by decide)).trans rfl

end Cert.KernelIdeal.Val

end
-- ==== Proof.Spec.lean ====
/-
  The specification of this unit's two results, as functions of the argument arrays over the extended reals, coordinate by
  coordinate: eight-head scaled dot-product attention with a mask that replaces scores, the softmax over the key axis,
  the context, the output projection, the residual and the layer normalisation over the feature axis.

  Arrays: enc [4,2048,128], mask [4,1,2048,2048] (32-bit words), Wq Wk Wv [128,1024], Wo [1024,128], lsc lbi [128].
  Column 128·h + d of a [128,1024] projection is feature d of head h.

    Qh(b,h,s,d) = Σ_e enc(b,s,e) · Wq(e, 128h+d)            (Kh with Wk, Vh with Wv)
    Sc(b,h,q,k) = (Σ_d Qh(b,h,q,d) · Kh(b,h,k,d)) / D        D the float 11.3137083… = 11863283/1048576
    Sm(b,h,q,k) = NEG if mask(b,0,q,k) = 0, else Sc(b,h,q,k)  NEG the float −1e9
    Mx(b,h,q)   = max over k of Sm(b,h,q,k), folded from −∞
    Pe(b,h,q,k) = exp(Sm − Mx);  Z(b,h,q) = 0 + Σ_k Pe;  ATTN(b,h,q,k) = Pe / Z          (the second result)
    Cx(b,q,h,d) = Σ_k ATTN(b,h,q,k) · Vh(b,h,k,d)
    Y(b,q,e)    = Σ_{j<1024} Cx(b,q,j/128,j%128) · Wo(j,e);   X = Y + enc(b,q,e)
    mu(b,q)     = (0 + Σ_e X)/128;  var(b,q) = (0 + Σ_e (X−mu)²)/128
    OUT(b,q,e)  = ((X−mu) · rsqrt(var + EPS)) · lsc(e) + lbi(e)                           (the first result)

  Every operation is the extended reals' (sum, product, difference, the quotient `Ideal.div`, `Ideal.exp`, `Ideal.rsqrt`, `max`);
  the float literals stay the words the program spells. One law is proved here: the quotient by `D` is the product with
  the real 1048576/11863283.
-/
import Idealize.ShloMosaic.PureOps.Ideal
import Idealize.ShloMosaic.Lib.ValueIdx

noncomputable section

namespace Cert.Spec

open Idealize.ShloMosaic Idealize.ShloMosaic.ValueIdx
open scoped BigOperators

/-! ## Shapes and index pieces -/

abbrev SEnc : Shape := ⟨3, ![4, 2048, 128]⟩
abbrev SMask : Shape := ⟨4, ![4, 1, 2048, 2048]⟩
abbrev SWin : Shape := ⟨2, ![128, 1024]⟩
abbrev SWout : Shape := ⟨2, ![1024, 128]⟩
abbrev SVec : Shape := ⟨1, ![128]⟩
abbrev SAttn : Shape := ⟨4, ![4, 8, 2048, 2048]⟩

/-- Column `128·h + d` of a fused projection: feature `d` of head `h`. -/
abbrev col (h : Fin 8) (d : Fin 128) : Fin 1024 :=
  ⟨h.val * 128 + d.val, by have := h.isLt; have := d.isLt; omega⟩
/-- The head of a fused column `j`: `j / 128`. -/
abbrev headOf (j : Fin 1024) : Fin 8 := ⟨j.val / 128, by have := j.isLt; omega⟩
/-- The feature of a fused column `j` within its head: `j % 128`. -/
abbrev featOf (j : Fin 1024) : Fin 128 := ⟨j.val % 128, by have := j.isLt; omega⟩
/-- The mask's unit axis has the one coordinate `0`. -/
abbrev u0 : Fin 1 := ⟨0, Nat.one_pos⟩

/-! ## The float literals, as the program spells them -/

/-- The scale divisor, the float nearest √128: 11.3137083… -/
def D : EReal := Ideal.ofBits .f32 0x413504F3#32
/-- The masked score, the float −1e9. -/
def NEG : EReal := Ideal.ofBits .f32 0xCE6E6B28#32
/-- The feature count 128 as a float. -/
def C128 : EReal := Ideal.ofBits .f32 0x43000000#32
/-- The normalisation's ε, the float nearest 1e−6. -/
def EPS : EReal := Ideal.ofBits .f32 0x358637BD#32

/-! ## The projections and the scores -/

/-- One head's projection of one token: `Σ_e enc(b,s,e) · W(e, 128h+d)`. -/
def Ph (enc : SEnc.Idx → EReal) (W : SWin.Idx → EReal) (b : Fin 4) (h : Fin 8) (s : Fin 2048) (d : Fin 128) : EReal :=
  ∑ e : Fin 128, enc (ix3 b s e) * W (ix2 e (col h d))

/-- Queries, keys and values: the projection by `Wq`, `Wk`, `Wv`. -/
def Qh (enc : SEnc.Idx → EReal) (Wq : SWin.Idx → EReal) (b : Fin 4) (h : Fin 8) (s : Fin 2048) (d : Fin 128) : EReal :=
  Ph enc Wq b h s d
def Kh (enc : SEnc.Idx → EReal) (Wk : SWin.Idx → EReal) (b : Fin 4) (h : Fin 8) (s : Fin 2048) (d : Fin 128) : EReal :=
  Ph enc Wk b h s d
def Vh (enc : SEnc.Idx → EReal) (Wv : SWin.Idx → EReal) (b : Fin 4) (h : Fin 8) (s : Fin 2048) (d : Fin 128) : EReal :=
  Ph enc Wv b h s d

/-- The scaled score of query `q` against key `k`. -/
def Sc (enc : SEnc.Idx → EReal) (Wq Wk : SWin.Idx → EReal) (b : Fin 4) (h : Fin 8) (q k : Fin 2048) : EReal :=
  Ideal.div (∑ d : Fin 128, Qh enc Wq b h q d * Kh enc Wk b h k d) D

/-- The masked score: `NEG` where the mask word is zero. -/
def Sm (enc : SEnc.Idx → EReal) (mask : SMask.Idx → BitVec 32) (Wq Wk : SWin.Idx → EReal)
    (b : Fin 4) (h : Fin 8) (q k : Fin 2048) : EReal :=
  if mask (ix4 b u0 q k) = 0#32 then NEG else Sc enc Wq Wk b h q k

/-! ## The softmax over the keys -/

/-- The row maximum, folded from −∞. -/
def Mx (enc : SEnc.Idx → EReal) (mask : SMask.Idx → BitVec 32) (Wq Wk : SWin.Idx → EReal)
    (b : Fin 4) (h : Fin 8) (q : Fin 2048) : EReal :=
  (Finset.univ : Finset (Fin 2048)).fold max ⊥ (fun k => Sm enc mask Wq Wk b h q k)

/-- The shifted exponential. -/
def Pe (enc : SEnc.Idx → EReal) (mask : SMask.Idx → BitVec 32) (Wq Wk : SWin.Idx → EReal)
    (b : Fin 4) (h : Fin 8) (q k : Fin 2048) : EReal :=
  Ideal.exp (Sm enc mask Wq Wk b h q k - Mx enc mask Wq Wk b h q)

/-- The row's normaliser. -/
def Z (enc : SEnc.Idx → EReal) (mask : SMask.Idx → BitVec 32) (Wq Wk : SWin.Idx → EReal)
    (b : Fin 4) (h : Fin 8) (q : Fin 2048) : EReal :=
  0 + ∑ k : Fin 2048, Pe enc mask Wq Wk b h q k

/-- The attention weights: the second result. -/
def ATTN (enc : SEnc.Idx → EReal) (mask : SMask.Idx → BitVec 32) (Wq Wk : SWin.Idx → EReal)
    (b : Fin 4) (h : Fin 8) (q k : Fin 2048) : EReal :=
  Ideal.div (Pe enc mask Wq Wk b h q k) (Z enc mask Wq Wk b h q)

/-! ## The context, the output projection, the residual -/

/-- The context of head `h`. -/
def Cx (enc : SEnc.Idx → EReal) (mask : SMask.Idx → BitVec 32) (Wq Wk Wv : SWin.Idx → EReal)
    (b : Fin 4) (q : Fin 2048) (h : Fin 8) (d : Fin 128) : EReal :=
  ∑ k : Fin 2048, ATTN enc mask Wq Wk b h q k * Vh enc Wv b h k d

/-- The output projection of the concatenated heads. -/
def Y (enc : SEnc.Idx → EReal) (mask : SMask.Idx → BitVec 32) (Wq Wk Wv : SWin.Idx → EReal) (Wo : SWout.Idx → EReal)
    (b : Fin 4) (q : Fin 2048) (e : Fin 128) : EReal :=
  ∑ j : Fin 1024, Cx enc mask Wq Wk Wv b q (headOf j) (featOf j) * Wo (ix2 j e)

/-- With the residual. -/
def X (enc : SEnc.Idx → EReal) (mask : SMask.Idx → BitVec 32) (Wq Wk Wv : SWin.Idx → EReal) (Wo : SWout.Idx → EReal)
    (b : Fin 4) (q : Fin 2048) (e : Fin 128) : EReal :=
  Y enc mask Wq Wk Wv Wo b q e + enc (ix3 b q e)

/-! ## The layer normalisation over the features -/

/-- The row mean. -/
def mu (enc : SEnc.Idx → EReal) (mask : SMask.Idx → BitVec 32) (Wq Wk Wv : SWin.Idx → EReal) (Wo : SWout.Idx → EReal)
    (b : Fin 4) (q : Fin 2048) : EReal :=
  Ideal.div (0 + ∑ e : Fin 128, X enc mask Wq Wk Wv Wo b q e) C128

/-- The row variance. -/
def var (enc : SEnc.Idx → EReal) (mask : SMask.Idx → BitVec 32) (Wq Wk Wv : SWin.Idx → EReal) (Wo : SWout.Idx → EReal)
    (b : Fin 4) (q : Fin 2048) : EReal :=
  Ideal.div (0 + ∑ e : Fin 128, (X enc mask Wq Wk Wv Wo b q e - mu enc mask Wq Wk Wv Wo b q)
    * (X enc mask Wq Wk Wv Wo b q e - mu enc mask Wq Wk Wv Wo b q)) C128

/-- The normalised, scaled and shifted row: the first result. -/
def OUT (enc : SEnc.Idx → EReal) (mask : SMask.Idx → BitVec 32) (Wq Wk Wv : SWin.Idx → EReal) (Wo : SWout.Idx → EReal)
    (lsc lbi : SVec.Idx → EReal) (b : Fin 4) (q : Fin 2048) (e : Fin 128) : EReal :=
  ((X enc mask Wq Wk Wv Wo b q e - mu enc mask Wq Wk Wv Wo b q)
      * Ideal.rsqrt (var enc mask Wq Wk Wv Wo b q + EPS)) * lsc (ix1 e) + lbi (ix1 e)

/-! ## The two results as arrays -/

/-- The second result as an array over [4,8,2048,2048]. -/
def ATTNarr (enc : SEnc.Idx → EReal) (mask : SMask.Idx → BitVec 32) (Wq Wk : SWin.Idx → EReal) : SAttn.Idx → EReal :=
  fun i => ATTN enc mask Wq Wk (i 0) (i 1) (i 2) (i 3)

/-- The first result as an array over [4,2048,128]. -/
def OUTarr (enc : SEnc.Idx → EReal) (mask : SMask.Idx → BitVec 32) (Wq Wk Wv : SWin.Idx → EReal) (Wo : SWout.Idx → EReal)
    (lsc lbi : SVec.Idx → EReal) : SEnc.Idx → EReal :=
  fun i => OUT enc mask Wq Wk Wv Wo lsc lbi (i 0) (i 1) (i 2)

theorem ATTNarr_ix (enc : SEnc.Idx → EReal) (mask : SMask.Idx → BitVec 32) (Wq Wk : SWin.Idx → EReal)
    (b : Fin 4) (h : Fin 8) (q k : Fin 2048) :
    ATTNarr enc mask Wq Wk (ix4 b h q k) = ATTN enc mask Wq Wk b h q k := rfl

theorem OUTarr_ix (enc : SEnc.Idx → EReal) (mask : SMask.Idx → BitVec 32) (Wq Wk Wv : SWin.Idx → EReal) (Wo : SWout.Idx → EReal)
    (lsc lbi : SVec.Idx → EReal) (b : Fin 4) (q : Fin 2048) (e : Fin 128) :
    OUTarr enc mask Wq Wk Wv Wo lsc lbi (ix3 b q e) = OUT enc mask Wq Wk Wv Wo lsc lbi b q e := rfl

/-! ## The literals' values, unfolded once, and the scale's law -/

/-- The scale divisor denotes the rational 11863283/1048576. -/
theorem D_eq : D = ((11863283 / 1048576 : ℝ) : EReal) := by
  unfold D
  simp [Ideal.ofBits, Ideal.ieee, -EReal.coe_mul]; norm_num

/-- The feature count denotes the real 128. -/
theorem C128_eq : C128 = ((128 : ℝ) : EReal) := by
  unfold C128
  simp [Ideal.ofBits, Ideal.ieee, -EReal.coe_mul]; norm_num

/-- The pattern of −∞ denotes the bottom of the extended reals. -/
theorem ofBits_negInf : Ideal.ofBits .f32 0xFF800000#32 = (⊥ : EReal) := by
  simp [Ideal.ofBits, Ideal.ieee]

/-- The quotient by the scale divisor is the product with its reciprocal, on every extended real. -/
theorem div_D (x : EReal) : Ideal.div x D = x * ((1048576 / 11863283 : ℝ) : EReal) := by
  rw [D_eq, Ideal.div_coe (by norm_num : (11863283 / 1048576 : ℝ) ≠ 0)]
  congr 2; norm_num

/-- The quotient by the feature count is the product with 1/128, on every extended real. -/
theorem div_C128 (x : EReal) : Ideal.div x C128 = x * ((1 / 128 : ℝ) : EReal) := by
  rw [C128_eq, Ideal.div_coe (by norm_num : (128 : ℝ) ≠ 0)]

/-- The row's normaliser without the leading zero. -/
theorem Z_eq (enc : SEnc.Idx → EReal) (mask : SMask.Idx → BitVec 32) (Wq Wk : SWin.Idx → EReal)
    (b : Fin 4) (h : Fin 8) (q : Fin 2048) :
    Z enc mask Wq Wk b h q = ∑ k : Fin 2048, Pe enc mask Wq Wk b h q k := zero_add _

end Cert.Spec

end
-- ==== Proof.PayProj.lean ====
/-
  The kernels' matrix products read at one entry, over the extended reals: a product of an [M,K] block with a [K,N] block
  (or with an [N,K] block, both contracted along their second axis) into a zero accumulator is, at (r, n), the sum over
  the contracted coordinate of the products of the two entries. Then the first kernel's stored block at (0, r, n): row r
  of the loaded activations times column n of the fused weights.
-/
import proofs.«134556_j2671469658755_2_alg».proof.Proof.Gen.KernelIdeal.Skeleton
import proofs.«134556_j2671469658755_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The left operand's kept coordinate is the result's row. -/
theorem mm_proj_lhs (j : S512x3072.Idx) (q : dot_S512x128_S128x3072_S512x3072_1_0_0_1_n_n.contr.Idx) :
    (dot_S512x128_S128x3072_S512x3072_1_0_0_1_n_n.lhsIdx j q 0).val = (j 0).val := by
  unfold DotDims.lhsIdx
  rw [dif_neg (show ¬(0 : Fin S512x128.rank) ∈ dot_S512x128_S128x3072_S512x3072_1_0_0_1_n_n.lhsBatch by decide),
    dif_pos (show (0 : Fin S512x128.rank) ∈ dot_S512x128_S128x3072_S512x3072_1_0_0_1_n_n.lhsNonContracting by decide)]
  rfl
/-- The right operand's kept coordinate is the result's column. -/
theorem mm_proj_rhs (j : S512x3072.Idx) (q : dot_S512x128_S128x3072_S512x3072_1_0_0_1_n_n.contr.Idx) :
    (dot_S512x128_S128x3072_S512x3072_1_0_0_1_n_n.rhsIdx j q 1).val = (j 1).val := by
  unfold DotDims.rhsIdx
  rw [dif_neg (show ¬(1 : Fin S128x3072.rank) ∈ dot_S512x128_S128x3072_S512x3072_1_0_0_1_n_n.rhsBatch by decide),
    dif_pos (show (1 : Fin S128x3072.rank) ∈ dot_S512x128_S128x3072_S512x3072_1_0_0_1_n_n.rhsNonContracting by decide)]
  rfl
/-- [512,128] × [128,3072] at (r, n): the sum over the 128 shared coordinates. -/
theorem mm_proj_apply {φ₁ φ₂ : FTy} (a : FVec Ideal S512x128 φ₁) (b : FVec Ideal S128x3072 φ₂) (r : Fin 512) (n : Fin 3072) :
    matmul dot_S512x128_S128x3072_S512x3072_1_0_0_1_n_n none a b (constant (F := Ideal) S512x3072 .f32 0x00000000#32) (ix2 r n)
      = ∑ k : Fin 128, a (ix2 r k) * b (ix2 k n) := by
  refine (Ideal.matmul_constant_zero_apply dot_S512x128_S128x3072_S512x3072_1_0_0_1_n_n none a b (ix2 r n)).trans ?_
  rw [← Equiv.sum_comp (contrEquiv1 dot_S512x128_S128x3072_S512x3072_1_0_0_1_n_n 128 rfl rfl).symm]
  refine Finset.sum_congr rfl fun k _ => ?_
  have hk := contrEquiv1_symm_val dot_S512x128_S128x3072_S512x3072_1_0_0_1_n_n 128 rfl rfl k
  have el : dot_S512x128_S128x3072_S512x3072_1_0_0_1_n_n.lhsIdx (ix2 r n) ((contrEquiv1 dot_S512x128_S128x3072_S512x3072_1_0_0_1_n_n 128 rfl rfl).symm k) = ix2 r k :=
    funext fun ax => Fin.ext (by
      match ax with
      | ⟨0, _⟩ => exact mm_proj_lhs _ _
      | ⟨1, _⟩ => exact (dot_S512x128_S128x3072_S512x3072_1_0_0_1_n_n.lhsIdx_val_of_single rfl _ _).trans hk)
  have er : dot_S512x128_S128x3072_S512x3072_1_0_0_1_n_n.rhsIdx (ix2 r n) ((contrEquiv1 dot_S512x128_S128x3072_S512x3072_1_0_0_1_n_n 128 rfl rfl).symm k) = ix2 k n :=
    funext fun ax => Fin.ext (by
      match ax with
      | ⟨0, _⟩ => exact (dot_S512x128_S128x3072_S512x3072_1_0_0_1_n_n.rhsIdx_val_of_single rfl _ _).trans hk
      | ⟨1, _⟩ => exact mm_proj_rhs _ _)
  rw [el, er]

/-- The left operand's kept coordinate is the result's row. -/
theorem mm_score_lhs (j : S512x2048.Idx) (q : dot_S512x128_S2048x128_S512x2048_1_1_0_0_n_n.contr.Idx) :
    (dot_S512x128_S2048x128_S512x2048_1_1_0_0_n_n.lhsIdx j q 0).val = (j 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
/-- The right operand's kept coordinate is the result's column. -/
theorem mm_score_rhs (j : S512x2048.Idx) (q : dot_S512x128_S2048x128_S512x2048_1_1_0_0_n_n.contr.Idx) :
    (dot_S512x128_S2048x128_S512x2048_1_1_0_0_n_n.rhsIdx j q 0).val = (j 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
/-- [512,128] × [2048,128]ᵀ at (r, n): both operands are contracted along their second axis. -/
theorem mm_score_apply {φ₁ φ₂ : FTy} (a : FVec Ideal S512x128 φ₁) (b : FVec Ideal S2048x128 φ₂) (r : Fin 512) (n : Fin 2048) :
    matmul dot_S512x128_S2048x128_S512x2048_1_1_0_0_n_n none a b (constant (F := Ideal) S512x2048 .f32 0x00000000#32) (ix2 r n)
      = ∑ k : Fin 128, a (ix2 r k) * b (ix2 n k) := by
  refine (Ideal.matmul_constant_zero_apply dot_S512x128_S2048x128_S512x2048_1_1_0_0_n_n none a b (ix2 r n)).trans ?_
  rw [← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 r n) ((contrEquiv1 dot_S512x128_S2048x128_S512x2048_1_1_0_0_n_n 128 rfl rfl).symm k) = ix2 r k :=
    funext fun ax => Fin.ext (by
      match ax with
      | ⟨0, _⟩ => exact mm_score_lhs _ _
      | ⟨1, _⟩ => exact (dot_S512x128_S2048x128_S512x2048_1_1_0_0_n_n.lhsIdx_val_of_single rfl _ _).trans hk)
  have er : dot_S512x128_S2048x128_S512x2048_1_1_0_0_n_n.rhsIdx (ix2 r n) ((contrEquiv1 dot_S512x128_S2048x128_S512x2048_1_1_0_0_n_n 128 rfl rfl).symm k) = ix2 n k :=
    funext fun ax => Fin.ext (by
      match ax with
      | ⟨0, _⟩ => exact mm_score_rhs _ _
      | ⟨1, _⟩ => exact (dot_S512x128_S2048x128_S512x2048_1_1_0_0_n_n.rhsIdx_val_of_single rfl _ _).trans hk)
  rw [el, er]

/-- The left operand's kept coordinate is the result's row. -/
theorem mm_ctx_lhs (j : S512x128.Idx) (q : dot_S512x2048_S2048x128_S512x128_1_0_0_1_n_n.contr.Idx) :
    (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
/-- The right operand's kept coordinate is the result's column. -/
theorem mm_ctx_rhs (j : S512x128.Idx) (q : dot_S512x2048_S2048x128_S512x128_1_0_0_1_n_n.contr.Idx) :
    (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl
/-- [512,2048] × [2048,128] at (r, n): the sum over the 2048 shared coordinates. -/
theorem mm_ctx_apply {φ₁ φ₂ : FTy} (a : FVec Ideal S512x2048 φ₁) (b : FVec Ideal S2048x128 φ₂) (r : Fin 512) (n : Fin 128) :
    matmul dot_S512x2048_S2048x128_S512x128_1_0_0_1_n_n none a b (constant (F := Ideal) S512x128 .f32 0x00000000#32) (ix2 r n)
      = ∑ k : Fin 2048, a (ix2 r k) * b (ix2 k n) := by
  refine (Ideal.matmul_constant_zero_apply dot_S512x2048_S2048x128_S512x128_1_0_0_1_n_n none a b (ix2 r n)).trans ?_
  rw [← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r n) ((contrEquiv1 dot_S512x2048_S2048x128_S512x128_1_0_0_1_n_n 2048 rfl rfl).symm k) = ix2 r k :=
    funext fun ax => Fin.ext (by
      match ax with
      | ⟨0, _⟩ => exact mm_ctx_lhs _ _
      | ⟨1, _⟩ => exact (dot_S512x2048_S2048x128_S512x128_1_0_0_1_n_n.lhsIdx_val_of_single rfl _ _).trans hk)
  have er : dot_S512x2048_S2048x128_S512x128_1_0_0_1_n_n.rhsIdx (ix2 r n) ((contrEquiv1 dot_S512x2048_S2048x128_S512x128_1_0_0_1_n_n 2048 rfl rfl).symm k) = ix2 k n :=
    funext fun ax => Fin.ext (by
      match ax with
      | ⟨0, _⟩ => exact (dot_S512x2048_S2048x128_S512x128_1_0_0_1_n_n.rhsIdx_val_of_single rfl _ _).trans hk
      | ⟨1, _⟩ => exact mm_ctx_rhs _ _)
  rw [el, er]

/-- The left operand's kept coordinate is the result's row. -/
theorem mm_out_lhs (j : S512x128.Idx) (q : dot_S512x1024_S1024x128_S512x128_1_0_0_1_n_n.contr.Idx) :
    (dot_S512x1024_S1024x128_S512x128_1_0_0_1_n_n.lhsIdx j q 0).val = (j 0).val := by
  unfold DotDims.lhsIdx
  rw [dif_neg (show ¬(0 : Fin S512x1024.rank) ∈ dot_S512x1024_S1024x128_S512x128_1_0_0_1_n_n.lhsBatch by decide),
    dif_pos (show (0 : Fin S512x1024.rank) ∈ dot_S512x1024_S1024x128_S512x128_1_0_0_1_n_n.lhsNonContracting by decide)]
  rfl
/-- The right operand's kept coordinate is the result's column. -/
theorem mm_out_rhs (j : S512x128.Idx) (q : dot_S512x1024_S1024x128_S512x128_1_0_0_1_n_n.contr.Idx) :
    (dot_S512x1024_S1024x128_S512x128_1_0_0_1_n_n.rhsIdx j q 1).val = (j 1).val := by
  unfold DotDims.rhsIdx
  rw [dif_neg (show ¬(1 : Fin S1024x128.rank) ∈ dot_S512x1024_S1024x128_S512x128_1_0_0_1_n_n.rhsBatch by decide),
    dif_pos (show (1 : Fin S1024x128.rank) ∈ dot_S512x1024_S1024x128_S512x128_1_0_0_1_n_n.rhsNonContracting by decide)]
  rfl
/-- [512,1024] × [1024,128] at (r, n): the sum over the 1024 shared coordinates. -/
theorem mm_out_apply {φ₁ φ₂ : FTy} (a : FVec Ideal S512x1024 φ₁) (b : FVec Ideal S1024x128 φ₂) (r : Fin 512) (n : Fin 128) :
    matmul dot_S512x1024_S1024x128_S512x128_1_0_0_1_n_n none a b (constant (F := Ideal) S512x128 .f32 0x00000000#32) (ix2 r n)
      = ∑ k : Fin 1024, a (ix2 r k) * b (ix2 k n) := by
  refine (Ideal.matmul_constant_zero_apply dot_S512x1024_S1024x128_S512x128_1_0_0_1_n_n none a b (ix2 r n)).trans ?_
  rw [← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 r n) ((contrEquiv1 dot_S512x1024_S1024x128_S512x128_1_0_0_1_n_n 1024 rfl rfl).symm k) = ix2 r k :=
    funext fun ax => Fin.ext (by
      match ax with
      | ⟨0, _⟩ => exact mm_out_lhs _ _
      | ⟨1, _⟩ => exact (dot_S512x1024_S1024x128_S512x128_1_0_0_1_n_n.lhsIdx_val_of_single rfl _ _).trans hk)
  have er : dot_S512x1024_S1024x128_S512x128_1_0_0_1_n_n.rhsIdx (ix2 r n) ((contrEquiv1 dot_S512x1024_S1024x128_S512x128_1_0_0_1_n_n 1024 rfl rfl).symm k) = ix2 k n :=
    funext fun ax => Fin.ext (by
      match ax with
      | ⟨0, _⟩ => exact (dot_S512x1024_S1024x128_S512x128_1_0_0_1_n_n.rhsIdx_val_of_single rfl _ _).trans hk
      | ⟨1, _⟩ => exact mm_out_rhs _ _)
  rw [el, er]

/-! ## The first kernel's stored block -/

/-- The stored block of the projection kernel at (0, r, n): row r of the loaded activations times column n of the fused
    weights. The format changes are the identity on the extended reals and the shape casts only add or drop the unit axis. -/
theorem pay_proj (x : Vec Ideal S1x512x128 .f32) (w : Vec Ideal S128x3072 .bf16) (r : Fin 512) (n : Fin 3072) :
    k0_pay1 (F := Ideal) x w (ix3 0 r n) = ∑ e : Fin 128, x (ix3 0 r e) * w (ix2 e n) := by
  unfold k0_pay1
  refine (shapeCast_ab_1ab_apply _ _ 0 r n).trans ?_
  refine (truncf_apply (φ := .f32) (ψ := .bf16) _ bitsLt_bf16_f32 _).trans ?_
  refine (mm_proj_apply _ _ r n).trans ?_
  refine Finset.sum_congr rfl fun e _ => ?_
  rw [shapeCast_self]
  exact congrArg (· * w (ix2 e n))
    ((truncf_apply (φ := .f32) (ψ := .bf16) _ bitsLt_bf16_f32 _).trans (shapeCast_1ab_ab_apply x _ r e))

end Cert.KernelIdeal.Pay

end
-- ==== Proof.ValProj.lean ====
/-
  The projected array after the first region. Every grid point stores, into its tile of the output, the product of
  its tile of the activations with the whole fused weight matrix; the tiles of the sixteen points cover the array, so the
  array ends holding the fused projection: entry (b, s, n) is Σ_e enc(b,s,e) · W(e,n).
-/
import proofs.«134556_j2671469658755_2_alg».proof.Proof.R0
import proofs.«134556_j2671469658755_2_alg».proof.Proof.PayProj
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

/-- The fused projection as one array: row `(b, s)` of the activations times column `n` of the weights. -/
def QKV (enc : S4x2048x128.Idx → EReal) (W : S128x3072.Idx → EReal) : S4x2048x3072.Idx → EReal :=
  fun i => ∑ e : Fin 128, enc (ix3 (i 0 : Fin 4) (i 1 : Fin 2048) e) * W (ix2 e (i 2 : Fin 3072))

theorem QKV_ix (enc : S4x2048x128.Idx → EReal) (W : S128x3072.Idx → EReal) (b : Fin 4) (s : Fin 2048) (n : Fin 3072) :
    QKV enc W (ix3 b s n) = ∑ e : Fin 128, enc (ix3 b s e) * W (ix2 e n) := rfl

variable (V : (c : Dev nD) → (b : Ref sig .tc) → Buf (Elt Idealize.ShloMosaic.Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps of the projection region over its grid: the activations' tile moves with the output's tile on
    the batch and row axes, every other block index is zero. -/
theorem idx_facts0 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (2 : Fin 3) = 0
    ∧ win0_2.index t (0 : Fin 3) ≤ 3 ∧ win0_2.index t (1 : Fin 3) ≤ 3 :=
  (by decide +kernel : ∀ t : Fin grid0.N, _)

/-- Every (batch, row tile) pair is some point's output block. -/
theorem idx_onto0 : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- The stored block at `(0, r, n)` is the fused projection at the array index `i`, when the loaded tile's row `r` is
    row `(i 0, i 1)` of the activations and the loaded weights' column `n` is column `i 2`. -/
theorem proj_point (x0 : Vec Idealize.ShloMosaic.Ideal S1x512x128 .f32) (x1 : Vec Idealize.ShloMosaic.Ideal S128x3072 .bf16)
    (enc : S4x2048x128.Idx → EReal) (W : S128x3072.Idx → EReal) (r : Fin 512) (n : Fin 3072) (i : S4x2048x3072.Idx)
    (hx0 : ∀ e : Fin 128, x0 (ix3 0 r e) = enc (ix3 (i 0 : Fin 4) (i 1 : Fin 2048) e))
    (hx1 : ∀ e : Fin 128, x1 (ix2 e n) = W (ix2 e (i 2 : Fin 3072))) :
    k0_pay1 (F := Idealize.ShloMosaic.Ideal) x0 x1 (ix3 0 r n) = QKV enc W i := by
  refine (Pay.pay_proj x0 x1 r n).trans ?_
  unfold QKV
  exact Finset.sum_congr rfl fun e _ => by rw [hx0 e, hx1 e]

theorem flushed0_2_eq (c : Dev nD) (enc : S4x2048x128.Idx → EReal) (W : S128x3072.Idx → EReal)
    (h0 : V c main_arg0 = enc) (h1 : V c main_v1 = W) (t : Fin cfg0.N) :
    (dat0 (F := Idealize.ShloMosaic.Ideal) V c).flushed 2 t = ((cfg0.win 2).blk t).view.read (Elt Idealize.ShloMosaic.Ideal) (QKV enc W) := by
  show (cfg0.win 2).cut (grid0.coords t) ((dat0 V c).after 2 t) = _
  rw [after0_2]
  unfold out0_2
  rw [View.canon_unit_zero hz3]
  simp only [View.ld_unit_zero (S := S1x512x128) hz3, View.ld_unit_zero (S := S128x3072) hz2]
  obtain ⟨e0, e1, e2, e3, e4, e5, e6, e7⟩ := idx_facts0 t
  funext j
  show k0_pay1 (iblk0 V c 0 t) (iblk0 V c 1 t) j = QKV enc W (((cfg0.win 2).blk t).view.emb j)
  have hj0 : (j 0).val < 1 := (j 0).isLt
  have hj1 : (j 1).val < 512 := (j 1).isLt
  have hj2 : (j 2).val < 3072 := (j 2).isLt
  have hj : (j : S1x512x3072.Idx) = ix3 0 (j 1) (j 2) := by
    funext a
    match a with
    | ⟨0, _⟩ => exact Fin.ext (by show (j 0).val = 0; omega)
    | ⟨1, _⟩ => rfl
    | ⟨2, _⟩ => rfl
  refine (congrArg (k0_pay1 (iblk0 V c 0 t) (iblk0 V c 1 t)) hj).trans ?_
  refine proj_point (iblk0 V c 0 t) (iblk0 V c 1 t) enc W (j 1) (j 2) (((cfg0.win 2).blk t).view.emb j) ?_ ?_
  · intro e
    show V c main_arg0 (((cfg0.win 0).blk t).view.emb (ix3 0 (j 1) e)) = _
    refine (congrFun h0 _).trans (congrArg enc ?_)
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 128 + 1 * e.val = e.val; omega
  · intro e
    show V c main_v1 (((cfg0.win 1).blk t).view.emb (ix2 e (j 2))) = _
    refine (congrFun h1 _).trans (congrArg W ?_)
    funext a; apply Fin.ext
    match a with
    | ⟨0, _⟩ => show win0_1.index t (0 : Fin 2) * 128 + 1 * e.val = e.val; omega
    | ⟨1, _⟩ => show win0_1.index t (1 : Fin 2) * 3072 + 1 * (j 2).val = win0_2.index t (2 : Fin 3) * 3072 + 1 * (j 2).val; omega

/-- An index of the projected array is in point `t`'s block iff each coordinate is in the block's range on its axis. -/
theorem mem_blk0_2 (t : Fin cfg0.N) (i : S4x2048x3072.Idx) :
    i ∈ ((cfg0.win 2).blk t).view.set ↔ ∀ a : Fin 3, win0_2.index t a * S1x512x3072.size a ≤ (i a).val ∧ (i a).val < win0_2.index t a * S1x512x3072.size a + S1x512x3072.size a := by
  show i ∈ ((View.whole main_v3).slice (win0_2.rect t)).set ↔ _
  rw [View.set_slice_whole, Rect.mem_set_unit]
  exact Iff.rfl

/-- The output blocks of the sixteen points tile the projected array. -/
theorem cover0_2 (i : S4x2048x3072.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 3072 := (i 2).isLt
  obtain ⟨t, ht⟩ := idx_onto0 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 3072 ≤ (i 2).val ∧ (i 2).val < win0_2.index t (2 : Fin 3) * 3072 + 3072; omega

/-- The projected array after the first region: the fused projection of the activations by the weights. -/
theorem qkv_arr (c : Dev nD) (enc : S4x2048x128.Idx → EReal) (W : S128x3072.Idx → EReal)
    (h0 : V c main_arg0 = enc) (h1 : V c main_v1 = W) :
    (dat0 (F := Idealize.ShloMosaic.Ideal) V c).arrAt 2 cfg0.N = QKV enc W :=
  (dat0 (F := Idealize.ShloMosaic.Ideal) V c).arrAt_eq_of_cover 2 (QKV enc W) (fun t _ => flushed0_2_eq V c enc W h0 h1 t) cover0_2

end Cert.KernelIdeal.Val

end
-- ==== Proof.PaySoftmax.lean ====
/-
  The second kernel's attention block and context read at one entry, over the extended reals. The block of masked scaled
  scores (the product of the queries with the transposed keys, times the named scale, the mask's zero words replaced by
  the float −1e9) goes through the row softmax: the maximum along the keys folded from −∞, the shifted exponential, its sum
  along the keys, the quotient. The softmax is read over a VARIABLE block first; the scores' block is then put in. The
  context is the product of the attention block with the values.
-/
import proofs.«134556_j2671469658755_2_alg».proof.Proof.PayProj

noncomputable section

namespace Cert.KernelIdeal.Pay

open Cert.KernelIdeal Cert.KernelIdeal.Gen Idealize.ShloMosaic Idealize.ShloMosaic.ValueIdx
open scoped BigOperators

/-! ## Layout pieces: a column kept beside a matrix, and two unit axes in front of one -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Layout

/-- A select on "the word is zero" is the `if`. -/
theorem select_cmpi_eq_zero {α : Type} (x : BitVec 32) (A B : α) :
    Scalar.select (IntOp.cmpi .eq x 0#32) A B = if x = 0#32 then A else B := by
  by_cases h : x = 0#32
  · simp [Scalar.select, IntOp.cmpi, h]
  · have hb : (x == 0#32) = false := beq_eq_false_iff_ne.mpr h
    show (if BitVec.ofBool (x == 0#32) = 1#1 then A else B) = if x = 0#32 then A else B
    rw [hb, if_neg h]
    exact if_neg (by decide)

/-! ## The row reductions of a [512,2048] block -/

/-- Row `r` with the key coordinate `c` put back. -/
theorem lift_row2048 (h : S512x2048.Reduces [1] S512) (r : Fin 512) (c : Fin 2048) : h.lift (ix1 r) c = ix2 r c :=
  funext fun ax => Fin.ext (by match ax with | ⟨0, _⟩ => rfl | ⟨1, _⟩ => rfl)

/-- The sum along the keys of a [512,2048] block, at row `r`. -/
theorem rowSum2048_apply (v : FVec Ideal S512x2048 .f32) (h : S512x2048.Reduces [1] S512) (hφ : FKind.Formats .f32)
    (hacc : (0x00000000#32 : BitVec 32) = FKind.add.neutral .f32 hφ) (r : Fin 512) :
    multiReduction .add [1] S512 v 0x00000000#32 h hφ hacc (ix1 r) = ∑ c : Fin 2048, v (ix2 r c) :=
  (Ideal.multiReduction_add_single v _ h hφ hacc (ix1 r)).trans
    (Finset.sum_congr rfl fun c _ => congrArg v (lift_row2048 h r c))

/-- The maximum along the keys of a [512,2048] block, at row `r`: the fold of `max` from −∞. -/
theorem rowMax2048_apply (v : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 v 0xFF800000#32 h hφ hacc (ix1 r)
      = (Finset.univ : Finset (Fin 2048)).fold max ⊥ (fun c => v (ix2 r c)) := by
  refine (Ideal.multiReduction_maximumf_single v _ h hφ hacc (ix1 r)).trans ?_
  show (Finset.univ : Finset (Fin 2048)).fold max (Ideal.ofBits .f32 0xFF800000#32) (fun c => v (h.lift (ix1 r) c)) = _
  rw [Cert.Spec.ofBits_negInf]
  exact congrArg (fun f => Finset.fold max ⊥ f Finset.univ) (funext fun c => congrArg v (lift_row2048 h r c))

/-! ## The softmax along the keys, over a variable block -/

/-- The row maximum, kept as a column and spread over the keys. -/
def mxV (v : FVec Ideal S512x2048 .f32) : FVec Ideal S512x2048 .f32 :=
  broadcastTo S512x2048 (shapeCast S512x1 (multiReduction .maximumf [1] S512 v 0xFF800000#32 reduces_S512x2048_S512 (.inl rfl) rfl)
    shapeCasts_S512_S512x1) broadcasts_S512x1_S512x2048
/-- The shifted exponential. -/
def peV (v : FVec Ideal S512x2048 .f32) : FVec Ideal S512x2048 .f32 := exp (subf v (mxV v))
/-- The row's normaliser, kept as a column and spread over the keys. -/
def zV (v : FVec Ideal S512x2048 .f32) : FVec Ideal S512x2048 .f32 :=
  broadcastTo S512x2048 (shapeCast S512x1 (multiReduction .add [1] S512 (peV v) 0x00000000#32 reduces_S512x2048_S512 (.inl rfl) rfl)
    shapeCasts_S512_S512x1) broadcasts_S512x1_S512x2048
/-- The softmax. -/
def softV (v : FVec Ideal S512x2048 .f32) : FVec Ideal S512x2048 .f32 := divf (peV v) (zV v)

theorem mxV_apply (v : FVec Ideal S512x2048 .f32) (r : Fin 512) (c : Fin 2048) :
    mxV v (ix2 r c) = (Finset.univ : Finset (Fin 2048)).fold max ⊥ (fun c' => v (ix2 r c')) := by
  unfold mxV
  refine (broadcastTo_a1_ab_apply _ _ r c).trans ?_
  refine (shapeCast_a_a1_apply _ _ r 0).trans ?_
  exact rowMax2048_apply v _ _ _ r

theorem peV_apply (v : FVec Ideal S512x2048 .f32) (r : Fin 512) (c : Fin 2048) :
    peV v (ix2 r c) = Ideal.exp (v (ix2 r c) - (Finset.univ : Finset (Fin 2048)).fold max ⊥ (fun c' => v (ix2 r c'))) := by
  show Ideal.exp (v (ix2 r c) - mxV v (ix2 r c)) = _
  rw [mxV_apply]

theorem zV_apply (v : FVec Ideal S512x2048 .f32) (r : Fin 512) (c : Fin 2048) :
    zV v (ix2 r c) = ∑ c' : Fin 2048, peV v (ix2 r c') := by
  unfold zV
  refine (broadcastTo_a1_ab_apply _ _ r c).trans ?_
  refine (shapeCast_a_a1_apply _ _ r 0).trans ?_
  exact rowSum2048_apply (peV v) _ _ _ r

theorem softV_apply (v : FVec Ideal S512x2048 .f32) (r : Fin 512) (c : Fin 2048) :
    softV v (ix2 r c) = Ideal.div (peV v (ix2 r c)) (∑ c' : Fin 2048, peV v (ix2 r c')) := by
  show Ideal.div (peV v (ix2 r c)) (zV v (ix2 r c)) = _
  rw [zV_apply]

/-! ## The masked scaled scores -/

/-- The named scale denotes the real 1048576/11863283. -/
theorem kappa_eq : Named.named (F := Ideal) Cert.KernelIdeal.κ "inv_sqrt_d" (φ := .f32) 0x3DB504F3#32
    = ((1048576 / 11863283 : ℝ) : EReal) :=
  IdealRules.named_const.ideal_named_scalar _ _ _ _ rfl

/-- The masked scaled scores as a block: the mask's zero words replaced by the float −1e9. -/
def smV (q : FVec Ideal S1x512x128 .bf16) (k : FVec Ideal S1x2048x128 .bf16) (mk : IVec S1x1x512x2048 32) :
    FVec Ideal S512x2048 .f32 :=
  select (cmpi .eq (shapeCast S512x2048 mk shapeCasts_S1x1x512x2048_S512x2048) (broadcast S512x2048 0#32))
    (broadcast S512x2048 (Scalar.ofBits .f32 0xCE6E6B28#32 : Ideal .f32))
    (mulf (matmul dot_S512x128_S2048x128_S512x2048_1_1_0_0_n_n none (shapeCast S512x128 q shapeCasts_S1x512x128_S512x128)
        (shapeCast S2048x128 k shapeCasts_S1x2048x128_S2048x128) (constant S512x2048 .f32 0x00000000#32))
      (broadcast S512x2048 (Named.named κ "inv_sqrt_d" 0x3DB504F3#32 : Ideal .f32)))

/-- The second kernel's softmax block is the softmax of its masked scaled scores. -/
theorem k1_pay3_eq (q : FVec Ideal S1x512x128 .bf16) (k : FVec Ideal S1x2048x128 .bf16) (mk : IVec S1x1x512x2048 32) :
    k1_pay3 (F := Ideal) q k mk = softV (smV q k mk) := rfl

/-! ## The block-level functions, coordinate by coordinate -/

/-- The scaled score of query row `r` against key row `c`. -/
def scB (q : FVec Ideal S1x512x128 .bf16) (k : FVec Ideal S1x2048x128 .bf16) (r : Fin 512) (c : Fin 2048) : EReal :=
  (∑ d : Fin 128, q (ix3 0 r d) * k (ix3 0 c d)) * ((1048576 / 11863283 : ℝ) : EReal)
/-- The masked score. -/
def smB (q : FVec Ideal S1x512x128 .bf16) (k : FVec Ideal S1x2048x128 .bf16) (mk : IVec S1x1x512x2048 32)
    (r : Fin 512) (c : Fin 2048) : EReal :=
  if mk (ix4 0 0 r c) = 0#32 then Cert.Spec.NEG else scB q k r c
/-- The row maximum, folded from −∞. -/
def mxB (q : FVec Ideal S1x512x128 .bf16) (k : FVec Ideal S1x2048x128 .bf16) (mk : IVec S1x1x512x2048 32) (r : Fin 512) : EReal :=
  (Finset.univ : Finset (Fin 2048)).fold max ⊥ (fun c => smB q k mk r c)
/-- The shifted exponential. -/
def peB (q : FVec Ideal S1x512x128 .bf16) (k : FVec Ideal S1x2048x128 .bf16) (mk : IVec S1x1x512x2048 32)
    (r : Fin 512) (c : Fin 2048) : EReal :=
  Ideal.exp (smB q k mk r c - mxB q k mk r)
/-- The row's normaliser (the kernel's sum starts from no leading zero). -/
def zB (q : FVec Ideal S1x512x128 .bf16) (k : FVec Ideal S1x2048x128 .bf16) (mk : IVec S1x1x512x2048 32) (r : Fin 512) : EReal :=
  ∑ c : Fin 2048, peB q k mk r c
/-- The attention weights. -/
def attnB (q : FVec Ideal S1x512x128 .bf16) (k : FVec Ideal S1x2048x128 .bf16) (mk : IVec S1x1x512x2048 32)
    (r : Fin 512) (c : Fin 2048) : EReal :=
  Ideal.div (peB q k mk r c) (zB q k mk r)
/-- The context. -/
def ctxB (q : FVec Ideal S1x512x128 .bf16) (k v : FVec Ideal S1x2048x128 .bf16) (mk : IVec S1x1x512x2048 32)
    (r : Fin 512) (d : Fin 128) : EReal :=
  ∑ c : Fin 2048, attnB q k mk r c * v (ix3 0 c d)

/-- The normaliser with the leading zero of a sum folded from zero. -/
theorem zB_eq (q : FVec Ideal S1x512x128 .bf16) (k : FVec Ideal S1x2048x128 .bf16) (mk : IVec S1x1x512x2048 32) (r : Fin 512) :
    zB q k mk r = 0 + ∑ c : Fin 2048, peB q k mk r c := (zero_add _).symm

/-- The masked scaled scores at (r, c). -/
theorem smV_apply (q : FVec Ideal S1x512x128 .bf16) (k : FVec Ideal S1x2048x128 .bf16) (mk : IVec S1x1x512x2048 32)
    (r : Fin 512) (c : Fin 2048) : smV q k mk (ix2 r c) = smB q k mk r c := by
  unfold smV smB scB
  refine (select_apply _ _ _ _).trans ?_
  refine (congrArg (fun b => Scalar.select b _ _) (congrArg (IntOp.cmpi .eq · 0#32) (shapeCast_11ab_ab_apply mk _ r c))).trans ?_
  refine (select_cmpi_eq_zero _ _ _).trans ?_
  refine congrArg (fun t => if mk (ix4 0 0 r c) = 0#32 then Cert.Spec.NEG else t) ?_
  refine (mulf_apply _ _ _).trans ?_
  refine congrArg₂ (· * ·) ?_ kappa_eq
  refine (mm_score_apply _ _ r c).trans ?_
  exact Finset.sum_congr rfl fun d _ =>
    congrArg₂ (· * ·) (shapeCast_1ab_ab_apply q _ r d) (shapeCast_1ab_ab_apply k _ c d)

/-! ## The second kernel's attention block and context -/

theorem pay_attn3 (q : FVec Ideal S1x512x128 .bf16) (k : FVec Ideal S1x2048x128 .bf16) (mk : IVec S1x1x512x2048 32)
    (r : Fin 512) (c : Fin 2048) : k1_pay3 (F := Ideal) q k mk (ix2 r c) = attnB q k mk r c := by
  rw [k1_pay3_eq, softV_apply]
  simp only [peV_apply, smV_apply]
  rfl

theorem pay_attn (q : FVec Ideal S1x512x128 .bf16) (k : FVec Ideal S1x2048x128 .bf16) (mk : IVec S1x1x512x2048 32)
    (r : Fin 512) (c : Fin 2048) : k1_pay4 (F := Ideal) q k mk (ix4 0 0 r c) = attnB q k mk r c := by
  unfold k1_pay4
  exact (shapeCast_ab_11ab_apply _ _ 0 0 r c).trans (pay_attn3 q k mk r c)

theorem pay_ctx (q : FVec Ideal S1x512x128 .bf16) (k v : FVec Ideal S1x2048x128 .bf16) (mk : IVec S1x1x512x2048 32)
    (r : Fin 512) (d : Fin 128) : k1_pay1 (k1_pay5 (F := Ideal) q k v mk) (ix2 r d) = ctxB q k v mk r d := by
  unfold k1_pay1 k1_pay5 ctxB
  rw [shapeCast_self]
  refine (mm_ctx_apply _ _ r d).trans ?_
  exact Finset.sum_congr rfl fun c _ =>
    congrArg₂ (· * ·) ((truncf_apply (φ := .f32) (ψ := .bf16) _ bitsLt_bf16_f32 _).trans (pay_attn3 q k mk r c))
      (shapeCast_1ab_ab_apply v _ c d)

end Cert.KernelIdeal.Pay

end
-- ==== Proof.ValBlocks.lean ====
/-
  What the blocks of the attention region hold, when the projected array is the fused projection by the three weight
  matrices side by side. At point `32·b + 8·qt + h` the query tile holds rows `512·qt …` of head `h`'s queries, the head's
  column blocks of the key and value blocks hold the head's keys and values for every row of the sequence, and the mask tile
  holds rows `512·qt …` of batch `b`'s mask. The block-level softmax and context of such blocks are the specification's.
-/
import proofs.«134556_j2671469658755_2_alg».proof.Proof.R1Scratch
import proofs.«134556_j2671469658755_2_alg».proof.Proof.PaySoftmax
import proofs.«134556_j2671469658755_2_alg».proof.Proof.ValProj
import proofs.«134556_j2671469658755_2_alg».proof.Proof.Wcat
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.Spec
open scoped BigOperators

/-! ## The fused projection read in its three column ranges -/

/-- Columns `128h + d` of the fused projection: the queries of head `h`. -/
theorem QKV_q (enc : SEnc.Idx → EReal) (Wq Wk Wv : SWin.Idx → EReal) (i : S4x2048x3072.Idx) (b : Fin 4) (h : Fin 8) (s : Fin 2048)
    (d : Fin 128) (h0 : (i 0).val = b.val) (h1 : (i 1).val = s.val) (h2 : (i 2).val = 128 * h.val + d.val) :
    QKV enc (wcat Wq Wk Wv) i = Qh enc Wq b h s d := by
  have hd := d.isLt
  have hh := h.isLt
  have hi : i = ix3 b s (⟨128 * h.val + d.val, by omega⟩ : Fin 3072) := by
    funext a
    match a with
    | ⟨0, _⟩ => exact Fin.ext h0
    | ⟨1, _⟩ => exact Fin.ext h1
    | ⟨2, _⟩ => exact Fin.ext h2
  rw [hi, QKV_ix]
  unfold Qh Ph
  refine Finset.sum_congr rfl fun e _ => ?_
  rw [wcat_q Wq Wk Wv e _ (by show 128 * h.val + d.val < 1024; omega)]
  exact congrArg (fun n => enc (ix3 b s e) * Wq (ix2 e n)) (Fin.ext (by show 128 * h.val + d.val = h.val * 128 + d.val; omega))

/-- Columns `1024 + 128h + d`: the keys of head `h`. -/
theorem QKV_k (enc : SEnc.Idx → EReal) (Wq Wk Wv : SWin.Idx → EReal) (i : S4x2048x3072.Idx) (b : Fin 4) (h : Fin 8) (s : Fin 2048)
    (d : Fin 128) (h0 : (i 0).val = b.val) (h1 : (i 1).val = s.val) (h2 : (i 2).val = 1024 + 128 * h.val + d.val) :
    QKV enc (wcat Wq Wk Wv) i = Kh enc Wk b h s d := by
  have hd := d.isLt
  have hh := h.isLt
  have hi : i = ix3 b s (⟨1024 + 128 * h.val + d.val, by omega⟩ : Fin 3072) := by
    funext a
    match a with
    | ⟨0, _⟩ => exact Fin.ext h0
    | ⟨1, _⟩ => exact Fin.ext h1
    | ⟨2, _⟩ => exact Fin.ext h2
  rw [hi, QKV_ix]
  unfold Kh Ph
  refine Finset.sum_congr rfl fun e _ => ?_
  rw [wcat_k Wq Wk Wv e _ (by show 1024 ≤ 1024 + 128 * h.val + d.val; omega) (by show 1024 + 128 * h.val + d.val < 2048; omega)]
  exact congrArg (fun n => enc (ix3 b s e) * Wk (ix2 e n)) (Fin.ext (by show 1024 + 128 * h.val + d.val - 1024 = h.val * 128 + d.val; omega))

/-- Columns `2048 + 128h + d`: the values of head `h`. -/
theorem QKV_v (enc : SEnc.Idx → EReal) (Wq Wk Wv : SWin.Idx → EReal) (i : S4x2048x3072.Idx) (b : Fin 4) (h : Fin 8) (s : Fin 2048)
    (d : Fin 128) (h0 : (i 0).val = b.val) (h1 : (i 1).val = s.val) (h2 : (i 2).val = 2048 + 128 * h.val + d.val) :
    QKV enc (wcat Wq Wk Wv) i = Vh enc Wv b h s d := by
  have hd := d.isLt
  have hh := h.isLt
  have hi : i = ix3 b s (⟨2048 + 128 * h.val + d.val, by omega⟩ : Fin 3072) := by
    funext a
    match a with
    | ⟨0, _⟩ => exact Fin.ext h0
    | ⟨1, _⟩ => exact Fin.ext h1
    | ⟨2, _⟩ => exact Fin.ext h2
  rw [hi, QKV_ix]
  unfold Vh Ph
  refine Finset.sum_congr rfl fun e _ => ?_
  rw [wcat_v Wq Wk Wv e _ (by show 2048 ≤ 2048 + 128 * h.val + d.val; omega)]
  exact congrArg (fun n => enc (ix3 b s e) * Wv (ix2 e n)) (Fin.ext (by show 2048 + 128 * h.val + d.val - 2048 = h.val * 128 + d.val; omega))

/-! ## The softmax of a block whose rows are the specification's queries, keys and mask -/

section Point
variable (q : FVec Idealize.ShloMosaic.Ideal S1x512x128 .bf16) (k v : FVec Idealize.ShloMosaic.Ideal S1x2048x128 .bf16) (mk : IVec S1x1x512x2048 32)
  (enc : SEnc.Idx → EReal) (mask : SMask.Idx → BitVec 32) (Wq Wk Wv : SWin.Idx → EReal)
  (b : Fin 4) (h : Fin 8) (s : Fin 2048) (r : Fin 512)
  (hq : ∀ d : Fin 128, q (ix3 0 r d) = Qh enc Wq b h s d)
  (hk : ∀ (c : Fin 2048) (d : Fin 128), k (ix3 0 c d) = Kh enc Wk b h c d)
  (hm : ∀ c : Fin 2048, mk (ix4 0 0 r c) = mask (ix4 b u0 s c))
include hq hk hm

/-- The block's scaled score is the specification's: the product with the scale is the quotient by the divisor. -/
theorem scB_eq (c : Fin 2048) : Pay.scB q k r c = Sc enc Wq Wk b h s c := by
  unfold Pay.scB Sc
  rw [div_D]
  exact congrArg (· * ((1048576 / 11863283 : ℝ) : EReal)) (Finset.sum_congr rfl fun d _ => by rw [hq d, hk c d])

theorem smB_eq (c : Fin 2048) : Pay.smB q k mk r c = Sm enc mask Wq Wk b h s c := by
  unfold Pay.smB Sm
  rw [hm c, scB_eq q k mk enc mask Wq Wk b h s r hq hk hm c]

theorem mxB_eq : Pay.mxB q k mk r = Mx enc mask Wq Wk b h s := by
  unfold Pay.mxB Mx
  exact Finset.fold_congr fun c _ => smB_eq q k mk enc mask Wq Wk b h s r hq hk hm c

theorem peB_eq (c : Fin 2048) : Pay.peB q k mk r c = Pe enc mask Wq Wk b h s c := by
  unfold Pay.peB Pe
  rw [smB_eq q k mk enc mask Wq Wk b h s r hq hk hm c, mxB_eq q k mk enc mask Wq Wk b h s r hq hk hm]

theorem zB_eqZ : Pay.zB q k mk r = Z enc mask Wq Wk b h s := by
  rw [Z_eq]
  unfold Pay.zB
  exact Finset.sum_congr rfl fun c _ => peB_eq q k mk enc mask Wq Wk b h s r hq hk hm c

/-- The block's attention weights are the specification's. -/
theorem attnB_eq (c : Fin 2048) : Pay.attnB q k mk r c = ATTN enc mask Wq Wk b h s c := by
  unfold Pay.attnB ATTN
  rw [peB_eq q k mk enc mask Wq Wk b h s r hq hk hm c, zB_eqZ q k mk enc mask Wq Wk b h s r hq hk hm]

/-- The block's context is the specification's, when its value rows are the specification's values. -/
theorem ctxB_eq (hv : ∀ (c : Fin 2048) (d : Fin 128), v (ix3 0 c d) = Vh enc Wv b h c d) (d : Fin 128) :
    Pay.ctxB q k v mk r d = Cx enc mask Wq Wk Wv b s h d := by
  unfold Pay.ctxB Cx
  exact Finset.sum_congr rfl fun c _ => by rw [attnB_eq q k mk enc mask Wq Wk b h s r hq hk hm c, hv c d]

end Point

/-! ## The points of the attention region, and what their blocks hold -/

variable (V : (c : Dev nD) → (b : Ref sig .tc) → Buf (Elt Idealize.ShloMosaic.Ideal) ((c : Thread nD τ).loc b))

theorem hz4 : (![0, 0, 0, 0] : Fin 4 → Nat) = fun _ => 0 := funext fun a => by fin_cases a <;> rfl

/-- The batch of point `t = 32·b + 8·qt + h`. -/
def pb (t : Fin cfg1.N) : Fin 4 := ⟨t.val / 32, by have := t.isLt; have hN : cfg1.N = 128 := N_1; omega⟩
/-- Its head. -/
def ph (t : Fin cfg1.N) : Fin 8 := ⟨t.val % 8, by omega⟩
/-- Row `r` of its query tile, as a row of the sequence. -/
def prow (t : Fin cfg1.N) (r : Fin 512) : Fin 2048 := ⟨512 * (t.val / 8 % 4) + r.val, by have := r.isLt; omega⟩

/-- The column offset of head `h` in a whole key or value block is `128·h`. -/
theorem off1_eq (i : grid1.Coords) : k1_off1 i = ![0, 0, 128 * (i 2).val] := by
  have h8 : (i 2).val < 8 := (i 2).isLt
  have := mul128 ⟨(i 2).val, h8⟩
  unfold k1_off1
  funext a
  match a with
  | ⟨0, _⟩ => rfl
  | ⟨1, _⟩ => rfl
  | ⟨2, _⟩ => exact this

/-- The index maps over the grid, in closed form in the point's number. -/
theorem idx1_0 : ∀ t : Fin cfg1.N, win1_0.index t (0 : Fin 3) = t.val / 32 ∧ win1_0.index t (1 : Fin 3) = t.val / 8 % 4
    ∧ win1_0.index t (2 : Fin 3) = t.val % 8 :=
  (by decide +kernel : ∀ t : Fin grid1.N, _)
theorem idx1_1 : ∀ t : Fin cfg1.N, win1_1.index t (0 : Fin 3) = t.val / 32 ∧ win1_1.index t (1 : Fin 3) = 0
    ∧ win1_1.index t (2 : Fin 3) = 1 :=
  (by decide +kernel : ∀ t : Fin grid1.N, _)
theorem idx1_2 : ∀ t : Fin cfg1.N, win1_2.index t (0 : Fin 3) = t.val / 32 ∧ win1_2.index t (1 : Fin 3) = 0
    ∧ win1_2.index t (2 : Fin 3) = 2 :=
  (by decide +kernel : ∀ t : Fin grid1.N, _)
theorem idx1_3 : ∀ t : Fin cfg1.N, win1_3.index t (0 : Fin 4) = t.val / 32 ∧ win1_3.index t (1 : Fin 4) = 0
    ∧ win1_3.index t (2 : Fin 4) = t.val / 8 % 4 ∧ win1_3.index t (3 : Fin 4) = 0 :=
  (by decide +kernel : ∀ t : Fin grid1.N, _)
theorem idx1_9 : ∀ t : Fin cfg1.N, win1_9.index t (0 : Fin 4) = t.val / 32 ∧ win1_9.index t (1 : Fin 4) = t.val % 8
    ∧ win1_9.index t (2 : Fin 4) = t.val / 8 % 4 ∧ win1_9.index t (3 : Fin 4) = 0 :=
  (by decide +kernel : ∀ t : Fin grid1.N, _)

section Blocks
variable (c : Dev nD) (enc : SEnc.Idx → EReal) (mask : SMask.Idx → BitVec 32) (Wq Wk Wv : SWin.Idx → EReal)
  (hq : V c main_v3 = QKV enc (wcat Wq Wk Wv)) (hm : V c main_arg1 = mask)

include hq in
/-- The query tile of a point: rows of the head's queries. -/
theorem blkQ (t : Fin cfg1.N) (r : Fin 512) (d : Fin 128) :
    (iblk1 V c 0 t : Vec Idealize.ShloMosaic.Ideal S1x512x128 .bf16) (ix3 0 r d) = Qh enc Wq (pb t) (ph t) (prow t r) d := by
  obtain ⟨e0, e1, e2⟩ := idx1_0 t
  show V c main_v3 (((cfg1.win 0).blk t).view.emb (ix3 0 r d)) = _
  refine (congrFun hq _).trans (QKV_q enc Wq Wk Wv _ (pb t) (ph t) (prow t r) d ?_ ?_ ?_)
  · show win1_0.index t (0 : Fin 3) * 1 + 1 * 0 = t.val / 32; omega
  · show win1_0.index t (1 : Fin 3) * 512 + 1 * r.val = 512 * (t.val / 8 % 4) + r.val; omega
  · show win1_0.index t (2 : Fin 3) * 128 + 1 * d.val = 128 * (t.val % 8) + d.val; omega

include hq in
/-- The head's column block of a point's key block: the head's keys, every row of the sequence. -/
theorem blkK (t : Fin cfg1.N) (c' : Fin 2048) (d : Fin 128) :
    (View.ld (iblk1 V c 1 t : Vec Idealize.ShloMosaic.Ideal S1x2048x1024 .bf16) (rkv (grid1.coords t)) : Vec Idealize.ShloMosaic.Ideal S1x2048x128 .bf16) (ix3 0 c' d)
      = Kh enc Wk (pb t) (ph t) c' d := by
  obtain ⟨e0, e1, e2⟩ := idx1_1 t
  have hc2 := coords2 t
  show V c main_v3 (((cfg1.win 1).blk t).view.emb ((rkv (grid1.coords t)).emb (ix3 0 c' d))) = _
  refine (congrFun hq _).trans (QKV_k enc Wq Wk Wv _ (pb t) (ph t) c' d ?_ ?_ ?_)
  · show win1_1.index t (0 : Fin 3) * 1 + 1 * (k1_off1 (grid1.coords t) 0 + 1 * 0) = t.val / 32
    rw [off1_eq]; show win1_1.index t (0 : Fin 3) * 1 + 1 * (0 + 1 * 0) = t.val / 32; omega
  · show win1_1.index t (1 : Fin 3) * 2048 + 1 * (k1_off1 (grid1.coords t) 1 + 1 * c'.val) = c'.val
    rw [off1_eq]; show win1_1.index t (1 : Fin 3) * 2048 + 1 * (0 + 1 * c'.val) = c'.val; omega
  · show win1_1.index t (2 : Fin 3) * 1024 + 1 * (k1_off1 (grid1.coords t) 2 + 1 * d.val) = 1024 + 128 * (t.val % 8) + d.val
    rw [off1_eq]; show win1_1.index t (2 : Fin 3) * 1024 + 1 * (128 * ((grid1.coords t) 2).val + 1 * d.val) = 1024 + 128 * (t.val % 8) + d.val
    rw [hc2]; omega

include hq in
/-- The head's column block of a point's value block: the head's values, every row of the sequence. -/
theorem blkV (t : Fin cfg1.N) (c' : Fin 2048) (d : Fin 128) :
    (View.ld (iblk1 V c 2 t : Vec Idealize.ShloMosaic.Ideal S1x2048x1024 .bf16) (rkv (grid1.coords t)) : Vec Idealize.ShloMosaic.Ideal S1x2048x128 .bf16) (ix3 0 c' d)
      = Vh enc Wv (pb t) (ph t) c' d := by
  obtain ⟨e0, e1, e2⟩ := idx1_2 t
  have hc2 := coords2 t
  show V c main_v3 (((cfg1.win 2).blk t).view.emb ((rkv (grid1.coords t)).emb (ix3 0 c' d))) = _
  refine (congrFun hq _).trans (QKV_v enc Wq Wk Wv _ (pb t) (ph t) c' d ?_ ?_ ?_)
  · show win1_2.index t (0 : Fin 3) * 1 + 1 * (k1_off1 (grid1.coords t) 0 + 1 * 0) = t.val / 32
    rw [off1_eq]; show win1_2.index t (0 : Fin 3) * 1 + 1 * (0 + 1 * 0) = t.val / 32; omega
  · show win1_2.index t (1 : Fin 3) * 2048 + 1 * (k1_off1 (grid1.coords t) 1 + 1 * c'.val) = c'.val
    rw [off1_eq]; show win1_2.index t (1 : Fin 3) * 2048 + 1 * (0 + 1 * c'.val) = c'.val; omega
  · show win1_2.index t (2 : Fin 3) * 1024 + 1 * (k1_off1 (grid1.coords t) 2 + 1 * d.val) = 2048 + 128 * (t.val % 8) + d.val
    rw [off1_eq]; show win1_2.index t (2 : Fin 3) * 1024 + 1 * (128 * ((grid1.coords t) 2).val + 1 * d.val) = 2048 + 128 * (t.val % 8) + d.val
    rw [hc2]; omega

include hm in
/-- The mask tile of a point. -/
theorem blkM (t : Fin cfg1.N) (r : Fin 512) (c' : Fin 2048) :
    (iblk1 V c 3 t : IVec S1x1x512x2048 32) (ix4 0 0 r c') = mask (ix4 (pb t) u0 (prow t r) c') := by
  obtain ⟨e0, e1, e2, e3⟩ := idx1_3 t
  show V c main_arg1 (((cfg1.win 3).blk t).view.emb (ix4 0 0 r c')) = _
  refine (congrFun hm _).trans (congrArg mask ?_)
  funext a; apply Fin.ext
  match a with
  | ⟨0, _⟩ => show win1_3.index t (0 : Fin 4) * 1 + 1 * 0 = t.val / 32; omega
  | ⟨1, _⟩ => show win1_3.index t (1 : Fin 4) * 1 + 1 * 0 = 0; omega
  | ⟨2, _⟩ => show win1_3.index t (2 : Fin 4) * 512 + 1 * r.val = 512 * (t.val / 8 % 4) + r.val; omega
  | ⟨3, _⟩ => show win1_3.index t (3 : Fin 4) * 2048 + 1 * c'.val = c'.val; omega

include hq hm in
/-- The attention block a point stores, entry by entry. -/
theorem attn_at (t : Fin cfg1.N) (r : Fin 512) (c' : Fin 2048) :
    k1_pay4 (F := Idealize.ShloMosaic.Ideal) (iblk1 V c 0 t) (View.ld (iblk1 V c 1 t) (rkv (grid1.coords t))) (iblk1 V c 3 t) (ix4 0 0 r c')
      = ATTN enc mask Wq Wk (pb t) (ph t) (prow t r) c' :=
  (Pay.pay_attn (iblk1 V c 0 t) (View.ld (iblk1 V c 1 t) (rkv (grid1.coords t))) (iblk1 V c 3 t) r c').trans
    (attnB_eq (iblk1 V c 0 t) (View.ld (iblk1 V c 1 t) (rkv (grid1.coords t))) (iblk1 V c 3 t) enc mask Wq Wk (pb t) (ph t) (prow t r) r
      (blkQ V c enc Wq Wk Wv hq t r) (blkK V c enc Wq Wk Wv hq t) (blkM V c mask hm t r) c')

end Blocks

section Ctx
variable (c : Dev nD) (enc : SEnc.Idx → EReal) (mask : SMask.Idx → BitVec 32) (Wq Wk Wv : SWin.Idx → EReal)
  (hq : V c main_v3 = QKV enc (wcat Wq Wk Wv)) (hm : V c main_arg1 = mask)

include hq hm in
/-- The context tile a point stores, entry by entry. -/
theorem ctx_at (t : Fin cfg1.N) (r : Fin 512) (d : Fin 128) :
    ctxAt (F := Idealize.ShloMosaic.Ideal) V c t (ix2 r d) = Cx enc mask Wq Wk Wv (pb t) (prow t r) (ph t) d := by
  unfold ctxAt ctxBlk
  simp only [View.ld_unit_zero (S := S1x512x128) hz3, View.ld_unit_zero (S := S1x1x512x2048) hz4]
  exact (Pay.pay_ctx (iblk1 V c 0 t) (View.ld (iblk1 V c 1 t) (rkv (grid1.coords t))) (View.ld (iblk1 V c 2 t) (rkv (grid1.coords t)))
      (iblk1 V c 3 t) r d).trans
    (ctxB_eq (iblk1 V c 0 t) (View.ld (iblk1 V c 1 t) (rkv (grid1.coords t))) (View.ld (iblk1 V c 2 t) (rkv (grid1.coords t)))
      (iblk1 V c 3 t) enc mask Wq Wk Wv (pb t) (ph t) (prow t r) r
      (blkQ V c enc Wq Wk Wv hq t r) (blkK V c enc Wq Wk Wv hq t) (blkM V c mask hm t r) (blkV V c enc Wq Wk Wv hq t) d)

end Ctx

end Cert.KernelIdeal.Val

end
-- ==== Proof.ValAttn.lean ====
/-
  The attention array after the second region. Every grid point stores, into its block of the attention array, the softmax
  of the masked scaled scores of its query tile against its head's keys; the blocks of the 128 points cover the array, so the
  array ends holding the specification's attention weights.
-/
import proofs.«134556_j2671469658755_2_alg».proof.Proof.ValBlocks

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.Spec
open scoped BigOperators

variable (V : (c : Dev nD) → (b : Ref sig .tc) → Buf (Elt Idealize.ShloMosaic.Ideal) ((c : Thread nD τ).loc b))

theorem ATTN_congr (enc : SEnc.Idx → EReal) (mask : SMask.Idx → BitVec 32) (Wq Wk : SWin.Idx → EReal)
    {b b' : Fin 4} {h h' : Fin 8} {s s' k k' : Fin 2048} (hb : b = b') (hh : h = h') (hs : s = s') (hk : k = k') :
    ATTN enc mask Wq Wk b h s k = ATTN enc mask Wq Wk b' h' s' k' := by
  subst hb hh hs hk; rfl

/-- What a point writes back into the attention array is its block of the specification's attention weights. -/
theorem flushed1_9_eq (c : Dev nD) (enc : SEnc.Idx → EReal) (mask : SMask.Idx → BitVec 32) (Wq Wk Wv : SWin.Idx → EReal)
    (hq : V c main_v3 = QKV enc (wcat Wq Wk Wv)) (hm : V c main_arg1 = mask) (t : Fin cfg1.N) :
    (dat1 (F := Idealize.ShloMosaic.Ideal) V c).flushed 9 t
      = ((cfg1.win 9).blk t).view.read (Elt Idealize.ShloMosaic.Ideal) (ATTNarr enc mask Wq Wk) := by
  show (cfg1.win 9).cut (grid1.coords t) ((dat1 V c).after 9 t) = _
  rw [after1_9]
  unfold attnBlk
  rw [View.canon_unit_zero hz4]
  simp only [View.ld_unit_zero (S := S1x512x128) hz3, View.ld_unit_zero (S := S1x1x512x2048) hz4]
  obtain ⟨e0, e1, e2, e3⟩ := idx1_9 t
  funext j
  show k1_pay4 (iblk1 V c 0 t) (View.ld (iblk1 V c 1 t) (rkv (grid1.coords t))) (iblk1 V c 3 t) j
    = ATTNarr enc mask Wq Wk (((cfg1.win 9).blk t).view.emb j)
  have hj0 : (j 0).val < 1 := (j 0).isLt
  have hj1 : (j 1).val < 1 := (j 1).isLt
  have hj : (j : S1x1x512x2048.Idx) = ix4 0 0 (j 2) (j 3) := by
    funext a
    match a with
    | ⟨0, _⟩ => exact Fin.ext (by show (j 0).val = 0; omega)
    | ⟨1, _⟩ => exact Fin.ext (by show (j 1).val = 0; omega)
    | ⟨2, _⟩ => rfl
    | ⟨3, _⟩ => rfl
  refine (congrArg (k1_pay4 (iblk1 V c 0 t) (View.ld (iblk1 V c 1 t) (rkv (grid1.coords t))) (iblk1 V c 3 t)) hj).trans ?_
  refine (attn_at V c enc mask Wq Wk Wv hq hm t (j 2) (j 3)).trans ?_
  show _ = ATTN enc mask Wq Wk (((cfg1.win 9).blk t).view.emb j 0) (((cfg1.win 9).blk t).view.emb j 1)
    (((cfg1.win 9).blk t).view.emb j 2) (((cfg1.win 9).blk t).view.emb j 3)
  refine ATTN_congr enc mask Wq Wk (Fin.ext ?_) (Fin.ext ?_) (Fin.ext ?_) (Fin.ext ?_)
  · show t.val / 32 = win1_9.index t (0 : Fin 4) * 1 + 1 * (j 0).val; omega
  · show t.val % 8 = win1_9.index t (1 : Fin 4) * 1 + 1 * (j 1).val; omega
  · show 512 * (t.val / 8 % 4) + (j 2).val = win1_9.index t (2 : Fin 4) * 512 + 1 * (j 2).val; omega
  · show (j 3).val = win1_9.index t (3 : Fin 4) * 2048 + 1 * (j 3).val; omega

/-- An index of the attention array is in point `t`'s block iff each coordinate is in the block's range on its axis. -/
theorem mem_blk1_9 (t : Fin cfg1.N) (i : S4x8x2048x2048.Idx) :
    i ∈ ((cfg1.win 9).blk t).view.set ↔ ∀ a : Fin 4, win1_9.index t a * S1x1x512x2048.size a ≤ (i a).val
      ∧ (i a).val < win1_9.index t a * S1x1x512x2048.size a + S1x1x512x2048.size a := by
  show i ∈ ((View.whole main_v4_1).slice (win1_9.rect t)).set ↔ _
  rw [View.set_slice_whole, Rect.mem_set_unit]
  exact Iff.rfl

/-- The attention blocks of the 128 points tile the attention array: entry `(b, h, q, k)` is in the block of point
    `32·b + 8·(q / 512) + h`. -/
theorem cover1_9 (i : S4x8x2048x2048.Idx) :
    ∃ t : Fin cfg1.N, (cfg1.win 9).flush t = true ∧ i ∈ ((cfg1.win 9).blk t).view.set := by
  have hi0 : (i 0).val < 4 := (i 0).isLt
  have hi1 : (i 1).val < 8 := (i 1).isLt
  have hi2 : (i 2).val < 2048 := (i 2).isLt
  have hi3 : (i 3).val < 2048 := (i 3).isLt
  have hN : cfg1.N = 128 := N_1
  obtain ⟨t, tv⟩ : ∃ t : Fin cfg1.N, t.val = 32 * (i 0).val + 8 * ((i 2).val / 512) + (i 1).val :=
    ⟨⟨32 * (i 0).val + 8 * ((i 2).val / 512) + (i 1).val, by omega⟩, rfl⟩
  obtain ⟨e0, e1, e2, e3⟩ := idx1_9 t
  refine ⟨t, flush1_9 t, ?_⟩
  rw [mem_blk1_9]
  intro a
  match a with
  | ⟨0, _⟩ => show win1_9.index t (0 : Fin 4) * 1 ≤ (i 0).val ∧ (i 0).val < win1_9.index t (0 : Fin 4) * 1 + 1; omega
  | ⟨1, _⟩ => show win1_9.index t (1 : Fin 4) * 1 ≤ (i 1).val ∧ (i 1).val < win1_9.index t (1 : Fin 4) * 1 + 1; omega
  | ⟨2, _⟩ => show win1_9.index t (2 : Fin 4) * 512 ≤ (i 2).val ∧ (i 2).val < win1_9.index t (2 : Fin 4) * 512 + 512; omega
  | ⟨3, _⟩ => show win1_9.index t (3 : Fin 4) * 2048 ≤ (i 3).val ∧ (i 3).val < win1_9.index t (3 : Fin 4) * 2048 + 2048; omega

/-- The attention array after the second region: the specification's attention weights. -/
theorem attn_arr (c : Dev nD) (enc : SEnc.Idx → EReal) (mask : SMask.Idx → BitVec 32) (Wq Wk Wv : SWin.Idx → EReal)
    (hq : V c main_v3 = QKV enc (wcat Wq Wk Wv)) (hm : V c main_arg1 = mask) :
    (dat1 (F := Idealize.ShloMosaic.Ideal) V c).arrAt 9 cfg1.N = ATTNarr enc mask Wq Wk :=
  (dat1 (F := Idealize.ShloMosaic.Ideal) V c).arrAt_eq_of_cover 9 (ATTNarr enc mask Wq Wk)
    (fun t _ => flushed1_9_eq V c enc mask Wq Wk Wv hq hm t) cover1_9

end Cert.KernelIdeal.Val

end
-- ==== Proof.PayNorm.lean ====
/-
  The second kernel's normalised block read at one entry, over the extended reals: the projection of the concatenated
  heads by the output weights plus the residual, then the layer normalisation along the features — the row mean (the
  row sum over the float 128), the centred block, the row variance, the reciprocal square root of the variance plus ε,
  the scale and the shift. The normalisation is read over a VARIABLE block first; the projected block is then put in.
-/
import proofs.«134556_j2671469658755_2_alg».proof.Proof.PaySoftmax

noncomputable section

namespace Cert.KernelIdeal.Pay

open Cert.KernelIdeal Cert.KernelIdeal.Gen Idealize.ShloMosaic Idealize.ShloMosaic.ValueIdx
open scoped BigOperators

/-! ## The row sum of a [512,128] block -/

/-- Row `r` with the feature coordinate `e` put back. -/
theorem lift_row128 (h : S512x128.Reduces [1] S512) (r : Fin 512) (e : Fin 128) : h.lift (ix1 r) e = ix2 r e :=
  funext fun ax => Fin.ext (by match ax with | ⟨0, _⟩ => rfl | ⟨1, _⟩ => rfl)

/-- The sum along the features of a [512,128] block, at row `r`. -/
theorem rowSum128_apply (t : FVec Ideal S512x128 .f32) (h : S512x128.Reduces [1] S512) (hφ : FKind.Formats .f32)
    (hacc : (0x00000000#32 : BitVec 32) = FKind.add.neutral .f32 hφ) (r : Fin 512) :
    multiReduction .add [1] S512 t 0x00000000#32 h hφ hacc (ix1 r) = ∑ e : Fin 128, t (ix2 r e) :=
  (Ideal.multiReduction_add_single t _ h hφ hacc (ix1 r)).trans
    (Finset.sum_congr rfl fun e _ => congrArg t (lift_row128 h r e))

/-! ## The layer normalisation along the features, over a variable block -/

/-- The row mean, kept as a column. -/
def muC (t : FVec Ideal S512x128 .f32) : FVec Ideal S512x1 .f32 :=
  divf (shapeCast S512x1 (multiReduction .add [1] S512 t 0x00000000#32 reduces_S512x128_S512 (.inl rfl) rfl) shapeCasts_S512_S512x1)
    (broadcast S512x1 (Scalar.ofBits .f32 0x43000000#32 : Ideal .f32))
/-- The centred block. -/
def cenV (t : FVec Ideal S512x128 .f32) : FVec Ideal S512x128 .f32 :=
  subf t (broadcastTo S512x128 (muC t) broadcasts_S512x1_S512x128)
/-- The row variance, kept as a column. -/
def varC (t : FVec Ideal S512x128 .f32) : FVec Ideal S512x1 .f32 :=
  divf (shapeCast S512x1 (multiReduction .add [1] S512 (mulf (cenV t) (cenV t)) 0x00000000#32 reduces_S512x128_S512 (.inl rfl) rfl)
      shapeCasts_S512_S512x1)
    (broadcast S512x1 (Scalar.ofBits .f32 0x43000000#32 : Ideal .f32))
/-- The normalised, scaled and shifted block. -/
def normV (t : FVec Ideal S512x128 .f32) (sc bi : FVec Ideal S128 .f32) : FVec Ideal S512x128 .f32 :=
  addf
    (mulf
      (mulf (cenV t)
        (broadcastTo S512x128 (rsqrt (addf (varC t) (broadcast S512x1 (Scalar.ofBits .f32 0x358637BD#32 : Ideal .f32))))
          broadcasts_S512x1_S512x128))
      (broadcastTo S512x128 (shapeCast S1x128 sc shapeCasts_S128_S1x128) broadcasts_S1x128_S512x128))
    (broadcastTo S512x128 (shapeCast S1x128 bi shapeCasts_S128_S1x128) broadcasts_S1x128_S512x128)

theorem muC_apply (t : FVec Ideal S512x128 .f32) (r : Fin 512) (u : Fin 1) :
    muC t (ix2 r u) = Ideal.div (∑ e : Fin 128, t (ix2 r e)) Cert.Spec.C128 := by
  show Ideal.div (shapeCast S512x1 (multiReduction .add [1] S512 t 0x00000000#32 reduces_S512x128_S512 (.inl rfl) rfl)
    shapeCasts_S512_S512x1 (ix2 r u)) Cert.Spec.C128 = _
  refine congrArg (Ideal.div · Cert.Spec.C128) ?_
  exact (shapeCast_a_a1_apply _ _ r u).trans (rowSum128_apply t _ _ _ r)

theorem cenV_apply (t : FVec Ideal S512x128 .f32) (r : Fin 512) (e : Fin 128) :
    cenV t (ix2 r e) = t (ix2 r e) - Ideal.div (∑ e' : Fin 128, t (ix2 r e')) Cert.Spec.C128 := by
  show t (ix2 r e) - broadcastTo S512x128 (muC t) broadcasts_S512x1_S512x128 (ix2 r e) = _
  rw [broadcastTo_a1_ab_apply, muC_apply]

theorem varC_apply (t : FVec Ideal S512x128 .f32) (r : Fin 512) (u : Fin 1) :
    varC t (ix2 r u) = Ideal.div (∑ e : Fin 128, cenV t (ix2 r e) * cenV t (ix2 r e)) Cert.Spec.C128 := by
  show Ideal.div (shapeCast S512x1 (multiReduction .add [1] S512 (mulf (cenV t) (cenV t)) 0x00000000#32 reduces_S512x128_S512 (.inl rfl) rfl)
    shapeCasts_S512_S512x1 (ix2 r u)) Cert.Spec.C128 = _
  refine congrArg (Ideal.div · Cert.Spec.C128) ?_
  exact (shapeCast_a_a1_apply _ _ r u).trans (rowSum128_apply (mulf (cenV t) (cenV t)) _ _ _ r)

theorem normV_apply (t : FVec Ideal S512x128 .f32) (sc bi : FVec Ideal S128 .f32) (r : Fin 512) (e : Fin 128) :
    normV t sc bi (ix2 r e)
      = (cenV t (ix2 r e) * Ideal.rsqrt (varC t (ix2 r (0 : Fin 1)) + Cert.Spec.EPS)) * sc (ix1 e) + bi (ix1 e) := by
  show (cenV t (ix2 r e)
        * broadcastTo S512x128 (rsqrt (addf (varC t) (broadcast S512x1 (Scalar.ofBits .f32 0x358637BD#32 : Ideal .f32))))
            broadcasts_S512x1_S512x128 (ix2 r e))
      * broadcastTo S512x128 (shapeCast S1x128 sc shapeCasts_S128_S1x128) broadcasts_S1x128_S512x128 (ix2 r e)
      + broadcastTo S512x128 (shapeCast S1x128 bi shapeCasts_S128_S1x128) broadcasts_S1x128_S512x128 (ix2 r e) = _
  rw [broadcastTo_a1_ab_apply, broadcastTo_1b_ab_apply, broadcastTo_1b_ab_apply, shapeCast_a_1a_apply, shapeCast_a_1a_apply]
  rfl

/-! ## The projected context with the residual, as a block -/

/-- The output projection of the concatenated heads plus the residual. -/
def xV (s : FVec Ideal S512x1024 .f32) (wo : FVec Ideal S1024x128 .bf16) (x4 : FVec Ideal S1x512x128 .f32) :
    FVec Ideal S512x128 .f32 :=
  addf (matmul dot_S512x1024_S1024x128_S512x128_1_0_0_1_n_n none (truncf .bf16 s bitsLt_bf16_f32)
      (shapeCast S1024x128 wo shapeCasts_S1024x128_S1024x128) (constant S512x128 .f32 0x00000000#32))
    (shapeCast S512x128 x4 shapeCasts_S1x512x128_S512x128)

/-- The second kernel's normalised block is the layer normalisation of the projected context with the residual. -/
theorem k1_pay2_eq (s : FVec Ideal S512x1024 .f32) (wo : FVec Ideal S1024x128 .bf16) (x4 : FVec Ideal S1x512x128 .f32)
    (sc bi : FVec Ideal S128 .f32) :
    k1_pay2 (F := Ideal) s wo x4 sc bi = shapeCast S1x512x128 (normV (xV s wo x4) sc bi) shapeCasts_S512x128_S1x512x128 := rfl

/-! ## The block-level functions, coordinate by coordinate -/

/-- The output projection. -/
def yB (s : FVec Ideal S512x1024 .f32) (wo : FVec Ideal S1024x128 .bf16) (r : Fin 512) (e : Fin 128) : EReal :=
  ∑ j : Fin 1024, s (ix2 r j) * wo (ix2 j e)
/-- With the residual. -/
def xB (s : FVec Ideal S512x1024 .f32) (wo : FVec Ideal S1024x128 .bf16) (x4 : FVec Ideal S1x512x128 .f32)
    (r : Fin 512) (e : Fin 128) : EReal :=
  yB s wo r e + x4 (ix3 0 r e)
/-- The row mean (the kernel's sum starts from no leading zero). -/
def muB (s : FVec Ideal S512x1024 .f32) (wo : FVec Ideal S1024x128 .bf16) (x4 : FVec Ideal S1x512x128 .f32) (r : Fin 512) : EReal :=
  Ideal.div (∑ e : Fin 128, xB s wo x4 r e) Cert.Spec.C128
/-- The row variance. -/
def varB (s : FVec Ideal S512x1024 .f32) (wo : FVec Ideal S1024x128 .bf16) (x4 : FVec Ideal S1x512x128 .f32) (r : Fin 512) : EReal :=
  Ideal.div (∑ e : Fin 128, (xB s wo x4 r e - muB s wo x4 r) * (xB s wo x4 r e - muB s wo x4 r)) Cert.Spec.C128
/-- The normalised, scaled and shifted row. -/
def outB (s : FVec Ideal S512x1024 .f32) (wo : FVec Ideal S1024x128 .bf16) (x4 : FVec Ideal S1x512x128 .f32)
    (sc bi : FVec Ideal S128 .f32) (r : Fin 512) (e : Fin 128) : EReal :=
  ((xB s wo x4 r e - muB s wo x4 r) * Ideal.rsqrt (varB s wo x4 r + Cert.Spec.EPS)) * sc (ix1 e) + bi (ix1 e)

/-- The mean and the variance with the leading zero of a sum folded from zero. -/
theorem muB_eq (s : FVec Ideal S512x1024 .f32) (wo : FVec Ideal S1024x128 .bf16) (x4 : FVec Ideal S1x512x128 .f32) (r : Fin 512) :
    muB s wo x4 r = Ideal.div (0 + ∑ e : Fin 128, xB s wo x4 r e) Cert.Spec.C128 := by
  rw [zero_add]; rfl
theorem varB_eq (s : FVec Ideal S512x1024 .f32) (wo : FVec Ideal S1024x128 .bf16) (x4 : FVec Ideal S1x512x128 .f32) (r : Fin 512) :
    varB s wo x4 r
      = Ideal.div (0 + ∑ e : Fin 128, (xB s wo x4 r e - muB s wo x4 r) * (xB s wo x4 r e - muB s wo x4 r)) Cert.Spec.C128 := by
  rw [zero_add]; rfl

/-- The projected context with the residual at (r, e). -/
theorem xV_apply (s : FVec Ideal S512x1024 .f32) (wo : FVec Ideal S1024x128 .bf16) (x4 : FVec Ideal S1x512x128 .f32)
    (r : Fin 512) (e : Fin 128) : xV s wo x4 (ix2 r e) = xB s wo x4 r e := by
  unfold xV xB yB
  refine (addf_apply _ _ _).trans ?_
  refine congrArg₂ (· + ·) ?_ (shapeCast_1ab_ab_apply x4 _ r e)
  rw [shapeCast_self]
  exact mm_out_apply (truncf .bf16 s bitsLt_bf16_f32) wo r e

/-! ## The second kernel's normalised block -/

theorem pay_out (s : FVec Ideal S512x1024 .f32) (wo : FVec Ideal S1024x128 .bf16) (x4 : FVec Ideal S1x512x128 .f32)
    (sc bi : FVec Ideal S128 .f32) (r : Fin 512) (e : Fin 128) :
    k1_pay2 (F := Ideal) s wo x4 sc bi (ix3 0 r e) = outB s wo x4 sc bi r e := by
  rw [k1_pay2_eq]
  refine (shapeCast_ab_1ab_apply _ _ 0 r e).trans ?_
  rw [normV_apply, varC_apply]
  simp only [cenV_apply, xV_apply]
  rfl

end Cert.KernelIdeal.Pay

end
-- ==== Proof.Payloads.lean ====
/-
  The kernels' stored blocks read at one entry, over the extended reals: the projection (`pay_proj`), the attention
  weights (`pay_attn`, `pay_attn3`), the context (`pay_ctx`) and the normalised output (`pay_out`), each equal to a
  block-level function written coordinate by coordinate.
-/
import proofs.«134556_j2671469658755_2_alg».proof.Proof.PayProj
import proofs.«134556_j2671469658755_2_alg».proof.Proof.PaySoftmax
import proofs.«134556_j2671469658755_2_alg».proof.Proof.PayNorm
-- ==== Proof.ValOut.lean ====
/-
  The output array after the second region. A group of eight grid points (one per head) shares a batch and a tile of 512
  rows; each point leaves its head's context tile in its column block of the scratch, so at the last head row r of the
  scratch holds the contexts of the eight heads of (batch, row) side by side. The last-head point projects that row by the
  output weights, adds the residual row and normalises: its block is the specification's OUT at (batch, row, ·). Only the
  last-head points write the output back, and their blocks tile the array, so the array ends holding OUT everywhere.
-/
import proofs.«134556_j2671469658755_2_alg».proof.Proof.R1Scratch
import proofs.«134556_j2671469658755_2_alg».proof.Proof.ValProj
import proofs.«134556_j2671469658755_2_alg».proof.Proof.Wcat
import proofs.«134556_j2671469658755_2_alg».proof.Proof.ValBlocks
import proofs.«134556_j2671469658755_2_alg».proof.Proof.Payloads
import proofs.«134556_j2671469658755_2_alg».proof.Proof.Spec
import Idealize.ShloMosaic.Lib.Pipeline.Value

set_option maxRecDepth 16384

noncomputable section

namespace Cert.KernelIdeal.ValO

open Cert.KernelIdeal Cert.KernelIdeal.Gen Cert.KernelIdeal.Hand Cert.KernelIdeal.Val
open Idealize.ShloMosaic Idealize.ShloMosaic.TcCoe Idealize.ShloMosaic.ValueIdx
open Idealize.SL Idealize.SL.Sem
open Idealize.ShloMosaic.Pipeline (Dat)
open scoped BigOperators

/-! ## The normalised row from its ingredients -/

/-- The normalised block at row `r` is the specification's row `(b, q)`, when the scratch row `r` holds the contexts of the
    eight heads of `(b, q)` side by side, the weights, scale and shift are the arguments, and the residual row is row `(b, q)`
    of the activations. -/
theorem out_point (s : FVec Idealize.ShloMosaic.Ideal S512x1024 .f32) (wo : FVec Idealize.ShloMosaic.Ideal S1024x128 .bf16) (x4 : FVec Idealize.ShloMosaic.Ideal S1x512x128 .f32)
    (sc bi : FVec Idealize.ShloMosaic.Ideal S128 .f32)
    (enc : Cert.Spec.SEnc.Idx → EReal) (mask : Cert.Spec.SMask.Idx → BitVec 32) (Wq Wk Wv : Cert.Spec.SWin.Idx → EReal)
    (Wo : Cert.Spec.SWout.Idx → EReal) (lsc lbi : Cert.Spec.SVec.Idx → EReal) (b : Fin 4) (q : Fin 2048) (r : Fin 512)
    (hs : ∀ j : Fin 1024, s (ix2 r j) = Cert.Spec.Cx enc mask Wq Wk Wv b q (Cert.Spec.headOf j) (Cert.Spec.featOf j))
    (hwo : ∀ (j : Fin 1024) (e : Fin 128), wo (ix2 j e) = Wo (ix2 j e))
    (hx4 : ∀ e : Fin 128, x4 (ix3 0 r e) = enc (ix3 b q e))
    (hsc : ∀ e : Fin 128, sc (ix1 e) = lsc (ix1 e)) (hbi : ∀ e : Fin 128, bi (ix1 e) = lbi (ix1 e)) (e : Fin 128) :
    Pay.outB s wo x4 sc bi r e = Cert.Spec.OUT enc mask Wq Wk Wv Wo lsc lbi b q e := by
  have hX : ∀ e' : Fin 128, Pay.xB s wo x4 r e' = Cert.Spec.X enc mask Wq Wk Wv Wo b q e' := by
    intro e'
    unfold Pay.xB Pay.yB Cert.Spec.X Cert.Spec.Y
    rw [hx4 e']
    refine congrArg (· + enc (ix3 b q e')) ?_
    exact Finset.sum_congr rfl fun j _ => by rw [hs j, hwo j e']
  have hmu : Pay.muB s wo x4 r = Cert.Spec.mu enc mask Wq Wk Wv Wo b q := by
    rw [Pay.muB_eq]; unfold Cert.Spec.mu; simp only [hX]
  have hvar : Pay.varB s wo x4 r = Cert.Spec.var enc mask Wq Wk Wv Wo b q := by
    rw [Pay.varB_eq]; unfold Cert.Spec.var; simp only [hX, hmu]
  unfold Pay.outB Cert.Spec.OUT
  rw [hX, hmu, hvar, hsc, hbi]

variable (V : (c : Dev nD) → (b : Ref sig .tc) → Buf (Elt Idealize.ShloMosaic.Ideal) ((c : Thread nD τ).loc b))

/-! ## The full scratch at an entry -/

/-- Column block `h` of the full scratch holds head `h`'s context tile: at a local index of the block, the tile is the
    function "column `j` reads head `j / 128`'s tile at feature `j % 128`" of the scratch index. -/
theorem scr_piece (c : Dev nD) (t : Fin cfg1.N) (h : Fin 8) (x : (rsK h).shape.Idx) :
    ctxAt V c (grpPt t h) x
      = ctxAt V c (grpPt t (Cert.Spec.headOf (((rsK h).emb x) 1))) (ix2 (((rsK h).emb x) 0) (Cert.Spec.featOf (((rsK h).emb x) 1))) := by
  have hx1 : (x 1).val < 128 := (x 1).isLt
  have hh := h.isLt
  have h1 : (((rsK h).emb x) 1).val = 128 * h.val + (x 1).val := by
    rw [Rect.emb_apply]; show 128 * h.val + 1 * (x 1).val = _; omega
  have h0 : (((rsK h).emb x) 0).val = (x 0).val := by
    rw [Rect.emb_apply]; show 0 + 1 * (x 0).val = _; omega
  have eh : Cert.Spec.headOf (((rsK h).emb x) 1) = h := Fin.ext (by show (((rsK h).emb x) 1).val / 128 = h.val; omega)
  have ef : Cert.Spec.featOf (((rsK h).emb x) 1) = ⟨(x 1).val, hx1⟩ :=
    Fin.ext (by show (((rsK h).emb x) 1).val % 128 = (x 1).val; omega)
  rw [eh, ef]
  refine congrArg (ctxAt V c (grpPt t h)) ?_
  funext a
  match a with
  | ⟨0, _⟩ => exact Fin.ext h0.symm
  | ⟨1, _⟩ => rfl

/-- The full scratch of `t`'s group at (r, j): head `j / 128`'s context tile at (r, j % 128). -/
theorem scr_read (c : Dev nD) (t : Fin cfg1.N) (r : Fin 512) (j : Fin 1024) :
    scrFull V c t (ix2 r j) = ctxAt V c (grpPt t (Cert.Spec.headOf j)) (ix2 r (Cert.Spec.featOf j)) := by
  unfold scrFull
  refine (View.canon_apply_of_pieces
    (fun y : S512x1024.Idx => ctxAt V c (grpPt t (Cert.Spec.headOf (y 1))) (ix2 (y 0) (Cert.Spec.featOf (y 1)))) _ ?_ (ix2 r j)
    (cover_scr _ _ _ _ _ _ _ _ _)).trans ?_
  · intro p hp x
    simp only [List.mem_cons, List.not_mem_nil, _root_.or_false] at hp
    rcases hp with rfl | rfl | rfl | rfl | rfl | rfl | rfl | rfl
    all_goals exact scr_piece V c t _ x
  · rfl

/-! ## The index maps of the windows the normalisation reads and writes -/

theorem hz1 : (![0] : Fin 1 → Nat) = fun _ => 0 := funext fun a => by fin_cases a; rfl

/-- The residual's tile and the output's tile sit at (batch, row tile, 0); the weights, the scale and the shift are whole. -/
theorem idx1_4 : ∀ t : Fin cfg1.N, win1_4.index t (0 : Fin 3) = t.val / 32 ∧ win1_4.index t (1 : Fin 3) = t.val / 8 % 4
    ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 1) = 0 :=
  (by decide +kernel : ∀ t : Fin grid1.N, _)
theorem idx1_8 : ∀ t : Fin cfg1.N, win1_8.index t (0 : Fin 3) = t.val / 32 ∧ win1_8.index t (1 : Fin 3) = t.val / 8 % 4
    ∧ win1_8.index t (2 : Fin 3) = 0 :=
  (by decide +kernel : ∀ t : Fin grid1.N, _)

/-! ## The blocks the normalisation reads -/

/-- The output weights' block is the whole array. -/
theorem blkWo (c : Dev nD) (Wo : Cert.Spec.SWout.Idx → EReal) (h5 : V c main_v2 = Wo) (t : Fin cfg1.N) (j : Fin 1024) (e : Fin 128) :
    (iblk1 V c 5 t : Vec Idealize.ShloMosaic.Ideal S1024x128 .bf16) (ix2 j e) = Wo (ix2 j e) := by
  obtain ⟨e0, e1⟩ := idx1_5 t
  show V c main_v2 (((cfg1.win 5).blk t).view.emb (ix2 j e)) = _
  refine (congrFun h5 _).trans (congrArg Wo ?_)
  funext a; apply Fin.ext
  match a with
  | ⟨0, _⟩ => show win1_5.index t (0 : Fin 2) * 1024 + 1 * j.val = j.val; omega
  | ⟨1, _⟩ => show win1_5.index t (1 : Fin 2) * 128 + 1 * e.val = e.val; omega

/-- The scale's block is the whole vector. -/
theorem blkSc (c : Dev nD) (lsc : Cert.Spec.SVec.Idx → EReal) (h6 : V c main_arg6 = lsc) (t : Fin cfg1.N) (e : Fin 128) :
    (iblk1 V c 6 t : Vec Idealize.ShloMosaic.Ideal S128 .f32) (ix1 e) = lsc (ix1 e) := by
  have e0 := idx1_6 t
  show V c main_arg6 (((cfg1.win 6).blk t).view.emb (ix1 e)) = _
  refine (congrFun h6 _).trans (congrArg lsc ?_)
  funext a; apply Fin.ext
  match a with
  | ⟨0, _⟩ => show win1_6.index t (0 : Fin 1) * 128 + 1 * e.val = e.val; omega

/-- The shift's block is the whole vector. -/
theorem blkBi (c : Dev nD) (lbi : Cert.Spec.SVec.Idx → EReal) (h7 : V c main_arg7 = lbi) (t : Fin cfg1.N) (e : Fin 128) :
    (iblk1 V c 7 t : Vec Idealize.ShloMosaic.Ideal S128 .f32) (ix1 e) = lbi (ix1 e) := by
  have e0 := idx1_7 t
  show V c main_arg7 (((cfg1.win 7).blk t).view.emb (ix1 e)) = _
  refine (congrFun h7 _).trans (congrArg lbi ?_)
  funext a; apply Fin.ext
  match a with
  | ⟨0, _⟩ => show win1_7.index t (0 : Fin 1) * 128 + 1 * e.val = e.val; omega

/-- The residual's tile at (0, r, e) is the activations at (batch, row, e). -/
theorem blkRes (c : Dev nD) (enc : Cert.Spec.SEnc.Idx → EReal) (h0 : V c main_arg0 = enc) (t : Fin cfg1.N) (r : Fin 512) (e : Fin 128) :
    (iblk1 V c 4 t : Vec Idealize.ShloMosaic.Ideal S1x512x128 .f32) (ix3 0 r e) = enc (ix3 (pb t) (prow t r) e) := by
  obtain ⟨e0, e1, e2⟩ := idx1_4 t
  show V c main_arg0 (((cfg1.win 4).blk t).view.emb (ix3 0 r e)) = _
  refine (congrFun h0 _).trans (congrArg enc ?_)
  funext a; apply Fin.ext
  match a with
  | ⟨0, _⟩ => show win1_4.index t (0 : Fin 3) * 1 + 1 * 0 = t.val / 32; omega
  | ⟨1, _⟩ => show win1_4.index t (1 : Fin 3) * 512 + 1 * r.val = 512 * (t.val / 8 % 4) + r.val; omega
  | ⟨2, _⟩ => show win1_4.index t (2 : Fin 3) * 128 + 1 * e.val = e.val; omega

/-! ## The scratch row at the last head -/

/-- The points of a group share the batch and the row tile; point number `h` of the group has head `h`. -/
theorem pb_grpPt (t : Fin cfg1.N) (h : Fin 8) : pb (grpPt t h) = pb t :=
  Fin.ext (by have := h.isLt; show (t.val - t.val % 8 + h.val) / 32 = t.val / 32; omega)
theorem prow_grpPt (t : Fin cfg1.N) (h : Fin 8) (r : Fin 512) : prow (grpPt t h) r = prow t r :=
  Fin.ext (by have := h.isLt; show 512 * ((t.val - t.val % 8 + h.val) / 8 % 4) + r.val = 512 * (t.val / 8 % 4) + r.val; omega)
theorem ph_grpPt (t : Fin cfg1.N) (h : Fin 8) : ph (grpPt t h) = h :=
  Fin.ext (by have := h.isLt; show (t.val - t.val % 8 + h.val) % 8 = h.val; omega)

/-- Row `r` of the full scratch of `t`'s group: the contexts of the eight heads of (batch, row) side by side. -/
theorem scr_row (c : Dev nD) (enc : Cert.Spec.SEnc.Idx → EReal) (mask : Cert.Spec.SMask.Idx → BitVec 32)
    (Wq Wk Wv : Cert.Spec.SWin.Idx → EReal) (hq : V c main_v3 = QKV enc (wcat Wq Wk Wv)) (hm : V c main_arg1 = mask)
    (t : Fin cfg1.N) (r : Fin 512) (j : Fin 1024) :
    scrFull V c t (ix2 r j)
      = Cert.Spec.Cx enc mask Wq Wk Wv (pb t) (prow t r) (Cert.Spec.headOf j) (Cert.Spec.featOf j) := by
  rw [scr_read, ctx_at V c enc mask Wq Wk Wv hq hm (grpPt t (Cert.Spec.headOf j)) r (Cert.Spec.featOf j),
    pb_grpPt, prow_grpPt, ph_grpPt]

/-! ## From the blocks to the array -/

/-- What a last-head point writes back is its block of the specification's array. -/
theorem flushed1_8_eq (c : Dev nD) (enc : Cert.Spec.SEnc.Idx → EReal) (mask : Cert.Spec.SMask.Idx → BitVec 32)
    (Wq Wk Wv : Cert.Spec.SWin.Idx → EReal) (Wo : Cert.Spec.SWout.Idx → EReal) (lsc lbi : Cert.Spec.SVec.Idx → EReal)
    (hq : V c main_v3 = QKV enc (wcat Wq Wk Wv)) (hm : V c main_arg1 = mask) (h0 : V c main_arg0 = enc)
    (h5 : V c main_v2 = Wo) (h6 : V c main_arg6 = lsc) (h7 : V c main_arg7 = lbi) (t : Fin cfg1.N) :
    (dat1 (F := Idealize.ShloMosaic.Ideal) V c).flushed 8 t
      = ((cfg1.win 8).blk t).view.read (Elt Idealize.ShloMosaic.Ideal) (Cert.Spec.OUTarr enc mask Wq Wk Wv Wo lsc lbi) := by
  show (cfg1.win 8).cut (grid1.coords t) ((dat1 V c).after 8 t) = _
  rw [after1_8]
  unfold outBlk
  rw [View.canon_unit_zero hz3]
  simp only [View.ld_unit_zero (S := S512x1024) hz2, View.ld_unit_zero (S := S1024x128) hz2,
    View.ld_unit_zero (S := S1x512x128) hz3, View.ld_unit_zero (S := S128) hz1]
  obtain ⟨e0, e1, e2⟩ := idx1_8 t
  have key : ∀ (r : Fin 512) (e : Fin 128),
      k1_pay2 (F := Idealize.ShloMosaic.Ideal) (scrFull V c t) (iblk1 V c 5 t) (iblk1 V c 4 t) (iblk1 V c 6 t) (iblk1 V c 7 t) (ix3 0 r e)
        = Cert.Spec.OUTarr enc mask Wq Wk Wv Wo lsc lbi (((cfg1.win 8).blk t).view.emb (ix3 0 r e)) := by
    intro r e
    have hemb : ((cfg1.win 8).blk t).view.emb (ix3 0 r e) = ix3 (pb t) (prow t r) e := by
      funext a; apply Fin.ext
      match a with
      | ⟨0, _⟩ => show win1_8.index t (0 : Fin 3) * 1 + 1 * 0 = t.val / 32; omega
      | ⟨1, _⟩ => show win1_8.index t (1 : Fin 3) * 512 + 1 * r.val = 512 * (t.val / 8 % 4) + r.val; omega
      | ⟨2, _⟩ => show win1_8.index t (2 : Fin 3) * 128 + 1 * e.val = e.val; omega
    rw [hemb, Cert.Spec.OUTarr_ix]
    refine (Pay.pay_out _ _ _ _ _ r e).trans ?_
    exact out_point _ _ _ _ _ enc mask Wq Wk Wv Wo lsc lbi (pb t) (prow t r) r
      (fun j' => scr_row V c enc mask Wq Wk Wv hq hm t r j')
      (fun j' e' => blkWo V c Wo h5 t j' e')
      (fun e' => blkRes V c enc h0 t r e')
      (fun e' => blkSc V c lsc h6 t e')
      (fun e' => blkBi V c lbi h7 t e') e
  funext j
  show k1_pay2 (scrFull V c t) (iblk1 V c 5 t) (iblk1 V c 4 t) (iblk1 V c 6 t) (iblk1 V c 7 t) j
    = Cert.Spec.OUTarr enc mask Wq Wk Wv Wo lsc lbi (((cfg1.win 8).blk t).view.emb j)
  have hj0 : (j 0).val < 1 := (j 0).isLt
  have hj : (j : S1x512x128.Idx) = ix3 0 (j 1) (j 2) := by
    funext a
    match a with
    | ⟨0, _⟩ => exact Fin.ext (by show (j 0).val = 0; omega)
    | ⟨1, _⟩ => rfl
    | ⟨2, _⟩ => rfl
  exact (congrArg (k1_pay2 (scrFull V c t) (iblk1 V c 5 t) (iblk1 V c 4 t) (iblk1 V c 6 t) (iblk1 V c 7 t)) hj).trans
    ((key (j 1) (j 2)).trans
      (congrArg (fun y => Cert.Spec.OUTarr enc mask Wq Wk Wv Wo lsc lbi (((cfg1.win 8).blk t).view.emb y)) hj.symm))

/-- An index of the output array is in point `t`'s block iff each coordinate is in the block's range on its axis. -/
theorem mem_blk1_8 (t : Fin cfg1.N) (i : S4x2048x128.Idx) :
    i ∈ ((cfg1.win 8).blk t).view.set ↔ ∀ a : Fin 3, win1_8.index t a * S1x512x128.size a ≤ (i a).val
      ∧ (i a).val < win1_8.index t a * S1x512x128.size a + S1x512x128.size a := by
  show i ∈ ((View.whole main_v4_0).slice (win1_8.rect t)).set ↔ _
  rw [View.set_slice_whole, Rect.mem_set_unit]
  exact Iff.rfl

/-- Row `q` of batch `b` lies in the block of the last-head point of (b, q / 512). -/
theorem cover1_8 (i : S4x2048x128.Idx) :
    ∃ t : Fin cfg1.N, (cfg1.win 8).flush t = true ∧ i ∈ ((cfg1.win 8).blk t).view.set := by
  have hi0 : (i 0).val < 4 := (i 0).isLt
  have hi1 : (i 1).val < 2048 := (i 1).isLt
  have hi2 : (i 2).val < 128 := (i 2).isLt
  have hN : cfg1.N = 128 := N_1
  let t : Fin cfg1.N := ⟨32 * (i 0).val + 8 * ((i 1).val / 512) + 7, by omega⟩
  have htv : t.val = 32 * (i 0).val + 8 * ((i 1).val / 512) + 7 := rfl
  obtain ⟨e0, e1, e2⟩ := idx1_8 t
  refine ⟨t, (flush1_8 t).mpr (by rw [htv]; omega), ?_⟩
  rw [mem_blk1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 512 ≤ (i 1).val ∧ (i 1).val < win1_8.index t (1 : Fin 3) * 512 + 512; omega
  | ⟨2, _⟩ => show win1_8.index t (2 : Fin 3) * 128 ≤ (i 2).val ∧ (i 2).val < win1_8.index t (2 : Fin 3) * 128 + 128; omega

/-- The output array after the second region: the specification's first result. -/
theorem out_arr (c : Dev nD) (enc : Cert.Spec.SEnc.Idx → EReal) (mask : Cert.Spec.SMask.Idx → BitVec 32)
    (Wq Wk Wv : Cert.Spec.SWin.Idx → EReal) (Wo : Cert.Spec.SWout.Idx → EReal) (lsc lbi : Cert.Spec.SVec.Idx → EReal)
    (hq : V c main_v3 = QKV enc (wcat Wq Wk Wv)) (hm : V c main_arg1 = mask) (h0 : V c main_arg0 = enc)
    (h5 : V c main_v2 = Wo) (h6 : V c main_arg6 = lsc) (h7 : V c main_arg7 = lbi) :
    (dat1 (F := Idealize.ShloMosaic.Ideal) V c).arrAt 8 cfg1.N = Cert.Spec.OUTarr enc mask Wq Wk Wv Wo lsc lbi :=
  (dat1 (F := Idealize.ShloMosaic.Ideal) V c).arrAt_eq_of_cover 8 (Cert.Spec.OUTarr enc mask Wq Wk Wv Wo lsc lbi)
    (fun t _ => flushed1_8_eq V c enc mask Wq Wk Wv Wo lsc lbi hq hm h0 h5 h6 h7 t) cover1_8

end Cert.KernelIdeal.ValO

end
-- ==== Proof.KernelVal.lean ====
import proofs.«134556_j2671469658755_2_alg».proof.Proof.SegsVals
import proofs.«134556_j2671469658755_2_alg».proof.Proof.HostVals
import proofs.«134556_j2671469658755_2_alg».proof.Proof.ValProj
import proofs.«134556_j2671469658755_2_alg».proof.Proof.ValAttn
import proofs.«134556_j2671469658755_2_alg».proof.Proof.ValOut

set_option maxRecDepth 16384

noncomputable section

namespace Cert.KernelIdeal.Val

open Cert.KernelIdeal
open Idealize.ShloMosaic Idealize.ShloMosaic.TcCoe Idealize.SL.Sem

/-! # The idealized kernel's two results are the specification's arrays

The projected array the first region leaves is the product of `enc` with the three weight matrices side by side; from
it, the mask, the residual, the output weights and the two normalisation vectors the second region leaves the
specification's attention probabilities and normalised output. -/

variable (m : (ℓ : Loc nD τ sig) → Buf (Elt Ideal) ℓ) (c : Dev nD)

/-- The projected array between the two regions. -/
theorem proj_arr : Hand.V2 m c main_v3
    = QKV (m ((c.tc : Thread nD τ).loc main_arg0))
        (wcat (m ((c.tc : Thread nD τ).loc main_arg2)) (m ((c.tc : Thread nD τ).loc main_arg3)) (m ((c.tc : Thread nD τ).loc main_arg4))) :=
  (Hand.V2_main_v3 m c).trans (qkv_arr (Hand.V1 m) c _ _ (Hand.V1_of m c main_arg0 (by decide)) (V1_v1 m c))

theorem mask_arr : Hand.V2 m c main_arg1 = m ((c.tc : Thread nD τ).loc main_arg1) :=
  (Hand.V2_of_ne m c main_arg1 (by decide)).trans (Hand.V1_of m c main_arg1 (by decide))
theorem enc_arr : Hand.V2 m c main_arg0 = m ((c.tc : Thread nD τ).loc main_arg0) :=
  (Hand.V2_of_ne m c main_arg0 (by decide)).trans (Hand.V1_of m c main_arg0 (by decide))
theorem wo_arr : Hand.V2 m c main_v2 = m ((c.tc : Thread nD τ).loc main_arg5) :=
  (Hand.V2_of_ne m c main_v2 (by decide)).trans (V1_v2 m c)
theorem lsc_arr : Hand.V2 m c main_arg6 = m ((c.tc : Thread nD τ).loc main_arg6) :=
  (Hand.V2_of_ne m c main_arg6 (by decide)).trans (Hand.V1_of m c main_arg6 (by decide))
theorem lbi_arr : Hand.V2 m c main_arg7 = m ((c.tc : Thread nD τ).loc main_arg7) :=
  (Hand.V2_of_ne m c main_arg7 (by decide)).trans (Hand.V1_of m c main_arg7 (by decide))

/-- The probabilities the second region leaves. -/
theorem kernel_attn : (Hand.dat1 (F := Ideal) (Hand.V2 m) c).arrAt 9 cfg1.N
    = Cert.Spec.ATTNarr (m ((c.tc : Thread nD τ).loc main_arg0)) (m ((c.tc : Thread nD τ).loc main_arg1))
        (m ((c.tc : Thread nD τ).loc main_arg2)) (m ((c.tc : Thread nD τ).loc main_arg3)) :=
  attn_arr (Hand.V2 m) c _ _ _ _ (m ((c.tc : Thread nD τ).loc main_arg4)) (proj_arr m c) (mask_arr m c)

/-- The normalised output the second region leaves. -/
theorem kernel_out : (Hand.dat1 (F := Ideal) (Hand.V2 m) c).arrAt 8 cfg1.N
    = Cert.Spec.OUTarr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) :=
  Cert.KernelIdeal.ValO.out_arr (Hand.V2 m) c _ _ _ _ _ _ _ _ (proj_arr m c) (mask_arr m c) (enc_arr m c) (wo_arr m c) (lsc_arr m c) (lbi_arr m c)

end Cert.KernelIdeal.Val

end
-- ==== Proof.RefProj.lean ====
/-
  The reference's stages up to the masked scores, read at coordinates, are the specification's named functions:
  the three head projections (a contraction over the 128 features, a reshape of the 1024 fused columns into 8 heads of
  128 and a transposition of the token and head axes), the scaled scores and the masked scores.
-/
import proofs.«134556_j2671469658755_2_alg».proof.Proof.Spec
import proofs.«134556_j2671469658755_2_alg».proof.Proof.Gen.ReferenceIdeal.Read

noncomputable section

namespace Cert.RefSpec

open Cert.ReferenceIdeal Cert.ReferenceIdeal.Gen Cert.ReferenceIdeal.Read Idealize.ShloMosaic Idealize.ShloMosaic.ValueIdx
open scoped BigOperators

/-! ## The head projections -/

/-- Token s of head h, feature d, sits at row (b, s) and fused column 128·h + d of the projection. -/
theorem idx_heads (b : Fin 4) (h : Fin 8) (s : Fin 2048) (d : Fin 128) :
    idx_main_v1 (idx_main_v2 (ix4 b h s d)) = ix3 b s (Spec.col h d) := by
  have hb := b.isLt; have hh := h.isLt; have hs := s.isLt; have hd := d.isLt
  funext a; apply Fin.ext
  match a with
  | ⟨0, _⟩ => show (((b.val * 2048 + s.val) * 8 + h.val) * 128 + d.val) / 2097152 = b.val; omega
  | ⟨1, _⟩ => show (((b.val * 2048 + s.val) * 8 + h.val) * 128 + d.val) / 1024 % 2048 = s.val; omega
  | ⟨2, _⟩ => show (((b.val * 2048 + s.val) * 8 + h.val) * 128 + d.val) % 1024 = h.val * 128 + d.val; omega

theorem lidx_proj (b : Fin 4) (s : Fin 2048) (c : Fin 1024) (e : Fin 128) :
    lidx_main_v0 (ix3 b s c) e = ix3 b s e := by
  funext a; apply Fin.ext
  match a with
  | ⟨0, _⟩ => rfl
  | ⟨1, _⟩ => rfl
  | ⟨2, _⟩ => rfl

theorem ridx_proj (b : Fin 4) (s : Fin 2048) (c : Fin 1024) (e : Fin 128) :
    ridx_main_v0 (ix3 b s c) e = ix2 e c := by
  funext a; apply Fin.ext
  match a with
  | ⟨0, _⟩ => rfl
  | ⟨1, _⟩ => rfl

/-- The queries. -/
theorem v2_ix (x0 : (⟨S4x2048x128, .f32⟩ : BufTy).Contents (Elt Ideal)) (x2 : (⟨S128x1024, .f32⟩ : BufTy).Contents (Elt Ideal))
    (b : Fin 4) (h : Fin 8) (s : Fin 2048) (d : Fin 128) :
    val_main_v2 (F := Ideal) x0 x2 (ix4 b h s d) = Spec.Qh x0 x2 b h s d := by
  rw [val_main_v2_apply, val_main_v1_apply, idx_heads, val_main_v0_apply]
  simp only [lidx_proj, ridx_proj]
  rfl

/-- The keys. -/
theorem v5_ix (x0 : (⟨S4x2048x128, .f32⟩ : BufTy).Contents (Elt Ideal)) (x3 : (⟨S128x1024, .f32⟩ : BufTy).Contents (Elt Ideal))
    (b : Fin 4) (h : Fin 8) (s : Fin 2048) (d : Fin 128) :
    val_main_v5 (F := Ideal) x0 x3 (ix4 b h s d) = Spec.Kh x0 x3 b h s d := by
  rw [val_main_v5_apply, val_main_v4_apply]
  rw [show idx_main_v4 (idx_main_v5 (ix4 b h s d)) = ix3 b s (Spec.col h d) from idx_heads b h s d, val_main_v3_apply]
  simp only [show ∀ e, lidx_main_v3 (ix3 b s (Spec.col h d)) e = ix3 b s e from lidx_proj b s _,
    show ∀ e, ridx_main_v3 (ix3 b s (Spec.col h d)) e = ix2 e (Spec.col h d) from ridx_proj b s _]
  rfl

/-- The values. -/
theorem v8_ix (x0 : (⟨S4x2048x128, .f32⟩ : BufTy).Contents (Elt Ideal)) (x4 : (⟨S128x1024, .f32⟩ : BufTy).Contents (Elt Ideal))
    (b : Fin 4) (h : Fin 8) (s : Fin 2048) (d : Fin 128) :
    val_main_v8 (F := Ideal) x0 x4 (ix4 b h s d) = Spec.Vh x0 x4 b h s d := by
  rw [val_main_v8_apply, val_main_v7_apply]
  rw [show idx_main_v7 (idx_main_v8 (ix4 b h s d)) = ix3 b s (Spec.col h d) from idx_heads b h s d, val_main_v6_apply]
  simp only [show ∀ e, lidx_main_v6 (ix3 b s (Spec.col h d)) e = ix3 b s e from lidx_proj b s _,
    show ∀ e, ridx_main_v6 (ix3 b s (Spec.col h d)) e = ix2 e (Spec.col h d) from ridx_proj b s _]
  rfl

end Cert.RefSpec

end
-- ==== Proof.RefAttn.lean ====
/-
  The reference's scores, masked scores, row maxima, shifted exponentials, normalisers and attention weights, read at
  coordinates, are the specification's named functions; so the second result is the specification's array.
-/
import proofs.«134556_j2671469658755_2_alg».proof.Proof.RefProj

noncomputable section

namespace Cert.RefSpec

open Cert.ReferenceIdeal Cert.ReferenceIdeal.Gen Cert.ReferenceIdeal.Read Idealize.ShloMosaic Idealize.ShloMosaic.ValueIdx
open scoped BigOperators

/-! ## The scores -/

theorem lidx_scores (b : Fin 4) (h : Fin 8) (q k : Fin 2048) (d : Fin 128) :
    lidx_main_v9 (ix4 b h q k) d = ix4 b h q d := by
  funext a; apply Fin.ext
  match a with
  | ⟨0, _⟩ => rfl
  | ⟨1, _⟩ => rfl
  | ⟨2, _⟩ => rfl
  | ⟨3, _⟩ => rfl

theorem ridx_scores (b : Fin 4) (h : Fin 8) (q k : Fin 2048) (d : Fin 128) :
    ridx_main_v9 (ix4 b h q k) d = ix4 b h k d := by
  funext a; apply Fin.ext
  match a with
  | ⟨0, _⟩ => rfl
  | ⟨1, _⟩ => rfl
  | ⟨2, _⟩ => rfl
  | ⟨3, _⟩ => rfl

/-- The scaled scores. -/
theorem v11_ix (x0 : (⟨S4x2048x128, .f32⟩ : BufTy).Contents (Elt Ideal)) (x2 x3 : (⟨S128x1024, .f32⟩ : BufTy).Contents (Elt Ideal))
    (b : Fin 4) (h : Fin 8) (q k : Fin 2048) :
    val_main_v11 (F := Ideal) x0 x2 x3 (ix4 b h q k) = Spec.Sc x0 x2 x3 b h q k := by
  rw [val_main_v11_apply, val_main_v9_apply, val_main_v10_apply, val_main_cst_apply]
  simp only [lidx_scores, ridx_scores, v2_ix, v5_ix, Ideal.hostDivf_def, Ideal.ofBits_def]
  rfl

/-! ## The mask -/

/-- A select on an equality test of two words is the conditional on their equality. -/
theorem select_cmpi_eq {α : Type} (x y : BitVec 32) (u v : α) :
    Scalar.select (IntOp.cmpi .eq x y) u v = if x = y then u else v := by
  show (if BitVec.ofBool (x == y) = 1#1 then u else v) = if x = y then u else v
  by_cases hxy : x = y
  · subst hxy; simp
  · have hb : (x == y) = false := beq_eq_false_iff_ne.mpr hxy
    rw [if_neg hxy, hb, if_neg (by decide)]

theorem idx_mask (b : Fin 4) (h : Fin 8) (q k : Fin 2048) :
    idx_main_call0_v0 (ix4 b h q k) = ix4 b Spec.u0 q k := by
  funext a; apply Fin.ext
  match a with
  | ⟨0, _⟩ => rfl
  | ⟨1, _⟩ => rfl
  | ⟨2, _⟩ => rfl
  | ⟨3, _⟩ => rfl

/-- The masked scores. -/
theorem v14_ix (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) (b : Fin 4) (h : Fin 8) (q k : Fin 2048) :
    val_main_v14 (F := Ideal) x0 x1 x2 x3 (ix4 b h q k) = Spec.Sm x0 x1 x2 x3 b h q k := by
  rw [val_main_v14_apply, val_main_call0_v0_apply, val_main_v13_apply, val_main_v12_apply, val_main_c_apply,
    val_main_call0_v1_apply, val_main_cst_0_apply, idx_mask, v11_ix, select_cmpi_eq]
  rfl

/-! ## The row maximum -/

/-- The host's maximum over the key axis of any array, at row (b, h, q): the fold of the maximum from the initial value
    over the keys. -/
theorem rowmax_fold (y : FVec Ideal S4x8x2048x2048 .f32) (b : Fin 4) (h : Fin 8) (q : Fin 2048) :
    Host.reduce (FloatOps.maximumf (F := Ideal) (φ := .f32)) y (val_main_cst_1 (F := Ideal))
        reducesTo_S4x8x2048x2048_S4x8x2048_d3 h_S_ (ix3 b h q)
      = (Finset.univ : Finset (Fin 2048)).fold max (Ideal.ofBits .f32 0xFF800000#32) (fun k => y (ix4 b h q k)) := by
  have hr : S4x8x2048x2048.Reduces [3] S4x8x2048 := by decide
  refine (Host.reduce_eq_fold_single (FloatOps.maximumf (F := Ideal) (φ := .f32)) y (val_main_cst_1 (F := Ideal))
    reducesTo_S4x8x2048x2048_S4x8x2048_d3 hr h_S_ (ix3 b h q)).trans ?_
  have hf : (y ∘ hr.lift (ix3 b h q)) = fun k : Fin 2048 => y (ix4 b h q k) :=
    funext fun k => congrArg y (funext fun a => Fin.ext (by
      match a with
      | ⟨0, _⟩ => rfl
      | ⟨1, _⟩ => rfl
      | ⟨2, _⟩ => rfl
      | ⟨3, _⟩ => rfl))
  exact congrArg (fun f => Finset.fold max (Ideal.ofBits .f32 0xFF800000#32) f (Finset.univ : Finset (Fin 2048))) hf

/-- The host's maximum of the masked scores over the keys. -/
theorem v15_ix (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) (b : Fin 4) (h : Fin 8) (q : Fin 2048) :
    val_main_v15 (F := Ideal) x0 x1 x2 x3 (ix3 b h q)
      = (Finset.univ : Finset (Fin 2048)).fold max (Ideal.ofBits .f32 0xFF800000#32)
          (fun k => val_main_v14 (F := Ideal) x0 x1 x2 x3 (ix4 b h q k)) :=
  rowmax_fold (val_main_v14 (F := Ideal) x0 x1 x2 x3) b h q

/-- The row maximum: the maximum of −∞ and the fold from −∞ is the fold. -/
theorem v17_ix (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) (b : Fin 4) (h : Fin 8) (q : Fin 2048) :
    val_main_v17 (F := Ideal) x0 x1 x2 x3 (ix3 b h q) = Spec.Mx x0 x1 x2 x3 b h q := by
  rw [val_main_v17_apply, val_main_v16_apply, val_main_cst_2_apply, v15_ix]
  simp only [Ideal.maximumf_def, Ideal.ofBits_def, Spec.ofBits_negInf, v14_ix]
  rw [max_eq_right bot_le]
  rfl

/-! ## The softmax -/

theorem idx_row (b : Fin 4) (h : Fin 8) (q k : Fin 2048) :
    idx_main_v18 (idx_main_v19 (ix4 b h q k)) = ix3 b h q := by
  funext a; apply Fin.ext
  match a with
  | ⟨0, _⟩ => rfl
  | ⟨1, _⟩ => rfl
  | ⟨2, _⟩ => rfl

/-- The shifted exponentials. -/
theorem v21_ix (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) (b : Fin 4) (h : Fin 8) (q k : Fin 2048) :
    val_main_v21 (F := Ideal) x0 x1 x2 x3 (ix4 b h q k) = Spec.Pe x0 x1 x2 x3 b h q k := by
  rw [val_main_v21_apply, val_main_v20_apply, val_main_v19_apply, val_main_v18_apply, idx_row, v14_ix, v17_ix]
  rfl

theorem idx_keys (b : Fin 4) (h : Fin 8) (q k : Fin 2048) :
    idx_main_v22 (ix3 b h q) k = ix4 b h q k := by
  funext a; apply Fin.ext
  match a with
  | ⟨0, _⟩ => rfl
  | ⟨1, _⟩ => rfl
  | ⟨2, _⟩ => rfl
  | ⟨3, _⟩ => rfl

/-- The normalisers. -/
theorem v22_ix (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) (b : Fin 4) (h : Fin 8) (q : Fin 2048) :
    val_main_v22 (F := Ideal) x0 x1 x2 x3 (ix3 b h q) = Spec.Z x0 x1 x2 x3 b h q := by
  rw [val_main_v22_apply, val_main_cst_3_apply]
  simp only [idx_keys, v21_ix, Ideal.ofBits_def, Ideal.ofBits_zero_f32]
  rfl

theorem idx_row' (b : Fin 4) (h : Fin 8) (q k : Fin 2048) :
    idx_main_v23 (idx_main_v24 (ix4 b h q k)) = ix3 b h q := by
  funext a; apply Fin.ext
  match a with
  | ⟨0, _⟩ => rfl
  | ⟨1, _⟩ => rfl
  | ⟨2, _⟩ => rfl

/-- The attention weights. -/
theorem v25_ix (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) (b : Fin 4) (h : Fin 8) (q k : Fin 2048) :
    val_main_v25 (F := Ideal) x0 x1 x2 x3 (ix4 b h q k) = Spec.ATTN x0 x1 x2 x3 b h q k := by
  rw [val_main_v25_apply, val_main_v24_apply, val_main_v23_apply, idx_row', v21_ix, v22_ix]
  rfl

/-- The second result is the specification's array of attention weights. -/
theorem attn_eq (x0 : (⟨S4x2048x128, .f32⟩ : BufTy).Contents (Elt Ideal)) (x1 : (⟨S4x1x2048x2048, .i32⟩ : BufTy).Contents (Elt Ideal))
    (x2 x3 : (⟨S128x1024, .f32⟩ : BufTy).Contents (Elt Ideal)) :
    val_main_v25 (F := Ideal) x0 x1 x2 x3 = Spec.ATTNarr x0 x1 x2 x3 := by
  funext i
  rw [eq_ix4 i]
  exact v25_ix x0 x1 x2 x3 (i 0) (i 1) (i 2) (i 3)

end Cert.RefSpec

end
-- ==== Proof.RefOut.lean ====
/-
  The reference's context, output projection, residual, row mean, row variance and normalised rows, read at coordinates,
  are the specification's named functions; so the first result is the specification's array.
-/
import proofs.«134556_j2671469658755_2_alg».proof.Proof.RefAttn

noncomputable section

namespace Cert.RefSpec

open Cert.ReferenceIdeal Cert.ReferenceIdeal.Gen Cert.ReferenceIdeal.Read Idealize.ShloMosaic Idealize.ShloMosaic.ValueIdx
open scoped BigOperators

/-! ## The context -/

theorem lidx_ctx (b : Fin 4) (h : Fin 8) (q : Fin 2048) (d : Fin 128) (k : Fin 2048) :
    lidx_main_v26 (ix4 b h q d) k = ix4 b h q k := by
  funext a; apply Fin.ext
  match a with
  | ⟨0, _⟩ => rfl
  | ⟨1, _⟩ => rfl
  | ⟨2, _⟩ => rfl
  | ⟨3, _⟩ => rfl

theorem ridx_ctx (b : Fin 4) (h : Fin 8) (q : Fin 2048) (d : Fin 128) (k : Fin 2048) :
    ridx_main_v26 (ix4 b h q d) k = ix4 b h k d := by
  funext a; apply Fin.ext
  match a with
  | ⟨0, _⟩ => rfl
  | ⟨1, _⟩ => rfl
  | ⟨2, _⟩ => rfl
  | ⟨3, _⟩ => rfl

/-- The context of each head. -/
theorem v26_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (b : Fin 4) (h : Fin 8) (q : Fin 2048) (d : Fin 128) :
    val_main_v26 (F := Ideal) x0 x1 x2 x3 x4 (ix4 b h q d) = Spec.Cx x0 x1 x2 x3 x4 b q h d := by
  rw [val_main_v26_apply]
  simp only [lidx_ctx, ridx_ctx, v25_ix, v8_ix]
  rfl

/-! ## The output projection and the residual -/

/-- Fused column j of token (b, q) is feature j % 128 of head j / 128. -/
theorem idx_concat (b : Fin 4) (q : Fin 2048) (j : Fin 1024) :
    idx_main_v27 (idx_main_v28 (ix3 b q j)) = ix4 b (Spec.headOf j) q (Spec.featOf j) := by
  have hb := b.isLt; have hq := q.isLt; have hj := j.isLt
  funext a; apply Fin.ext
  match a with
  | ⟨0, _⟩ => show ((b.val * 2048 + q.val) * 1024 + j.val) / 2097152 = b.val; omega
  | ⟨1, _⟩ => show ((b.val * 2048 + q.val) * 1024 + j.val) / 128 % 8 = j.val / 128; omega
  | ⟨2, _⟩ => show ((b.val * 2048 + q.val) * 1024 + j.val) / 1024 % 2048 = q.val; omega
  | ⟨3, _⟩ => show ((b.val * 2048 + q.val) * 1024 + j.val) % 128 = j.val % 128; omega

theorem lidx_out (b : Fin 4) (q : Fin 2048) (e : Fin 128) (j : Fin 1024) :
    lidx_main_v29 (ix3 b q e) j = ix3 b q j := by
  funext a; apply Fin.ext
  match a with
  | ⟨0, _⟩ => rfl
  | ⟨1, _⟩ => rfl
  | ⟨2, _⟩ => rfl

theorem ridx_out (b : Fin 4) (q : Fin 2048) (e : Fin 128) (j : Fin 1024) :
    ridx_main_v29 (ix3 b q e) j = ix2 j e := by
  funext a; apply Fin.ext
  match a with
  | ⟨0, _⟩ => rfl
  | ⟨1, _⟩ => rfl

/-- The concatenated heads. -/
theorem v28_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (b : Fin 4) (q : Fin 2048) (j : Fin 1024) :
    val_main_v28 (F := Ideal) x0 x1 x2 x3 x4 (ix3 b q j) = Spec.Cx x0 x1 x2 x3 x4 b q (Spec.headOf j) (Spec.featOf j) := by
  rw [val_main_v28_apply, val_main_v27_apply, idx_concat, v26_ix]

/-- The output projection. -/
theorem v29_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (e : Fin 128) :
    val_main_v29 (F := Ideal) x0 x1 x2 x3 x4 x5 (ix3 b q e) = Spec.Y x0 x1 x2 x3 x4 x5 b q e := by
  rw [val_main_v29_apply]
  simp only [lidx_out, ridx_out, v28_ix]
  rfl

/-- With the residual. -/
theorem v30_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (e : Fin 128) :
    val_main_v30 (F := Ideal) x0 x1 x2 x3 x4 x5 (ix3 b q e) = Spec.X x0 x1 x2 x3 x4 x5 b q e := by
  rw [val_main_v30_apply, v29_ix]
  rfl

/-! ## The row mean -/

theorem idx_feat (b : Fin 4) (q : Fin 2048) (e : Fin 128) :
    idx_main_v31 (ix2 b q) e = ix3 b q e := by
  funext a; apply Fin.ext
  match a with
  | ⟨0, _⟩ => rfl
  | ⟨1, _⟩ => rfl
  | ⟨2, _⟩ => rfl

theorem idx_tok (b : Fin 4) (q : Fin 2048) (u : Fin 1) :
    idx_main_v32 (ix3 b q u) = ix2 b q := by
  funext a; apply Fin.ext
  match a with
  | ⟨0, _⟩ => rfl
  | ⟨1, _⟩ => rfl

/-- The row mean, kept as a column. -/
theorem v34_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (u : Fin 1) :
    val_main_v34 (F := Ideal) x0 x1 x2 x3 x4 x5 (ix3 b q u) = Spec.mu x0 x1 x2 x3 x4 x5 b q := by
  rw [val_main_v34_apply, val_main_v32_apply, idx_tok, val_main_v31_apply, val_main_cst_4_apply, val_main_v33_apply,
    val_main_cst_5_apply]
  simp only [idx_feat, v30_ix, Ideal.hostDivf_def, Ideal.ofBits_def, Ideal.ofBits_zero_f32]
  rfl

/-! ## The row variance -/

theorem idx_col (b : Fin 4) (q : Fin 2048) (e : Fin 128) :
    idx_main_v35 (ix3 b q e) = ix3 b q Spec.u0 := by
  funext a; apply Fin.ext
  match a with
  | ⟨0, _⟩ => rfl
  | ⟨1, _⟩ => rfl
  | ⟨2, _⟩ => rfl

/-- The centred rows. -/
theorem v36_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (e : Fin 128) :
    val_main_v36 (F := Ideal) x0 x1 x2 x3 x4 x5 (ix3 b q e)
      = Spec.X x0 x1 x2 x3 x4 x5 b q e - Spec.mu x0 x1 x2 x3 x4 x5 b q := by
  rw [val_main_v36_apply, val_main_v35_apply, idx_col, v30_ix, v34_ix]
  rfl

theorem idx_feat' (b : Fin 4) (q : Fin 2048) (e : Fin 128) :
    idx_main_v38 (ix2 b q) e = ix3 b q e := by
  funext a; apply Fin.ext
  match a with
  | ⟨0, _⟩ => rfl
  | ⟨1, _⟩ => rfl
  | ⟨2, _⟩ => rfl

theorem idx_tok' (b : Fin 4) (q : Fin 2048) (u : Fin 1) :
    idx_main_v39 (ix3 b q u) = ix2 b q := by
  funext a; apply Fin.ext
  match a with
  | ⟨0, _⟩ => rfl
  | ⟨1, _⟩ => rfl

/-- The squared centred rows. -/
theorem v37_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (e : Fin 128) :
    val_main_v37 (F := Ideal) x0 x1 x2 x3 x4 x5 (ix3 b q e)
      = (Spec.X x0 x1 x2 x3 x4 x5 b q e - Spec.mu x0 x1 x2 x3 x4 x5 b q)
          * (Spec.X x0 x1 x2 x3 x4 x5 b q e - Spec.mu x0 x1 x2 x3 x4 x5 b q) := by
  rw [val_main_v37_apply, v36_ix]
  rfl

/-- The sum of the squared centred rows over the features. -/
theorem v38_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) :
    val_main_v38 (F := Ideal) x0 x1 x2 x3 x4 x5 (ix2 b q)
      = 0 + ∑ e : Fin 128, (Spec.X x0 x1 x2 x3 x4 x5 b q e - Spec.mu x0 x1 x2 x3 x4 x5 b q)
          * (Spec.X x0 x1 x2 x3 x4 x5 b q e - Spec.mu x0 x1 x2 x3 x4 x5 b q) := by
  rw [val_main_v38_apply, val_main_cst_6_apply, Ideal.ofBits_def, Ideal.ofBits_zero_f32]
  refine congrArg (0 + ·) (Finset.sum_congr rfl fun e _ => ?_)
  rw [idx_feat', v37_ix]

/-- The row variance, kept as a column. -/
theorem v41_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (u : Fin 1) :
    val_main_v41 (F := Ideal) x0 x1 x2 x3 x4 x5 (ix3 b q u) = Spec.var x0 x1 x2 x3 x4 x5 b q := by
  rw [val_main_v41_apply, val_main_v39_apply, idx_tok', v38_ix, val_main_v40_apply, val_main_cst_7_apply]
  rfl

/-! ## The normalised rows -/

theorem idx_col' (b : Fin 4) (q : Fin 2048) (e : Fin 128) :
    idx_main_v42 (ix3 b q e) = ix3 b q Spec.u0 := by
  funext a; apply Fin.ext
  match a with
  | ⟨0, _⟩ => rfl
  | ⟨1, _⟩ => rfl
  | ⟨2, _⟩ => rfl

theorem idx_col'' (b : Fin 4) (q : Fin 2048) (e : Fin 128) :
    idx_main_v47 (ix3 b q e) = ix3 b q Spec.u0 := by
  funext a; apply Fin.ext
  match a with
  | ⟨0, _⟩ => rfl
  | ⟨1, _⟩ => rfl
  | ⟨2, _⟩ => rfl

/-- The reciprocal standard deviation, kept as a column. -/
theorem v46_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (u : Fin 1) :
    val_main_v46 (F := Ideal) x0 x1 x2 x3 x4 x5 (ix3 b q u) = Ideal.rsqrt (Spec.var x0 x1 x2 x3 x4 x5 b q + Spec.EPS) := by
  rw [val_main_v46_apply, val_main_v45_apply, v41_ix, val_main_v44_apply, val_main_cst_8_apply]
  rfl

/-- The normalised rows before the scale and shift. -/
theorem v48_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (b : Fin 4) (q : Fin 2048) (e : Fin 128) :
    val_main_v48 (F := Ideal) x0 x1 x2 x3 x4 x5 (ix3 b q e)
      = (Spec.X x0 x1 x2 x3 x4 x5 b q e - Spec.mu x0 x1 x2 x3 x4 x5 b q)
          * Ideal.rsqrt (Spec.var x0 x1 x2 x3 x4 x5 b q + Spec.EPS) := by
  rw [val_main_v48_apply, val_main_v43_apply, val_main_v42_apply, idx_col', v30_ix, v34_ix, val_main_v47_apply, idx_col'', v46_ix]
  rfl

theorem idx_scale (b : Fin 4) (q : Fin 2048) (e : Fin 128) :
    idx_main_v49 (idx_main_v50 (ix3 b q e)) = ix1 e := by
  funext a; apply Fin.ext
  match a with
  | ⟨0, _⟩ => rfl

theorem idx_shift (b : Fin 4) (q : Fin 2048) (e : Fin 128) :
    idx_main_v52 (idx_main_v53 (ix3 b q e)) = ix1 e := by
  funext a; apply Fin.ext
  match a with
  | ⟨0, _⟩ => rfl

/-- The first result at coordinates. -/
theorem v54_ix (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (x6 x7 : (⟨S128, .f32⟩ : BufTy).Contents (Elt Ideal)) (b : Fin 4) (q : Fin 2048) (e : Fin 128) :
    val_main_v54 (F := Ideal) x0 x1 x2 x3 x4 x5 x6 x7 (ix3 b q e) = Spec.OUT x0 x1 x2 x3 x4 x5 x6 x7 b q e := by
  rw [val_main_v54_apply, val_main_v51_apply, v48_ix, val_main_v50_apply, val_main_v49_apply, idx_scale,
    val_main_v53_apply, val_main_v52_apply, idx_shift]
  rfl

/-- The first result is the specification's array of normalised rows. -/
theorem out_eq (x0 : (⟨S4x2048x128, .f32⟩ : BufTy).Contents (Elt Ideal)) (x1 : (⟨S4x1x2048x2048, .i32⟩ : BufTy).Contents (Elt Ideal))
    (x2 x3 x4 : (⟨S128x1024, .f32⟩ : BufTy).Contents (Elt Ideal)) (x5 : (⟨S1024x128, .f32⟩ : BufTy).Contents (Elt Ideal))
    (x6 x7 : (⟨S128, .f32⟩ : BufTy).Contents (Elt Ideal)) :
    val_main_v54 (F := Ideal) x0 x1 x2 x3 x4 x5 x6 x7 = Spec.OUTarr x0 x1 x2 x3 x4 x5 x6 x7 := by
  funext i
  rw [eq_ix3 i]
  exact v54_ix x0 x1 x2 x3 x4 x5 x6 x7 (i 0) (i 1) (i 2)

end Cert.RefSpec

end
-- ==== Proof.RefIsSpec.lean ====
/-
  The reference is the specification: at the extended reals the two result arrays the reference's run ends with are the
  specification's normalised rows and attention weights of the argument arrays.
-/
import proofs.«134556_j2671469658755_2_alg».proof.Proof.RefOut

noncomputable section

namespace Cert.RefSpec

open Cert.ReferenceIdeal Cert.ReferenceIdeal.Gen Cert.ReferenceIdeal.Read Idealize.ShloMosaic Idealize.ShloMosaic.TcCoe
  Idealize.SL.Sem Idealize.ShloMosaic.StableHlo

/-- The composed term of the first result is the specification's array of normalised rows. -/
theorem ref_out_eq_spec (a0 : (⟨S4x2048x128, .f32⟩ : BufTy).Contents (Elt Ideal)) (a1 : (⟨S4x1x2048x2048, .i32⟩ : BufTy).Contents (Elt Ideal))
    (a2 a3 a4 : (⟨S128x1024, .f32⟩ : BufTy).Contents (Elt Ideal)) (a5 : (⟨S1024x128, .f32⟩ : BufTy).Contents (Elt Ideal))
    (a6 a7 : (⟨S128, .f32⟩ : BufTy).Contents (Elt Ideal)) :
    val_main_v54 (F := Ideal) a0 a1 a2 a3 a4 a5 a6 a7 = Spec.OUTarr a0 a1 a2 a3 a4 a5 a6 a7 :=
  out_eq a0 a1 a2 a3 a4 a5 a6 a7

/-- The composed term of the second result is the specification's array of attention weights. -/
theorem ref_attn_eq_spec (a0 : (⟨S4x2048x128, .f32⟩ : BufTy).Contents (Elt Ideal)) (a1 : (⟨S4x1x2048x2048, .i32⟩ : BufTy).Contents (Elt Ideal))
    (a2 a3 : (⟨S128x1024, .f32⟩ : BufTy).Contents (Elt Ideal)) :
    val_main_v25 (F := Ideal) a0 a1 a2 a3 = Spec.ATTNarr a0 a1 a2 a3 :=
  attn_eq a0 a1 a2 a3

/-- The run's first result, by the name the run gives it. -/
theorem res_out_eq_spec (m : (ℓ : Loc nD τ sig) → Buf (Elt Ideal) ℓ) (c : Dev nD) :
    Cert.ReferenceIdeal.Value.res_main_v54 (F := Ideal) m c
      = Spec.OUTarr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v54_eq (F := Ideal) m c).trans (out_eq _ _ _ _ _ _ _ _)

/-- The run's second result, by the name the run gives it. -/
theorem res_attn_eq_spec (m : (ℓ : Loc nD τ sig) → Buf (Elt Ideal) ℓ) (c : Dev nD) :
    Cert.ReferenceIdeal.Value.res_main_v25 (F := Ideal) m c
      = Spec.ATTNarr (m ((c.tc : Thread nD τ).loc main_arg0)) (m ((c.tc : Thread nD τ).loc main_arg1))
          (m ((c.tc : Thread nD τ).loc main_arg2)) (m ((c.tc : Thread nD τ).loc main_arg3)) :=
  (val_main_v25_eq (F := Ideal) m c).trans (attn_eq _ _ _ _)

end Cert.RefSpec

end
-- ==== Proof.Alg.lean ====
import proofs.«134556_j2671469658755_2_alg».proof.Defs
import proofs.«134556_j2671469658755_2_alg».proof.Proof.Segs
import proofs.«134556_j2671469658755_2_alg».proof.Proof.K.Segs
import proofs.«134556_j2671469658755_2_alg».proof.Proof.KernelVal
import proofs.«134556_j2671469658755_2_alg».proof.Proof.RefIsSpec
import proofs.«134556_j2671469658755_2_alg».proof.Proof.Gen.Pre_finite_inputs
import proofs.«134556_j2671469658755_2_alg».proof.Proof.Gen.ReferenceIdeal.Run
import proofs.«134556_j2671469658755_2_alg».proof.Proof.Gen.ReferenceIdeal.Read

set_option maxRecDepth 16384

noncomputable section

namespace Cert.Proof.Claims

open Idealize.ShloMosaic Idealize.ShloMosaic.TcCoe Idealize.SL.Sem

/-! # The five claims

The three programs run to the end with their arguments unchanged; the idealized kernel differs from the kernel by
one named constant, the scale `1/D` with `D` the reference's divisor; and over the extended reals the idealized
kernel and the idealized reference leave the same two arrays: the specification's normalised output and attention
probabilities. No finiteness of the inputs is used: both programs compute the same sums in the same grouping, and a
quotient by `D` is the product with `1/D` on every extended real. -/

/-- The word-level kernel runs and leaves its arguments as launched. -/
theorem frame_k : Cert.frame_Kernel := fun m ρ _ =>
  (θ_run Cert.Kernel.defs _ _).mono (fun _ h c => (h c).2.2) (Cert.Kernel.Hand.run_outs (F := Bits) m ρ)

/-- The idealized kernel runs and leaves its arguments as launched. -/
theorem frame_ki : Cert.frame_KernelIdeal := fun m ρ _ =>
  (θ_run Cert.KernelIdeal.defs _ _).mono (fun _ h c => (h c).2.2) (Cert.KernelIdeal.Hand.run_outs (F := Ideal) m ρ)

/-- The idealized reference runs and leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the scale's float word denotes the rational `1048576/11863283`, the
    reciprocal of the reference's divisor `11863283/1048576`. -/
theorem preserves : Cert.preserves_Kernel_KernelIdeal :=
  IdealRules.named_const.statement Cert.KernelIdeal.κ "inv_sqrt_d" .f32 0x3DB504F3#32 ((1048576 / 11863283 : ℝ) : EReal) rfl

/-- Both idealized programs end with the specification's two arrays of arguments that agree. -/
theorem algebraic : Cert.algebraic_KernelIdeal_ReferenceIdeal := by
  intro m ρ m' ρ' _ hagree
  refine ⟨fun c => Cert.Spec.OUTarr (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6)) (m ((c.tc : Thread _ _).loc Cert.KernelIdeal.main_arg7)),
    fun c => Cert.Spec.ATTNarr (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run Cert.KernelIdeal.defs _ _).mono (fun _ h c => ?_) (Cert.KernelIdeal.Hand.run_outs (F := Ideal) m ρ)
    exact ⟨(h c).1.trans (Cert.KernelIdeal.Val.kernel_out m c), (h c).2.1.trans (Cert.KernelIdeal.Val.kernel_attn m c), (h c).2.2⟩
  · refine (θ_run Cert.ReferenceIdeal.defs _ _).mono (fun _ h c => ?_) (Cert.ReferenceIdeal.Value.run (F := Ideal) m' ρ')
    refine ⟨(h c).1.trans ?_, (h c).2.1.trans ?_, (h c).2.2⟩
    · rw [Cert.RefSpec.res_out_eq_spec, (hagree c).1, (hagree c).2.1, (hagree c).2.2.1, (hagree c).2.2.2.1, (hagree c).2.2.2.2.1,
        (hagree c).2.2.2.2.2.1, (hagree c).2.2.2.2.2.2.1, (hagree c).2.2.2.2.2.2.2]
    · rw [Cert.RefSpec.res_attn_eq_spec, (hagree c).1, (hagree c).2.1, (hagree c).2.2.1, (hagree c).2.2.2.1]

end Cert.Proof.Claims

end
-- ==== Proof.lean ====
/- The proof of `Cert.Claim`: the three programs' runs, the one named constant of the idealization, and the equality of the
   idealized kernel's and the idealized reference's results over the extended reals.

   The kernel is two regions. The first multiplies each 512-row tile of `enc` by the three projection matrices laid side by
   side. The second, for each batch, query tile and head, forms the head's scaled scores against all keys, replaces the masked
   ones, takes the row softmax (stored as the attention result) and its product with the head's values, kept in column block
   `h` of a scratch that lives across the eight heads; at the last head the scratch — now the whole context tile — is projected
   by the output matrix, the residual tile is added and each row is normalised. The reference computes the same sums in the
   same grouping; its quotient by the float `D ≈ √128` is the kernel's product with the named reciprocal `1/D`.

   Proof/R0, R1Data, R1Scratch, R1Body, R1Obl: each region's proof data and body obligation (the scratch's contents are part of
   the second region's invariant); Proof/K/…: the same for the word-level program; Proof/Segs…: the regions as segments of
   @main, one array shared by three windows in thirds, and the run; Proof/Spec, Ref…: the specification and the reference's run
   read as it; Proof/Pay…, Val…, Wcat, HostVals, KernelVal: the kernel's arrays are the specification's; Proof/Alg: the claims. -/
import proofs.«134556_j2671469658755_2_alg».proof.Defs
import proofs.«134556_j2671469658755_2_alg».proof.Proof.Alg
import proofs.«134556_j2671469658755_2_alg».proof.Proof.Gen.Kernel
import proofs.«134556_j2671469658755_2_alg».proof.Proof.Gen.KernelIdeal
import proofs.«134556_j2671469658755_2_alg».proof.Proof.Gen.ReferenceIdeal
import proofs.«134556_j2671469658755_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
